-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x3 : Shape := ⟨3, ![4, 1024, 3]⟩
abbrev S4x8192x3 : Shape := ⟨3, ![4, 8192, 3]⟩
abbrev S_ : Shape := ⟨0, ![]⟩

class Facts : Prop where
  bcast_S_S4x1024x3 : S_.BroadcastsInDim S4x1024x3 (![] : Fin 0 → Fin S4x1024x3.rank)
  reducesTo_S4x1024x3_S_d0_1_2 : S4x1024x3.ReducesTo [0, 1, 2] S_
  h_S_ : 0 < S_.numel
  bcast_S_S4x8192x3 : S_.BroadcastsInDim S4x8192x3 (![] : Fin 0 → Fin S4x8192x3.rank)
  reducesTo_S4x8192x3_S_d0_1_2 : S4x8192x3.ReducesTo [0, 1, 2] S_

variable [Facts]

def fn_part1 {F : FTy → Type} [FloatOps F] (main_v13 : IVec S_ 1) (main_v16 : IVec S4x1024x3 1) : IVec S_ 1 :=
  let main_c_5 : IVec S_ 1 := constantI S_ 1 1#1
  let main_v17 : IVec S_ 1 := (fun x v => Host.reduce IntOp.andi x v reducesTo_S4x1024x3_S_d0_1_2 h_S_) main_v16 main_c_5
  let main_v18 : IVec S_ 1 := andi main_v13 main_v17
  main_v18

def fn {F : FTy → Type} [FloatOps F] (main_arg0 : FVec F S4x1024x3 .f32) (main_arg1 : FVec F S4x8192x3 .f32) (main_arg2 : FVec F S4x8192x3 .f32) (main_arg3 : FVec F S4x1024x3 .f32) : IVec S_ 1 :=
  let main_v0 : FVec F S4x1024x3 .f32 := Host.absf main_arg0
  let main_cst : FVec F S_ .f32 := constant S_ .f32 0x7F800000#32
  let main_v1 : FVec F S4x1024x3 .f32 := broadcastInDim S4x1024x3 ![] bcast_S_S4x1024x3 main_cst
  let main_v2 : IVec S4x1024x3 1 := cmpf .olt main_v0 main_v1
  let main_c : IVec S_ 1 := constantI S_ 1 1#1
  let main_v3 : IVec S_ 1 := (fun x v => Host.reduce IntOp.andi x v reducesTo_S4x1024x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  let main_v9 : FVec F S4x8192x3 .f32 := Host.absf main_arg2
  let main_cst_2 : FVec F S_ .f32 := constant S_ .f32 0x7F800000#32
  let main_v10 : FVec F S4x8192x3 .f32 := broadcastInDim S4x8192x3 ![] bcast_S_S4x8192x3 main_cst_2
  let main_v11 : IVec S4x8192x3 1 := cmpf .olt main_v9 main_v10
  let main_c_3 : IVec S_ 1 := constantI S_ 1 1#1
  let main_v12 : IVec S_ 1 := (fun x v => Host.reduce IntOp.andi x v reducesTo_S4x8192x3_S_d0_1_2 h_S_) main_v11 main_c_3
  let main_v13 : IVec S_ 1 := andi main_v8 main_v12
  let main_v14 : FVec F S4x1024x3 .f32 := Host.absf main_arg3
  let main_cst_4 : FVec F S_ .f32 := constant S_ .f32 0x7F800000#32
  let main_v15 : FVec F S4x1024x3 .f32 := broadcastInDim S4x1024x3 ![] bcast_S_S4x1024x3 main_cst_4
  let main_v16 : IVec S4x1024x3 1 := cmpf .olt main_v14 main_v15
  fn_part1 (F := F) main_v13 main_v16
-- ==== Kernel.lean ====
abbrev S4x1024x3 : Shape := ⟨3, ![4, 1024, 3]⟩
abbrev S4x8192x3 : Shape := ⟨3, ![4, 8192, 3]⟩
abbrev S4x1x8192 : Shape := ⟨3, ![4, 1, 8192]⟩
abbrev S1x1024x3 : Shape := ⟨3, ![1, 1024, 3]⟩
abbrev S1x1x1024 : Shape := ⟨3, ![1, 1, 1024]⟩
abbrev S1x1x8192 : Shape := ⟨3, ![1, 1, 8192]⟩
abbrev S1024x1 : Shape := ⟨2, ![1024, 1]⟩
abbrev S1x8192 : Shape := ⟨2, ![1, 8192]⟩
abbrev S1024x3 : Shape := ⟨2, ![1024, 3]⟩
abbrev S1024 : Shape := ⟨1, ![1024]⟩
abbrev S1x1024 : Shape := ⟨2, ![1, 1024]⟩
abbrev S1024x1024 : Shape := ⟨2, ![1024, 1024]⟩
abbrev S_ : Shape := ⟨0, ![]⟩
abbrev S4x1024 : Shape := ⟨2, ![4, 1024]⟩

abbrev nBuf : Space → Nat
  | .hbm => 26
  | .vmem => 9
  | .smem => 0
  | _ => 0

abbrev bufTy : (tb : Table) → Fin (tcTables nBuf tb) → BufTy
  | .hbm, ⟨0, _⟩ => ⟨S4x1024x3, .f32⟩
  | .hbm, ⟨1, _⟩ => ⟨S4x8192x3, .f32⟩
  | .hbm, ⟨2, _⟩ => ⟨S4x8192x3, .f32⟩
  | .hbm, ⟨3, _⟩ => ⟨S4x1024x3, .f32⟩
  | .hbm, ⟨4, _⟩ => ⟨S4x1x8192, .f32⟩
  | .hbm, ⟨5, _⟩ => ⟨S4x1x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4x1024x3, .f32⟩
  | .hbm, ⟨18, _⟩ => ⟨S4x1024x3, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1x1024, .f32⟩
  | .local _ .vmem, ⟨5, _⟩ => ⟨S1x1x1024, .f32⟩
  | .local _ .vmem, ⟨6, _⟩ => ⟨S1x1x8192, .f32⟩
  | .local _ .vmem, ⟨7, _⟩ => ⟨S1x1x8192, .f32⟩
  | .local _ .vmem, ⟨8, _⟩ => ⟨S1024x1, .f32⟩
  | _, _ => ⟨S4x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_cst_3 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_4 : Ref sig .tc := ⟨.hbm, 19, rfl⟩
abbrev main_v9 : Ref sig .tc := ⟨.hbm, 20, rfl⟩
abbrev main_v10 : Ref sig .tc := ⟨.hbm, 21, rfl⟩
abbrev main_cst_5 : Ref sig .tc := ⟨.hbm, 22, rfl⟩
abbrev main_v11 : Ref sig .tc := ⟨.hbm, 23, rfl⟩
abbrev main_cst_6 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let arg2 : BitVec 32 := BitVec.ofNat 32 (i 2).val
  let c1024_i32 : BitVec 32 := 1024#32
  let v38 : BitVec 32 := Scalar.muli arg2 c1024_i32
  v38
def k0_off1 (i : grid0.Coords) : Fin 3 → Nat :=
  let c0_19 : Index := 0#32
  let c0_20 : Index := 0#32
  let arg2 : BitVec 32 := BitVec.ofNat 32 (i 2).val
  let c1024_i32 : BitVec 32 := 1024#32
  let v38 : BitVec 32 := Scalar.muli arg2 c1024_i32
  let v39 : BitVec 32 := v38
  let v40 : Index := Scalar.indexCast v39
  ![0, 0, v40.toNat]
def k0_cond3 (i : grid0.Coords) : BitVec 1 :=
  let arg2 : BitVec 32 := BitVec.ofNat 32 (i 2).val
  let c7_i32 : BitVec 32 := 7#32
  let v48 : BitVec 1 := Scalar.cmpi .eq arg2 c7_i32
  let v49 : BitVec 32 := Scalar.extui v48
  let c0_i32_23 : BitVec 32 := 0#32
  let v50 : BitVec 1 := Scalar.cmpi .ne v49 c0_i32_23
  v50

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  reduces_S1024x3_S1024 : S1024x3.Reduces [1] S1024
  shapeCasts_S1024_S1024x1 : S1024.ShapeCasts S1024x1
  shapeCasts_S1024_S1x1024 : S1024.ShapeCasts S1x1024
  bitsLt_bf16_f32 : FTy.bits .bf16 < FTy.bits .f32
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1024_S1024_2 : S1024x1024.Reduces [0] S1024
  h_S1x1x1024 : 0 < S1x1x1024.numel
  shapeCasts_S1x1x1024_S1x1024 : S1x1x1024.ShapeCasts S1x1024
  shapeCasts_S1x1024_S1x1x1024 : S1x1024.ShapeCasts S1x1x1024
  transposes_S1024x1_p1_0_S1x1024 : S1024x1.Transposes [1, 0] S1x1024
  inb_S1x1x1024_S1x1x1024_0_0_0 : ∀ a, (![0, 0, 0] : Fin 3 → Nat) a + S1x1x1024.size a ≤ S1x1x1024.size a
  reducesTo_S4x1x8192_S_d0_1_2 : S4x1x8192.ReducesTo [0, 1, 2] S_
  h_S_ : 0 < S_.numel
  reducesTo_S4x1024x3_S4x1024_d2 : S4x1024x3.ReducesTo [2] S4x1024
  reducesTo_S4x1024_S_d0_1 : S4x1024.ReducesTo [0, 1] S_
  dot_S1024x3_S1024x3_S1024x1024_1_1_0_0_n_n_wf : DotDims.WF S1024x3 S1024x3 S1024x1024 [1] [1] [0] [0] [] []
  hrank0 : 0 < grid0.rank
  k0_mult1_dvd : ∀ i : grid0.Coords, 128 ∣ (k0_mult1 i).toNat
  k0_off1_inb : ∀ i : grid0.Coords, ∀ a, (k0_off1 i) a + S1x1x1024.size a ≤ S1x1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S4x8192x3.size a
  hwx0_1 : ∀ i : grid0.Coords, EltTy.bits .f32 = 32 ∨ (Rect.block (s := S4x8192x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S4x1x8192.size a
  hwx0_2 : ∀ i : grid0.Coords, EltTy.bits .f32 = 32 ∨ (Rect.block (s := S4x1x8192) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

def dot_S1024x3_S1024x3_S1024x1024_1_1_0_0_n_n : DotDims S1024x3 S1024x3 S1024x1024 where
  lhsContracting := [1]
  rhsContracting := [1]
  lhsNonContracting := [0]
  rhsNonContracting := [0]
  lhsBatch := []
  rhsBatch := []
  wf := dot_S1024x3_S1024x3_S1024x1024_1_1_0_0_n_n_wf

abbrev win0_0 : Pipeline.Window sig grid0 :=
  Pipeline.Window.ofSpec (Memref.whole main_arg1) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun _ => false | ⟨_ + 4, h⟩ => absurd h (Nat.not_lt.2 (Nat.le_add_left _ _))

class Facts : Prop extends Facts₀ where

variable [Facts]
-- ==== ReferenceIdeal.lean ====
abbrev S4x1024x3 : Shape := ⟨3, ![4, 1024, 3]⟩
abbrev S4x8192x3 : Shape := ⟨3, ![4, 8192, 3]⟩
abbrev S_ : Shape := ⟨0, ![]⟩
abbrev S4x8192 : Shape := ⟨2, ![4, 8192]⟩
abbrev S4x8192x1 : Shape := ⟨3, ![4, 8192, 1]⟩
abbrev S4x1x8192 : Shape := ⟨3, ![4, 1, 8192]⟩
abbrev S4x8192x8192 : Shape := ⟨3, ![4, 8192, 8192]⟩
abbrev S4x1024 : Shape := ⟨2, ![4, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4x1024x3, .f32⟩
  | .hbm, ⟨1, _⟩ => ⟨S4x8192x3, .f32⟩
  | .hbm, ⟨2, _⟩ => ⟨S4x8192x3, .f32⟩
  | .hbm, ⟨3, _⟩ => ⟨S4x1024x3, .f32⟩
  | .hbm, ⟨4, _⟩ => ⟨S4x8192x3, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S4x8192x3, .f32⟩
  | .hbm, ⟨9, _⟩ => ⟨S_, .f32⟩
  | .hbm, ⟨10, _⟩ => ⟨S4x8192, .f32⟩
  | .hbm, ⟨11, _⟩ => ⟨S4x1x8192, .f32⟩
  | .hbm, ⟨12, _⟩ => ⟨S4x8192x8192, .f32⟩
  | .hbm, ⟨13, _⟩ => ⟨S4x8192x8192, .f32⟩
  | .hbm, ⟨14, _⟩ => ⟨S4x8192x8192, .f32⟩
  | .hbm, ⟨15, _⟩ => ⟨S4x8192x8192, .f32⟩
  | .hbm, ⟨16, _⟩ => ⟨S_, .f32⟩
  | .hbm, ⟨17, _⟩ => ⟨S4x8192x8192, .f32⟩
  | .hbm, ⟨18, _⟩ => ⟨S4x8192x8192, .f32⟩
  | .hbm, ⟨19, _⟩ => ⟨S4x8192x8192, .f32⟩
  | .hbm, ⟨20, _⟩ => ⟨S_, .f32⟩
  | .hbm, ⟨21, _⟩ => ⟨S4x8192x8192, .f32⟩
  | .hbm, ⟨22, _⟩ => ⟨S4x8192x8192, .f32⟩
  | .hbm, ⟨23, _⟩ => ⟨S_, .f32⟩
  | .hbm, ⟨24, _⟩ => ⟨S4x8192, .f32⟩
  | .hbm, ⟨25, _⟩ => ⟨S4x8192, .f32⟩
  | .hbm, ⟨26, _⟩ => ⟨S_, .f32⟩
  | .hbm, ⟨27, _⟩ => ⟨S4x8192, .f32⟩
  | .hbm, ⟨28, _⟩ => ⟨S4x8192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4x1024x3, .f32⟩
  | .hbm, ⟨41, _⟩ => ⟨S4x1024x3, .f32⟩
  | .hbm, ⟨42, _⟩ => ⟨S_, .f32⟩
  | .hbm, ⟨43, _⟩ => ⟨S4x1024, .f32⟩
  | .hbm, ⟨44, _⟩ => ⟨S4x1024, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S4x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_cst_9 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_v28 : Ref sig .tc := ⟨.hbm, 44, rfl⟩
abbrev main_cst_11 : Ref sig .tc := ⟨.hbm, 45, rfl⟩
abbrev main_v29 : Ref sig .tc := ⟨.hbm, 46, rfl⟩
abbrev main_cst_12 : Ref sig .tc := ⟨.hbm, 47, rfl⟩
abbrev main_v30 : Ref sig .tc := ⟨.hbm, 48, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  reducesTo_S4x1024x3_S4x1024_d2 : S4x1024x3.ReducesTo [2] S4x1024
  reducesTo_S4x1024_S_d0_1 : S4x1024.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.BodyBits.Shared.lean ====
/-
  What the five runs of the kernel body share: the four branch conditions of the body as conditions on the grid point
  (j = 0; i = 0 and j = 0; j = 7; i = 7 and j = 7, for the point (b, i, j) of the 4 × 8 × 8 grid, numbered
  t = 64 b + 8 i + j), where the row output's staging buffer is left alone (every point with j ≠ 7), and the
  staging and scratch buffers through which the contents are stated.
-/
import proofs.«171865_j33663953666360_2_alg».proof.Proof.Gen.Kernel.Frame
import proofs.«171865_j33663953666360_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions, decided over the grid -/

/-- j = 0: the row-minimum scratch is reset. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- i = 0 and j = 0: the column-minimum accumulator is reset. -/
abbrev cond0_1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
theorem hcond0_1 : ∀ t : Fin cfg0.N, cond0_1 (grid0.coords t) ↔ t.val % 64 = 0 :=
  (by decide +kernel : ∀ t : Fin grid0.N, cond0_1 (grid0.coords t) ↔ t.val % 64 = 0)

/-- j = 7: the row block is finished and written out. -/
abbrev cond0_2 (i : grid0.Coords) : Prop := k0_cond3 i = 1#1
theorem hcond0_2 : ∀ t : Fin cfg0.N, cond0_2 (grid0.coords t) ↔ t.val % 8 = 7 :=
  (by decide +kernel : ∀ t : Fin grid0.N, cond0_2 (grid0.coords t) ↔ t.val % 8 = 7)

/-- i = 7 and j = 7: the column accumulator is finished. -/
abbrev cond0_3 (i : grid0.Coords) : Prop := (Scalar.cmpi .ne (Scalar.extui (Scalar.andi (Scalar.cmpi .eq (BitVec.ofNat 32 (i 1).val) 7#32) (Scalar.cmpi .eq (BitVec.ofNat 32 (i 2).val) 7#32))) 0#32) = 1#1
theorem hcond0_3 : ∀ t : Fin cfg0.N, cond0_3 (grid0.coords t) ↔ t.val % 64 = 63 :=
  (by decide +kernel : ∀ t : Fin grid0.N, cond0_3 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_3 : ∀ t : Fin cfg0.N, cfg0.idle 3 (grid0.coords t) = false := by decide +kernel
/-- Where j ≠ 7 the body stores nothing into the row output's buffer, and the block is not written back. -/
theorem idleAt0_2 : ∀ t : Fin cfg0.N, ¬cond0_2 (grid0.coords t) → cfg0.idle 2 (grid0.coords t) = true := by decide +kernel
theorem noFlush0_2 : ∀ t : Fin cfg0.N, ¬cond0_2 (grid0.coords t) → (cfg0.win 2).flush t = false := by decide +kernel
theorem liveAt0_2 : ∀ t : Fin cfg0.N, cond0_2 (grid0.coords t) → cfg0.idle 2 (grid0.coords t) = false := by decide +kernel

/-! ## The buffers -/

abbrev VO0_2 : View sig .tc .vmem S1x1x1024 .f32 := (Memref.whole cc0_stg2_0 : Memref sig .tc .vmem S1x1x1024 .f32).view
abbrev VO0_3 : View sig .tc .vmem S1x1x8192 .f32 := (Memref.whole cc0_stg3_0 : Memref sig .tc .vmem S1x1x8192 .f32).view
abbrev ms0_0 (t : Fin cfg0.N) : Memref sig .tc .vmem S1x1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x8192 .f32 := win0_3.stage (cfg0.slots t 3)
abbrev hs0_3 (t : Fin cfg0.N) : (ms0_3 t).IsWhole := hstage0_3 ((cfg0.slots t 3).cast nbuf0_3)
/-- The row-minimum scratch. -/
abbrev scM0_0 : Memref sig .tc .vmem S1024x1 .f32 := Memref.whole cc0_scratch0
abbrev VS0_0 : View sig .tc .vmem S1024x1 .f32 := scM0_0.view

/-- The region's invariant: the scratch at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Body

end
-- ==== Proof.BodyBits.RunB.lean ====
/-
  The kernel body at a point with 0 < j < 7: nothing is reset and nothing finished. The row scratch and the column accumulator are read at what the point before left; the scratch is stored whole, the accumulator on the j-th stretch of 1024 columns only; the row output's buffer is not touched.
-/
import proofs.«171865_j33663953666360_2_alg».proof.Proof.BodyBits.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case: from the staging buffers and the scratch at the stated contents the body runs to the
    continuation holding the inputs as they were and each buffer it stored into with its stores written, latest first. -/
noncomputable def kernelRun0_B (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : ¬cond0_2 i) (hc3 : ¬cond0_3 i)
    (x0 : Vec F S1x1024x3 .f32) (x1 : Vec F S1x1024x3 .f32) (xo6 : Vec F S1x1x8192 .f32) (xs0 : Vec F S1024x1 .f32) :
    Σ' (L6 : List (View.Piece (Elt F) S1x1x8192 .f32)), { LS0 : List (View.Piece (Elt F) S1024x1 .f32) //
      ∀ (xi5 : Vec F S1x1x1024 .f32) (E : Set ℕ) (K : PUnit → sProp 𝕄),
        iprop(owns (c : Thread nD τ) arg3 fullShare x0 ∗ owns (c : Thread nD τ) arg4 fullShare x1 ∗ owns (c : Thread nD τ) arg5 fullShare xi5 ∗ owns (c : Thread nD τ) arg6 fullShare xo6 ∗ owns (c : Thread nD τ) arg7 fullShare xs0
            ∗ (iprop(owns (c : Thread nD τ) arg3 fullShare x0 ∗ owns (c : Thread nD τ) arg4 fullShare x1 ∗ owns (c : Thread nD τ) arg5 fullShare xi5 ∗ (arg6.view.loc (c : Thread nD τ) ↦[arg6.view.set]{fullShare} arg6.view.writes (Elt F) (harg6.unread xo6) L6) ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg3 harg3 arg4 harg4 arg5 harg5 arg6 harg6 arg7 harg7) K } := by
  refine ⟨?_, ?_, fun xi5 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexact H3
    iexists _; iexact HS0

end Cert.Kernel.Body

end
-- ==== Proof.BodyBits.RunA.lean ====
/-
  The kernel body at the first point of a batch (i = 0, j = 0): the row scratch and the whole column accumulator are first set to +inf, whatever they held; then the tile's row minima go into the scratch and its column minima into the first stretch of the accumulator. The row output's buffer is not touched.
-/
import proofs.«171865_j33663953666360_2_alg».proof.Proof.BodyBits.RunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case: from the staging buffers and the scratch at the stated contents the body runs to the
    continuation holding the inputs as they were and each buffer it stored into with its stores written, latest first. -/
noncomputable def kernelRun0_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : cond0_0 i) (hc1 : cond0_1 i) (hc2 : ¬cond0_2 i) (hc3 : ¬cond0_3 i)
    (x0 : Vec F S1x1024x3 .f32) (x1 : Vec F S1x1024x3 .f32) :
    Σ' (L6 : List (View.Piece (Elt F) S1x1x8192 .f32)), { LS0 : List (View.Piece (Elt F) S1024x1 .f32) //
      ∀ (xi5 : Vec F S1x1x1024 .f32) (E : Set ℕ) (K : PUnit → sProp 𝕄),
        iprop(owns (c : Thread nD τ) arg3 fullShare x0 ∗ owns (c : Thread nD τ) arg4 fullShare x1 ∗ owns (c : Thread nD τ) arg5 fullShare xi5 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare xi5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg3 harg3 arg4 harg4 arg5 harg5 arg6 harg6 arg7 harg7) K } := by
  refine ⟨?_, ?_, fun xi5 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg3.eq_unread hf0; obtain rfl := harg4.eq_unread hf1; obtain rfl := harg5.eq_unread hf2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Body

end
-- ==== Proof.BodyBits.RunD.lean ====
/-
  The kernel body at the first point of a later row block (j = 0, i > 0): the row scratch is reset to +inf; the column accumulator is read at what the point before left and updated on its first stretch. The row output's buffer is not touched.
-/
import proofs.«171865_j33663953666360_2_alg».proof.Proof.BodyBits.RunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case: from the staging buffers and the scratch at the stated contents the body runs to the
    continuation holding the inputs as they were and each buffer it stored into with its stores written, latest first. -/
noncomputable def kernelRun0_D (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : cond0_0 i) (hc1 : ¬cond0_1 i) (hc2 : ¬cond0_2 i) (hc3 : ¬cond0_3 i)
    (x0 : Vec F S1x1024x3 .f32) (x1 : Vec F S1x1024x3 .f32) (xo6 : Vec F S1x1x8192 .f32) :
    Σ' (L6 : List (View.Piece (Elt F) S1x1x8192 .f32)), { LS0 : List (View.Piece (Elt F) S1024x1 .f32) //
      ∀ (xi5 : Vec F S1x1x1024 .f32) (E : Set ℕ) (K : PUnit → sProp 𝕄),
        iprop(owns (c : Thread nD τ) arg3 fullShare x0 ∗ owns (c : Thread nD τ) arg4 fullShare x1 ∗ owns (c : Thread nD τ) arg5 fullShare xi5 ∗ owns (c : Thread nD τ) arg6 fullShare xo6 ∗ (∃ d, owns (c : Thread nD τ) arg7 fullShare d)
            ∗ (iprop(owns (c : Thread nD τ) arg3 fullShare x0 ∗ owns (c : Thread nD τ) arg4 fullShare x1 ∗ owns (c : Thread nD τ) arg5 fullShare xi5 ∗ (arg6.view.loc (c : Thread nD τ) ↦[arg6.view.set]{fullShare} arg6.view.writes (Elt F) (harg6.unread xo6) L6) ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg3 harg3 arg4 harg4 arg5 harg5 arg6 harg6 arg7 harg7) K } := by
  refine ⟨?_, ?_, fun xi5 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexact H3
    iexists _; iexact HS0

end Cert.Kernel.Body

end
-- ==== Proof.BodyBits.RunC.lean ====
/-
  The kernel body at the last point of a row block that is not the batch's last (j = 7, i < 7): after the updates the roots of the finished row minima are stored, whole, into the row output's buffer, whatever it held.
-/
import proofs.«171865_j33663953666360_2_alg».proof.Proof.BodyBits.RunD

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case: from the staging buffers and the scratch at the stated contents the body runs to the
    continuation holding the inputs as they were and each buffer it stored into with its stores written, latest first. -/
noncomputable def kernelRun0_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : ¬cond0_3 i)
    (x0 : Vec F S1x1024x3 .f32) (x1 : Vec F S1x1024x3 .f32) (xo6 : Vec F S1x1x8192 .f32) (xs0 : Vec F S1024x1 .f32) :
    Σ' (L5 : List (View.Piece (Elt F) S1x1x1024 .f32)) (L6 : List (View.Piece (Elt F) S1x1x8192 .f32)), { LS0 : List (View.Piece (Elt F) S1024x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo6 ∗ owns (c : Thread nD τ) arg7 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L5) ∗ (arg6.view.loc (c : Thread nD τ) ↦[arg6.view.set]{fullShare} arg6.view.writes (Elt F) (harg6.unread xo6) L6) ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg3 harg3 arg4 harg4 arg5 harg5 arg6 harg6 arg7 harg7) K } := by
  refine ⟨?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg3.eq_unread hf0; obtain rfl := harg4.eq_unread hf1; obtain rfl := harg6.eq_unread hf3; obtain rfl := harg7.eq_unread hfs0
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexact H3
    iexists _; iexact HS0

end Cert.Kernel.Body

end
-- ==== Proof.BodyBits.RunE.lean ====
/-
  The kernel body at the last point of a batch (i = 7, j = 7): after the updates the roots of the row minima go into the row output's buffer and the whole column accumulator is replaced by its roots.
-/
import proofs.«171865_j33663953666360_2_alg».proof.Proof.BodyBits.RunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case: from the staging buffers and the scratch at the stated contents the body runs to the
    continuation holding the inputs as they were and each buffer it stored into with its stores written, latest first. -/
noncomputable def kernelRun0_E (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : cond0_3 i)
    (x0 : Vec F S1x1024x3 .f32) (x1 : Vec F S1x1024x3 .f32) (xo6 : Vec F S1x1x8192 .f32) (xs0 : Vec F S1024x1 .f32) :
    Σ' (L5 : List (View.Piece (Elt F) S1x1x1024 .f32)) (L6 : List (View.Piece (Elt F) S1x1x8192 .f32)), { LS0 : List (View.Piece (Elt F) S1024x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo6 ∗ owns (c : Thread nD τ) arg7 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg3 harg3 arg4 harg4 arg5 harg5 arg6 harg6 arg7 harg7) K } := by
  refine ⟨?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg3.eq_unread hf0; obtain rfl := harg4.eq_unread hf1; obtain rfl := harg6.eq_unread hf3; obtain rfl := harg7.eq_unread hfs0
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    iexists _; iexact HS0

end Cert.Kernel.Body

end
-- ==== Proof.BodyBits.Frame.lean ====
/-
  The frame of the kernel's launch, with every output named.

  After the body at grid point t = 64 b + 8 i + j three buffers matter: the row-minimum scratch, the column-minimum
  accumulator (the column output's staging buffer, kept for all 64 points of a batch and written back after the last),
  and the row output's staging buffer (stored only at j = 7 and written back there). `outsAt0` names what the first two
  hold after each point, by recursion on the point: the body's stores of that point's case read back over what the point
  before left; `rowOut0` names the row block stored at a point with j = 7. With these as the proof data the body
  obligation holds at every point, the launch theorem runs the region and the host lines after it, and the argument
  arrays end unchanged.
-/
import proofs.«171865_j33663953666360_2_alg».proof.Proof.BodyBits.RunE

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (Dat)

/-- Case A: the stores into the scratch cover it. -/
theorem scover0_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : cond0_0 i) (hc1 : cond0_1 i) (hc2 : ¬cond0_2 i) (hc3 : ¬cond0_3 i)
    (x0 : Vec F S1x1024x3 .f32) (x1 : Vec F S1x1024x3 .f32) (y : S1024x1.Idx) :
    ∃ pc ∈ (kernelRun0_A c i arg3 harg3 arg4 harg4 arg5 harg5 arg6 harg6 arg7 harg7 hc0 hc1 hc2 hc3 x0 x1).2.1, y ∈ pc.1.set :=
  View.cover_of_tiledL (kernelRun0_A c i arg3 harg3 arg4 harg4 arg5 harg5 arg6 harg6 arg7 harg7 hc0 hc1 hc2 hc3 x0 x1).2.1 S1024x1.size (by sl_kernel_rfl) y

/-- Case A: what the scratch holds after the body. -/
def sout0_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : cond0_0 i) (hc1 : cond0_1 i) (hc2 : ¬cond0_2 i) (hc3 : ¬cond0_3 i)
    (x0 : Vec F S1x1024x3 .f32) (x1 : Vec F S1x1024x3 .f32) : Vec F S1024x1 .f32 :=
  VS0_0.read (Elt F) (VS0_0.writes (Elt F) VS0_0.junk (kernelRun0_A c i arg3 harg3 arg4 harg4 arg5 harg5 arg6 harg6 arg7 harg7 hc0 hc1 hc2 hc3 x0 x1).2.1)

/-- Case A: the stores into the column accumulator cover it. -/
theorem cover6_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : cond0_0 i) (hc1 : cond0_1 i) (hc2 : ¬cond0_2 i) (hc3 : ¬cond0_3 i)
    (x0 : Vec F S1x1024x3 .f32) (x1 : Vec F S1x1024x3 .f32) (y : S1x1x8192.Idx) :
    ∃ pc ∈ (kernelRun0_A c i arg3 harg3 arg4 harg4 arg5 harg5 arg6 harg6 arg7 harg7 hc0 hc1 hc2 hc3 x0 x1).1, y ∈ pc.1.set :=
  View.cover_of_tiledL (kernelRun0_A c i arg3 harg3 arg4 harg4 arg5 harg5 arg6 harg6 arg7 harg7 hc0 hc1 hc2 hc3 x0 x1).1 S1x1x8192.size (by sl_kernel_rfl) y

/-- Case A: what the column accumulator holds after the body. -/
def out6_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : cond0_0 i) (hc1 : cond0_1 i) (hc2 : ¬cond0_2 i) (hc3 : ¬cond0_3 i)
    (x0 : Vec F S1x1024x3 .f32) (x1 : Vec F S1x1024x3 .f32) : Vec F S1x1x8192 .f32 :=
  VO0_3.read (Elt F) (VO0_3.writes (Elt F) VO0_3.junk (kernelRun0_A c i arg3 harg3 arg4 harg4 arg5 harg5 arg6 harg6 arg7 harg7 hc0 hc1 hc2 hc3 x0 x1).1)

/-- Case B: the stores into the scratch cover it. -/
theorem scover0_B (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : ¬cond0_2 i) (hc3 : ¬cond0_3 i)
    (x0 : Vec F S1x1024x3 .f32) (x1 : Vec F S1x1024x3 .f32) (xo6 : Vec F S1x1x8192 .f32) (xs0 : Vec F S1024x1 .f32) (y : S1024x1.Idx) :
    ∃ pc ∈ (kernelRun0_B c i arg3 harg3 arg4 harg4 arg5 harg5 arg6 harg6 arg7 harg7 hc0 hc1 hc2 hc3 x0 x1 xo6 xs0).2.1, y ∈ pc.1.set :=
  View.cover_of_tiledL (kernelRun0_B c i arg3 harg3 arg4 harg4 arg5 harg5 arg6 harg6 arg7 harg7 hc0 hc1 hc2 hc3 x0 x1 xo6 xs0).2.1 S1024x1.size (by sl_kernel_rfl) y

/-- Case B: what the scratch holds after the body. -/
def sout0_B (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : ¬cond0_2 i) (hc3 : ¬cond0_3 i)
    (x0 : Vec F S1x1024x3 .f32) (x1 : Vec F S1x1024x3 .f32) (xo6 : Vec F S1x1x8192 .f32) (xs0 : Vec F S1024x1 .f32) : Vec F S1024x1 .f32 :=
  VS0_0.read (Elt F) (VS0_0.writes (Elt F) VS0_0.junk (kernelRun0_B c i arg3 harg3 arg4 harg4 arg5 harg5 arg6 harg6 arg7 harg7 hc0 hc1 hc2 hc3 x0 x1 xo6 xs0).2.1)

/-- Case B: what the column accumulator holds after the body: the one stretch stored, over what it held. -/
def out6_B (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : ¬cond0_2 i) (hc3 : ¬cond0_3 i)
    (x0 : Vec F S1x1024x3 .f32) (x1 : Vec F S1x1024x3 .f32) (xo6 : Vec F S1x1x8192 .f32) (xs0 : Vec F S1024x1 .f32) : Vec F S1x1x8192 .f32 :=
  arg6.view.read (Elt F) (arg6.view.writes (Elt F) (harg6.unread xo6) (kernelRun0_B c i arg3 harg3 arg4 harg4 arg5 harg5 arg6 harg6 arg7 harg7 hc0 hc1 hc2 hc3 x0 x1 xo6 xs0).1)

/-- Case C: the stores into the scratch cover it. -/
theorem scover0_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : ¬cond0_3 i)
    (x0 : Vec F S1x1024x3 .f32) (x1 : Vec F S1x1024x3 .f32) (xo6 : Vec F S1x1x8192 .f32) (xs0 : Vec F S1024x1 .f32) (y : S1024x1.Idx) :
    ∃ pc ∈ (kernelRun0_C c i arg3 harg3 arg4 harg4 arg5 harg5 arg6 harg6 arg7 harg7 hc0 hc1 hc2 hc3 x0 x1 xo6 xs0).2.2.1, y ∈ pc.1.set :=
  View.cover_of_tiledL (kernelRun0_C c i arg3 harg3 arg4 harg4 arg5 harg5 arg6 harg6 arg7 harg7 hc0 hc1 hc2 hc3 x0 x1 xo6 xs0).2.2.1 S1024x1.size (by sl_kernel_rfl) y

/-- Case C: what the scratch holds after the body. -/
def sout0_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : ¬cond0_3 i)
    (x0 : Vec F S1x1024x3 .f32) (x1 : Vec F S1x1024x3 .f32) (xo6 : Vec F S1x1x8192 .f32) (xs0 : Vec F S1024x1 .f32) : Vec F S1024x1 .f32 :=
  VS0_0.read (Elt F) (VS0_0.writes (Elt F) VS0_0.junk (kernelRun0_C c i arg3 harg3 arg4 harg4 arg5 harg5 arg6 harg6 arg7 harg7 hc0 hc1 hc2 hc3 x0 x1 xo6 xs0).2.2.1)

/-- Case C: what the column accumulator holds after the body: the one stretch stored, over what it held. -/
def out6_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : ¬cond0_3 i)
    (x0 : Vec F S1x1024x3 .f32) (x1 : Vec F S1x1024x3 .f32) (xo6 : Vec F S1x1x8192 .f32) (xs0 : Vec F S1024x1 .f32) : Vec F S1x1x8192 .f32 :=
  arg6.view.read (Elt F) (arg6.view.writes (Elt F) (harg6.unread xo6) (kernelRun0_C c i arg3 harg3 arg4 harg4 arg5 harg5 arg6 harg6 arg7 harg7 hc0 hc1 hc2 hc3 x0 x1 xo6 xs0).2.1)

/-- Case C: the store into the row output's buffer covers it. -/
theorem cover5_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : ¬cond0_3 i)
    (x0 : Vec F S1x1024x3 .f32) (x1 : Vec F S1x1024x3 .f32) (xo6 : Vec F S1x1x8192 .f32) (xs0 : Vec F S1024x1 .f32) (y : S1x1x1024.Idx) :
    ∃ pc ∈ (kernelRun0_C c i arg3 harg3 arg4 harg4 arg5 harg5 arg6 harg6 arg7 harg7 hc0 hc1 hc2 hc3 x0 x1 xo6 xs0).1, y ∈ pc.1.set :=
  View.cover_of_tiledL (kernelRun0_C c i arg3 harg3 arg4 harg4 arg5 harg5 arg6 harg6 arg7 harg7 hc0 hc1 hc2 hc3 x0 x1 xo6 xs0).1 S1x1x1024.size (by sl_kernel_rfl) y

/-- Case C: the row block stored. -/
def out5_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : ¬cond0_3 i)
    (x0 : Vec F S1x1024x3 .f32) (x1 : Vec F S1x1024x3 .f32) (xo6 : Vec F S1x1x8192 .f32) (xs0 : Vec F S1024x1 .f32) : Vec F S1x1x1024 .f32 :=
  VO0_2.read (Elt F) (VO0_2.writes (Elt F) VO0_2.junk (kernelRun0_C c i arg3 harg3 arg4 harg4 arg5 harg5 arg6 harg6 arg7 harg7 hc0 hc1 hc2 hc3 x0 x1 xo6 xs0).1)

/-- Case D: the stores into the scratch cover it. -/
theorem scover0_D (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : cond0_0 i) (hc1 : ¬cond0_1 i) (hc2 : ¬cond0_2 i) (hc3 : ¬cond0_3 i)
    (x0 : Vec F S1x1024x3 .f32) (x1 : Vec F S1x1024x3 .f32) (xo6 : Vec F S1x1x8192 .f32) (y : S1024x1.Idx) :
    ∃ pc ∈ (kernelRun0_D c i arg3 harg3 arg4 harg4 arg5 harg5 arg6 harg6 arg7 harg7 hc0 hc1 hc2 hc3 x0 x1 xo6).2.1, y ∈ pc.1.set :=
  View.cover_of_tiledL (kernelRun0_D c i arg3 harg3 arg4 harg4 arg5 harg5 arg6 harg6 arg7 harg7 hc0 hc1 hc2 hc3 x0 x1 xo6).2.1 S1024x1.size (by sl_kernel_rfl) y

/-- Case D: what the scratch holds after the body. -/
def sout0_D (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : cond0_0 i) (hc1 : ¬cond0_1 i) (hc2 : ¬cond0_2 i) (hc3 : ¬cond0_3 i)
    (x0 : Vec F S1x1024x3 .f32) (x1 : Vec F S1x1024x3 .f32) (xo6 : Vec F S1x1x8192 .f32) : Vec F S1024x1 .f32 :=
  VS0_0.read (Elt F) (VS0_0.writes (Elt F) VS0_0.junk (kernelRun0_D c i arg3 harg3 arg4 harg4 arg5 harg5 arg6 harg6 arg7 harg7 hc0 hc1 hc2 hc3 x0 x1 xo6).2.1)

/-- Case D: what the column accumulator holds after the body: the one stretch stored, over what it held. -/
def out6_D (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : cond0_0 i) (hc1 : ¬cond0_1 i) (hc2 : ¬cond0_2 i) (hc3 : ¬cond0_3 i)
    (x0 : Vec F S1x1024x3 .f32) (x1 : Vec F S1x1024x3 .f32) (xo6 : Vec F S1x1x8192 .f32) : Vec F S1x1x8192 .f32 :=
  arg6.view.read (Elt F) (arg6.view.writes (Elt F) (harg6.unread xo6) (kernelRun0_D c i arg3 harg3 arg4 harg4 arg5 harg5 arg6 harg6 arg7 harg7 hc0 hc1 hc2 hc3 x0 x1 xo6).1)

/-- Case E: the stores into the scratch cover it. -/
theorem scover0_E (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : cond0_3 i)
    (x0 : Vec F S1x1024x3 .f32) (x1 : Vec F S1x1024x3 .f32) (xo6 : Vec F S1x1x8192 .f32) (xs0 : Vec F S1024x1 .f32) (y : S1024x1.Idx) :
    ∃ pc ∈ (kernelRun0_E c i arg3 harg3 arg4 harg4 arg5 harg5 arg6 harg6 arg7 harg7 hc0 hc1 hc2 hc3 x0 x1 xo6 xs0).2.2.1, y ∈ pc.1.set :=
  View.cover_of_tiledL (kernelRun0_E c i arg3 harg3 arg4 harg4 arg5 harg5 arg6 harg6 arg7 harg7 hc0 hc1 hc2 hc3 x0 x1 xo6 xs0).2.2.1 S1024x1.size (by sl_kernel_rfl) y

/-- Case E: what the scratch holds after the body. -/
def sout0_E (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : cond0_3 i)
    (x0 : Vec F S1x1024x3 .f32) (x1 : Vec F S1x1024x3 .f32) (xo6 : Vec F S1x1x8192 .f32) (xs0 : Vec F S1024x1 .f32) : Vec F S1024x1 .f32 :=
  VS0_0.read (Elt F) (VS0_0.writes (Elt F) VS0_0.junk (kernelRun0_E c i arg3 harg3 arg4 harg4 arg5 harg5 arg6 harg6 arg7 harg7 hc0 hc1 hc2 hc3 x0 x1 xo6 xs0).2.2.1)

/-- Case E: the stores into the column accumulator cover it. -/
theorem cover6_E (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : cond0_3 i)
    (x0 : Vec F S1x1024x3 .f32) (x1 : Vec F S1x1024x3 .f32) (xo6 : Vec F S1x1x8192 .f32) (xs0 : Vec F S1024x1 .f32) (y : S1x1x8192.Idx) :
    ∃ pc ∈ (kernelRun0_E c i arg3 harg3 arg4 harg4 arg5 harg5 arg6 harg6 arg7 harg7 hc0 hc1 hc2 hc3 x0 x1 xo6 xs0).2.1, y ∈ pc.1.set :=
  View.cover_of_tiledL (kernelRun0_E c i arg3 harg3 arg4 harg4 arg5 harg5 arg6 harg6 arg7 harg7 hc0 hc1 hc2 hc3 x0 x1 xo6 xs0).2.1 S1x1x8192.size (by sl_kernel_rfl) y

/-- Case E: what the column accumulator holds after the body. -/
def out6_E (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : cond0_3 i)
    (x0 : Vec F S1x1024x3 .f32) (x1 : Vec F S1x1024x3 .f32) (xo6 : Vec F S1x1x8192 .f32) (xs0 : Vec F S1024x1 .f32) : Vec F S1x1x8192 .f32 :=
  VO0_3.read (Elt F) (VO0_3.writes (Elt F) VO0_3.junk (kernelRun0_E c i arg3 harg3 arg4 harg4 arg5 harg5 arg6 harg6 arg7 harg7 hc0 hc1 hc2 hc3 x0 x1 xo6 xs0).2.1)

/-- Case E: the store into the row output's buffer covers it. -/
theorem cover5_E (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : cond0_3 i)
    (x0 : Vec F S1x1024x3 .f32) (x1 : Vec F S1x1024x3 .f32) (xo6 : Vec F S1x1x8192 .f32) (xs0 : Vec F S1024x1 .f32) (y : S1x1x1024.Idx) :
    ∃ pc ∈ (kernelRun0_E c i arg3 harg3 arg4 harg4 arg5 harg5 arg6 harg6 arg7 harg7 hc0 hc1 hc2 hc3 x0 x1 xo6 xs0).1, y ∈ pc.1.set :=
  View.cover_of_tiledL (kernelRun0_E c i arg3 harg3 arg4 harg4 arg5 harg5 arg6 harg6 arg7 harg7 hc0 hc1 hc2 hc3 x0 x1 xo6 xs0).1 S1x1x1024.size (by sl_kernel_rfl) y

/-- Case E: the row block stored. -/
def out5_E (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : cond0_3 i)
    (x0 : Vec F S1x1024x3 .f32) (x1 : Vec F S1x1024x3 .f32) (xo6 : Vec F S1x1x8192 .f32) (xs0 : Vec F S1024x1 .f32) : Vec F S1x1x1024 .f32 :=
  VO0_2.read (Elt F) (VO0_2.writes (Elt F) VO0_2.junk (kernelRun0_E c i arg3 harg3 arg4 harg4 arg5 harg5 arg6 harg6 arg7 harg7 hc0 hc1 hc2 hc3 x0 x1 xo6 xs0).1)

/-! ## What the column accumulator and the scratch hold after each point -/

/-- The column accumulator and the row scratch after the body at position `n`. -/
def outsAt0 (c : Dev nD) : (n : ℕ) → n < cfg0.N → Vec F S1x1x8192 .f32 × Vec F S1024x1 .f32
  | 0, hn => (out6_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩))
  | n + 1, hn =>
    if h0 : (n + 1) % 8 = 0 then
      if h1 : (n + 1) % 64 = 0 then
        if h2 : (n + 1) % 8 = 7 then False.elim (by have hN : n + 1 < 256 := lt_of_lt_of_eq hn (show cfg0.N = 256 from N_0); omega)
        else if h3 : (n + 1) % 64 = 63 then False.elim (by have hN : n + 1 < 256 := lt_of_lt_of_eq hn (show cfg0.N = 256 from N_0); omega)
        else (out6_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩))
      else
        if h2 : (n + 1) % 8 = 7 then False.elim (by have hN : n + 1 < 256 := lt_of_lt_of_eq hn (show cfg0.N = 256 from N_0); omega)
        else if h3 : (n + 1) % 64 = 63 then False.elim (by have hN : n + 1 < 256 := lt_of_lt_of_eq hn (show cfg0.N = 256 from N_0); omega)
        else (out6_D c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (outsAt0 c n (Nat.lt_of_succ_lt hn)).1, sout0_D c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (outsAt0 c n (Nat.lt_of_succ_lt hn)).1)
    else
      if h1 : (n + 1) % 64 = 0 then False.elim (by have hN : n + 1 < 256 := lt_of_lt_of_eq hn (show cfg0.N = 256 from N_0); omega)
      else
        if h2 : (n + 1) % 8 = 7 then
          if h3 : (n + 1) % 64 = 63 then (out6_E c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (outsAt0 c n (Nat.lt_of_succ_lt hn)).1 (outsAt0 c n (Nat.lt_of_succ_lt hn)).2, sout0_E c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (outsAt0 c n (Nat.lt_of_succ_lt hn)).1 (outsAt0 c n (Nat.lt_of_succ_lt hn)).2)
          else (out6_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)
        else
          if h3 : (n + 1) % 64 = 63 then False.elim (by have hN : n + 1 < 256 := lt_of_lt_of_eq hn (show cfg0.N = 256 from N_0); omega)
          else (out6_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)

/-- `outsAt0` at a point of case A. -/
theorem outsAt0_A (c : Dev nD) (t : Fin cfg0.N) (h0 : t.val % 8 = 0) (h1 : t.val % 64 = 0) (h2 : ¬t.val % 8 = 7) (h3 : ¬t.val % 64 = 63) :
    outsAt0 m c t.val t.isLt = (out6_A c (grid0.coords t) (ms0_0 t) (hs0_0 t) (ms0_1 t) (hs0_1 t) (ms0_2 t) (hs0_2 t) (ms0_3 t) (hs0_3 t) scM0_0 (Memref.isWhole_whole _) ((hcond0_0 t).mpr h0) ((hcond0_1 t).mpr h1) (fun h => h2 ((hcond0_2 t).mp h)) (fun h => h3 ((hcond0_3 t).mp h)) (iblk m c 0 t) (iblk m c 1 t), sout0_A c (grid0.coords t) (ms0_0 t) (hs0_0 t) (ms0_1 t) (hs0_1 t) (ms0_2 t) (hs0_2 t) (ms0_3 t) (hs0_3 t) scM0_0 (Memref.isWhole_whole _) ((hcond0_0 t).mpr h0) ((hcond0_1 t).mpr h1) (fun h => h2 ((hcond0_2 t).mp h)) (fun h => h3 ((hcond0_3 t).mp h)) (iblk m c 0 t) (iblk m c 1 t)) := by
  obtain ⟨n, hn⟩ := t
  cases n with
  | zero => exact rfl
  | succ n => exact (dif_pos h0).trans ((dif_pos h1).trans ((dif_neg h2).trans ((dif_neg h3).trans rfl)))

/-- `outsAt0` at a point of case B. -/
theorem outsAt0_B (c : Dev nD) (t : Fin cfg0.N) (h0 : ¬t.val % 8 = 0) (h1 : ¬t.val % 64 = 0) (h2 : ¬t.val % 8 = 7) (h3 : ¬t.val % 64 = 63) :
    outsAt0 m c t.val t.isLt = (out6_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans rfl)))

/-- `outsAt0` at a point of case C. -/
theorem outsAt0_C (c : Dev nD) (t : Fin cfg0.N) (h0 : ¬t.val % 8 = 0) (h1 : ¬t.val % 64 = 0) (h2 : t.val % 8 = 7) (h3 : ¬t.val % 64 = 63) :
    outsAt0 m c t.val t.isLt = (out6_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- `outsAt0` at a point of case D. -/
theorem outsAt0_D (c : Dev nD) (t : Fin cfg0.N) (h0 : t.val % 8 = 0) (h1 : ¬t.val % 64 = 0) (h2 : ¬t.val % 8 = 7) (h3 : ¬t.val % 64 = 63) :
    outsAt0 m c t.val t.isLt = (out6_D c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).1, sout0_D c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).1) := by
  obtain ⟨n, hn⟩ := t
  cases n with
  | zero => exact (by exfalso; (try dsimp only at h1); exact absurd (Nat.zero_mod _) h1)
  | succ n => exact (dif_pos h0).trans ((dif_neg h1).trans ((dif_neg h2).trans ((dif_neg h3).trans rfl)))

/-- `outsAt0` at a point of case E. -/
theorem outsAt0_E (c : Dev nD) (t : Fin cfg0.N) (h0 : ¬t.val % 8 = 0) (h1 : ¬t.val % 64 = 0) (h2 : t.val % 8 = 7) (h3 : t.val % 64 = 63) :
    outsAt0 m c t.val t.isLt = (out6_E c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2, sout0_E c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans ((dif_pos h3).trans rfl)))

/-- The row block stored at a point with j = 7: the roots of the finished row minima (elsewhere nothing is stored, and
    nothing is said). -/
def rowOut0 (c : Dev nD) (t : Fin cfg0.N) : Vec F S1x1x1024 .f32 :=
  if h2 : t.val % 8 = 7 then
    if h3 : t.val % 64 = 63 then
      out5_E c (grid0.coords t) (ms0_0 t) (hs0_0 t) (ms0_1 t) (hs0_1 t) (ms0_2 t) (hs0_2 t) (ms0_3 t) (hs0_3 t) scM0_0 (Memref.isWhole_whole _) (fun h => absurd ((hcond0_0 t).mp h) (by omega)) (fun h => absurd ((hcond0_1 t).mp h) (by omega)) ((hcond0_2 t).mpr h2) ((hcond0_3 t).mpr h3) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2
    else
      out5_C c (grid0.coords t) (ms0_0 t) (hs0_0 t) (ms0_1 t) (hs0_1 t) (ms0_2 t) (hs0_2 t) (ms0_3 t) (hs0_3 t) scM0_0 (Memref.isWhole_whole _) (fun h => absurd ((hcond0_0 t).mp h) (by omega)) (fun h => absurd ((hcond0_1 t).mp h) (by omega)) ((hcond0_2 t).mpr h2) (fun h => h3 ((hcond0_3 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2
  else Pipeline.Dat.unnamed (cfg := cfg0) 2 t

theorem rowOut0_E (c : Dev nD) (t : Fin cfg0.N) (h0 : ¬t.val % 8 = 0) (h1 : ¬t.val % 64 = 0) (h2 : t.val % 8 = 7) (h3 : t.val % 64 = 63) :
    rowOut0 m c t = out5_E c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2 := by
  unfold rowOut0; rw [dif_pos h2, dif_pos h3]
theorem rowOut0_C (c : Dev nD) (t : Fin cfg0.N) (h0 : ¬t.val % 8 = 0) (h1 : ¬t.val % 64 = 0) (h2 : t.val % 8 = 7) (h3 : ¬t.val % 64 = 63) :
    rowOut0 m c t = out5_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2 := by
  unfold rowOut0; rw [dif_pos h2, dif_neg h3]

/-! ## The region's invariant: the scratch at what the point before left -/

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rowOut0 m c t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = rowOut0 m c t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- Within a batch the column accumulator's buffer holds what the point before left: it is written back only after the
    batch's last point. -/
theorem before0_3_kept (c : Dev nD) (t : Fin cfg0.N) (h1 : ¬t.val % 64 = 0) (d) :
    (dats m 0 c).before 3 t d = (outsAt0 m c (t.val - 1) (Nat.lt_of_le_of_lt (Nat.sub_le _ _) t.isLt)).1 := by
  have hN : t.val < 256 := lt_of_lt_of_eq t.isLt (show cfg0.N = 256 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 16000000 in
/-- The body at any point: which case the point is in is decided by the point's number; the inputs' buffers hold their
    blocks; the scratch and, within a batch, the column accumulator hold what the point before left; so that case's run
    applies, and what it leaves is what `outsAt0` and `rowOut0` name. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 8 = 0
  · by_cases h1 : t.val % 64 = 0
    · by_cases h2 : t.val % 8 = 7
      · exfalso; omega
      · by_cases h3 : t.val % 64 = 63
        · exfalso; omega
        · rw [show (dats m 0 c).leavesExact 0 t = owns (c : Thread nD τ) (ms0_0 t) fullShare ((dats m 0 c).after 0 t) from by
            unfold Dat.leavesExact; rw [liveAt0_0 t], after0_0]
          rw [show (dats m 0 c).leavesExact 1 t = owns (c : Thread nD τ) (ms0_1 t) fullShare ((dats m 0 c).after 1 t) from by
            unfold Dat.leavesExact; rw [liveAt0_1 t], after0_1]
          rw [Dat.leavesExact_idle (dats m 0 c) 2 t (idleAt0_2 t (fun h => h2 ((hcond0_2 t).mp h))) (noFlush0_2 t (fun h => h2 ((hcond0_2 t).mp h)))]
          rw [show (dats m 0 c).leavesExact 3 t = owns (c : Thread nD τ) (ms0_3 t) fullShare ((dats m 0 c).after 3 t) from by
            unfold Dat.leavesExact; rw [liveAt0_3 t], after0_3]
          rw [outsAt0_A m c t h0 h1 h2 h3]
          unfold sout0_A out6_A; (try dsimp only)
          by_cases hz : t.val = 0
          · rw [PhiS_castSucc m c t, PhiS_zero m c _ _ hz, PhiA0_eq]
            iintro ⟨⟨HS0, Hg⟩, Ho, ⟨%d0, H0⟩, ⟨%d1, H1⟩, ⟨%d2, H2⟩, ⟨%d3, H3⟩⟩
            iapply ((kernelRun0_A c (grid0.coords t) _ _ _ _ _ _ _ _ _ _ ((hcond0_0 t).mpr h0) ((hcond0_1 t).mpr h1) (fun h => h2 ((hcond0_2 t).mp h)) (fun h => h3 ((hcond0_3 t).mp h)) (iblk m c 0 t) (iblk m c 1 t)).2.2 _ Set.univ _)
            isplitl [H0]; · iexact H0
            isplitl [H1]; · iexact H1
            isplitl [H2]; · iexact H2
            isplitl [H3]; · iexists _; iexact H3
            isplitl [HS0]; · iexact HS0
            iintro ⟨H0, H1, H2, ⟨%e3, H3⟩, ⟨%es0, HS0⟩⟩
            isplitl [HS0 Hg]
            · isplitl [HS0]
              · unfold owns; iexists _; isplitr
                swap; · iexact HS0
                ipureintro; exact View.read_writes_of_cover _ _ _ _ _ (scover0_A c _ _ _ _ _ _ _ _ _ _ _ _ _ _ _ _ _)
              iexact Hg
            isplitl [Ho]; · iexact Ho
            isplitl [H0]; · iexact H0
            isplitl [H1]; · iexact H1
            isplitl [H2]; · iexists _; iexact H2
            unfold owns; iexists _; isplitr
            swap; · iexact H3
            ipureintro; exact View.read_writes_of_cover _ _ _ _ _ (cover6_A c _ _ _ _ _ _ _ _ _ _ _ _ _ _ _ _ _)
          · rw [PhiS_castSucc m c t, PhiS_pos m c _ _ hz]
            iintro ⟨⟨HS0, Hg⟩, Ho, ⟨%d0, H0⟩, ⟨%d1, H1⟩, ⟨%d2, H2⟩, ⟨%d3, H3⟩⟩
            iapply ((kernelRun0_A c (grid0.coords t) _ _ _ _ _ _ _ _ _ _ ((hcond0_0 t).mpr h0) ((hcond0_1 t).mpr h1) (fun h => h2 ((hcond0_2 t).mp h)) (fun h => h3 ((hcond0_3 t).mp h)) (iblk m c 0 t) (iblk m c 1 t)).2.2 _ Set.univ _)
            isplitl [H0]; · iexact H0
            isplitl [H1]; · iexact H1
            isplitl [H2]; · iexact H2
            isplitl [H3]; · iexists _; iexact H3
            isplitl [HS0]; · iexists _; iexact HS0
            iintro ⟨H0, H1, H2, ⟨%e3, H3⟩, ⟨%es0, HS0⟩⟩
            isplitl [HS0 Hg]
            · isplitl [HS0]
              · unfold owns; iexists _; isplitr
                swap; · iexact HS0
                ipureintro; exact View.read_writes_of_cover _ _ _ _ _ (scover0_A c _ _ _ _ _ _ _ _ _ _ _ _ _ _ _ _ _)
              iexact Hg
            isplitl [Ho]; · iexact Ho
            isplitl [H0]; · iexact H0
            isplitl [H1]; · iexact H1
            isplitl [H2]; · iexists _; iexact H2
            unfold owns; iexists _; isplitr
            swap; · iexact H3
            ipureintro; exact View.read_writes_of_cover _ _ _ _ _ (cover6_A c _ _ _ _ _ _ _ _ _ _ _ _ _ _ _ _ _)
    · by_cases h2 : t.val % 8 = 7
      · exfalso; omega
      · by_cases h3 : t.val % 64 = 63
        · exfalso; omega
        · rw [show (dats m 0 c).leavesExact 0 t = owns (c : Thread nD τ) (ms0_0 t) fullShare ((dats m 0 c).after 0 t) from by
            unfold Dat.leavesExact; rw [liveAt0_0 t], after0_0]
          rw [show (dats m 0 c).leavesExact 1 t = owns (c : Thread nD τ) (ms0_1 t) fullShare ((dats m 0 c).after 1 t) from by
            unfold Dat.leavesExact; rw [liveAt0_1 t], after0_1]
          rw [Dat.leavesExact_idle (dats m 0 c) 2 t (idleAt0_2 t (fun h => h2 ((hcond0_2 t).mp h))) (noFlush0_2 t (fun h => h2 ((hcond0_2 t).mp h)))]
          rw [show (dats m 0 c).leavesExact 3 t = owns (c : Thread nD τ) (ms0_3 t) fullShare ((dats m 0 c).after 3 t) from by
            unfold Dat.leavesExact; rw [liveAt0_3 t], after0_3]
          rw [outsAt0_D m c t h0 h1 h2 h3]
          simp only [before0_3_kept m c t h1]
          unfold sout0_D out6_D; (try dsimp only)
          by_cases hz : t.val = 0
          · exfalso; omega
          · rw [PhiS_castSucc m c t, PhiS_pos m c _ _ hz]
            iintro ⟨⟨HS0, Hg⟩, Ho, ⟨%d0, H0⟩, ⟨%d1, H1⟩, ⟨%d2, H2⟩, ⟨%d3, H3⟩⟩
            iapply ((kernelRun0_D c (grid0.coords t) _ _ _ _ _ _ _ _ _ _ ((hcond0_0 t).mpr h0) (fun h => h1 ((hcond0_1 t).mp h)) (fun h => h2 ((hcond0_2 t).mp h)) (fun h => h3 ((hcond0_3 t).mp h)) (iblk m c 0 t) (iblk m c 1 t) _).2.2 _ Set.univ _)
            isplitl [H0]; · iexact H0
            isplitl [H1]; · iexact H1
            isplitl [H2]; · iexact H2
            isplitl [H3]; · iexact H3
            isplitl [HS0]; · iexists _; iexact HS0
            iintro ⟨H0, H1, H2, H3, ⟨%es0, HS0⟩⟩
            isplitl [HS0 Hg]
            · isplitl [HS0]
              · unfold owns; iexists _; isplitr
                swap; · iexact HS0
                ipureintro; exact View.read_writes_of_cover _ _ _ _ _ (scover0_D c _ _ _ _ _ _ _ _ _ _ _ _ _ _ _ _ _ _)
              iexact Hg
            isplitl [Ho]; · iexact Ho
            isplitl [H0]; · iexact H0
            isplitl [H1]; · iexact H1
            isplitl [H2]; · iexists _; iexact H2
            unfold owns; iexists _; isplitr
            swap; · iexact H3
            ipureintro; rfl
  · by_cases h1 : t.val % 64 = 0
    · exfalso; omega
    · by_cases h2 : t.val % 8 = 7
      · by_cases h3 : t.val % 64 = 63
        · rw [show (dats m 0 c).leavesExact 0 t = owns (c : Thread nD τ) (ms0_0 t) fullShare ((dats m 0 c).after 0 t) from by
            unfold Dat.leavesExact; rw [liveAt0_0 t], after0_0]
          rw [show (dats m 0 c).leavesExact 1 t = owns (c : Thread nD τ) (ms0_1 t) fullShare ((dats m 0 c).after 1 t) from by
            unfold Dat.leavesExact; rw [liveAt0_1 t], after0_1]
          rw [show (dats m 0 c).leavesExact 2 t = owns (c : Thread nD τ) (ms0_2 t) fullShare ((dats m 0 c).after 2 t) from by
            unfold Dat.leavesExact; rw [liveAt0_2 t ((hcond0_2 t).mpr h2)], after0_2]
          rw [show (dats m 0 c).leavesExact 3 t = owns (c : Thread nD τ) (ms0_3 t) fullShare ((dats m 0 c).after 3 t) from by
            unfold Dat.leavesExact; rw [liveAt0_3 t], after0_3]
          rw [outsAt0_E m c t h0 h1 h2 h3]
          rw [rowOut0_E m c t h0 h1 h2 h3]
          simp only [before0_3_kept m c t h1]
          unfold sout0_E out6_E out5_E; (try dsimp only)
          by_cases hz : t.val = 0
          · exfalso; omega
          · rw [PhiS_castSucc m c t, PhiS_pos m c _ _ hz]
            iintro ⟨⟨HS0, Hg⟩, Ho, ⟨%d0, H0⟩, ⟨%d1, H1⟩, ⟨%d2, H2⟩, ⟨%d3, H3⟩⟩
            iapply ((kernelRun0_E c (grid0.coords t) _ _ _ _ _ _ _ _ _ _ (fun h => h0 ((hcond0_0 t).mp h)) (fun h => h1 ((hcond0_1 t).mp h)) ((hcond0_2 t).mpr h2) ((hcond0_3 t).mpr h3) (iblk m c 0 t) (iblk m c 1 t) _ _).2.2.2 Set.univ _)
            isplitl [H0]; · iexact H0
            isplitl [H1]; · iexact H1
            isplitl [H2]; · iexists _; iexact H2
            isplitl [H3]; · iexact H3
            isplitl [HS0]; · iexact HS0
            iintro ⟨H0, H1, ⟨%e2, H2⟩, ⟨%e3, H3⟩, ⟨%es0, HS0⟩⟩
            isplitl [HS0 Hg]
            · isplitl [HS0]
              · unfold owns; iexists _; isplitr
                swap; · iexact HS0
                ipureintro; exact View.read_writes_of_cover _ _ _ _ _ (scover0_E c _ _ _ _ _ _ _ _ _ _ _ _ _ _ _ _ _ _ _)
              iexact Hg
            isplitl [Ho]; · iexact Ho
            isplitl [H0]; · iexact H0
            isplitl [H1]; · iexact H1
            isplitl [H2]
            · unfold owns; iexists _; isplitr
              swap; · iexact H2
              ipureintro; exact View.read_writes_of_cover _ _ _ _ _ (cover5_E c _ _ _ _ _ _ _ _ _ _ _ _ _ _ _ _ _ _ _)
            unfold owns; iexists _; isplitr
            swap; · iexact H3
            ipureintro; exact View.read_writes_of_cover _ _ _ _ _ (cover6_E c _ _ _ _ _ _ _ _ _ _ _ _ _ _ _ _ _ _ _)
        · rw [show (dats m 0 c).leavesExact 0 t = owns (c : Thread nD τ) (ms0_0 t) fullShare ((dats m 0 c).after 0 t) from by
            unfold Dat.leavesExact; rw [liveAt0_0 t], after0_0]
          rw [show (dats m 0 c).leavesExact 1 t = owns (c : Thread nD τ) (ms0_1 t) fullShare ((dats m 0 c).after 1 t) from by
            unfold Dat.leavesExact; rw [liveAt0_1 t], after0_1]
          rw [show (dats m 0 c).leavesExact 2 t = owns (c : Thread nD τ) (ms0_2 t) fullShare ((dats m 0 c).after 2 t) from by
            unfold Dat.leavesExact; rw [liveAt0_2 t ((hcond0_2 t).mpr h2)], after0_2]
          rw [show (dats m 0 c).leavesExact 3 t = owns (c : Thread nD τ) (ms0_3 t) fullShare ((dats m 0 c).after 3 t) from by
            unfold Dat.leavesExact; rw [liveAt0_3 t], after0_3]
          rw [outsAt0_C m c t h0 h1 h2 h3]
          rw [rowOut0_C m c t h0 h1 h2 h3]
          simp only [before0_3_kept m c t h1]
          unfold sout0_C out6_C out5_C; (try dsimp only)
          by_cases hz : t.val = 0
          · exfalso; omega
          · rw [PhiS_castSucc m c t, PhiS_pos m c _ _ hz]
            iintro ⟨⟨HS0, Hg⟩, Ho, ⟨%d0, H0⟩, ⟨%d1, H1⟩, ⟨%d2, H2⟩, ⟨%d3, H3⟩⟩
            iapply ((kernelRun0_C c (grid0.coords t) _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) _ _).2.2.2 Set.univ _)
            isplitl [H0]; · iexact H0
            isplitl [H1]; · iexact H1
            isplitl [H2]; · iexists _; iexact H2
            isplitl [H3]; · iexact H3
            isplitl [HS0]; · iexact HS0
            iintro ⟨H0, H1, ⟨%e2, H2⟩, H3, ⟨%es0, HS0⟩⟩
            isplitl [HS0 Hg]
            · isplitl [HS0]
              · unfold owns; iexists _; isplitr
                swap; · iexact HS0
                ipureintro; exact View.read_writes_of_cover _ _ _ _ _ (scover0_C c _ _ _ _ _ _ _ _ _ _ _ _ _ _ _ _ _ _ _)
              iexact Hg
            isplitl [Ho]; · iexact Ho
            isplitl [H0]; · iexact H0
            isplitl [H1]; · iexact H1
            isplitl [H2]
            · unfold owns; iexists _; isplitr
              swap; · iexact H2
              ipureintro; exact View.read_writes_of_cover _ _ _ _ _ (cover5_C c _ _ _ _ _ _ _ _ _ _ _ _ _ _ _ _ _ _ _)
            unfold owns; iexists _; isplitr
            swap; · iexact H3
            ipureintro; rfl
      · by_cases h3 : t.val % 64 = 63
        · exfalso; omega
        · rw [show (dats m 0 c).leavesExact 0 t = owns (c : Thread nD τ) (ms0_0 t) fullShare ((dats m 0 c).after 0 t) from by
            unfold Dat.leavesExact; rw [liveAt0_0 t], after0_0]
          rw [show (dats m 0 c).leavesExact 1 t = owns (c : Thread nD τ) (ms0_1 t) fullShare ((dats m 0 c).after 1 t) from by
            unfold Dat.leavesExact; rw [liveAt0_1 t], after0_1]
          rw [Dat.leavesExact_idle (dats m 0 c) 2 t (idleAt0_2 t (fun h => h2 ((hcond0_2 t).mp h))) (noFlush0_2 t (fun h => h2 ((hcond0_2 t).mp h)))]
          rw [show (dats m 0 c).leavesExact 3 t = owns (c : Thread nD τ) (ms0_3 t) fullShare ((dats m 0 c).after 3 t) from by
            unfold Dat.leavesExact; rw [liveAt0_3 t], after0_3]
          rw [outsAt0_B m c t h0 h1 h2 h3]
          simp only [before0_3_kept m c t h1]
          unfold sout0_B out6_B; (try dsimp only)
          by_cases hz : t.val = 0
          · exfalso; omega
          · rw [PhiS_castSucc m c t, PhiS_pos m c _ _ hz]
            iintro ⟨⟨HS0, Hg⟩, Ho, ⟨%d0, H0⟩, ⟨%d1, H1⟩, ⟨%d2, H2⟩, ⟨%d3, H3⟩⟩
            iapply ((kernelRun0_B c (grid0.coords t) _ _ _ _ _ _ _ _ _ _ (fun h => h0 ((hcond0_0 t).mp h)) (fun h => h1 ((hcond0_1 t).mp h)) (fun h => h2 ((hcond0_2 t).mp h)) (fun h => h3 ((hcond0_3 t).mp h)) (iblk m c 0 t) (iblk m c 1 t) _ _).2.2 _ Set.univ _)
            isplitl [H0]; · iexact H0
            isplitl [H1]; · iexact H1
            isplitl [H2]; · iexact H2
            isplitl [H3]; · iexact H3
            isplitl [HS0]; · iexact HS0
            iintro ⟨H0, H1, H2, H3, ⟨%es0, HS0⟩⟩
            isplitl [HS0 Hg]
            · isplitl [HS0]
              · unfold owns; iexists _; isplitr
                swap; · iexact HS0
                ipureintro; exact View.read_writes_of_cover _ _ _ _ _ (scover0_B c _ _ _ _ _ _ _ _ _ _ _ _ _ _ _ _ _ _ _)
              iexact Hg
            isplitl [Ho]; · iexact Ho
            isplitl [H0]; · iexact H0
            isplitl [H1]; · iexact H1
            isplitl [H2]; · iexists _; iexact H2
            unfold owns; iexists _; isplitr
            swap; · iexact H3
            ipureintro; rfl

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- Every weakly fair execution of the program terminates without a fault; at the end each array of the launch is what
    the write-backs of the proof data make it, and every other buffer is as the host lines after the launch leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.BodyIdeal.Shared.lean ====
/-
  What the five runs of the kernel body share: the four branch conditions of the body as conditions on the grid point
  (j = 0; i = 0 and j = 0; j = 7; i = 7 and j = 7, for the point (b, i, j) of the 4 × 8 × 8 grid, numbered
  t = 64 b + 8 i + j), where the row output's staging buffer is left alone (every point with j ≠ 7), and the
  staging and scratch buffers through which the contents are stated.
-/
import proofs.«171865_j33663953666360_2_alg».proof.Proof.Gen.KernelIdeal.Frame
import proofs.«171865_j33663953666360_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions, decided over the grid -/

/-- j = 0: the row-minimum scratch is reset. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- i = 0 and j = 0: the column-minimum accumulator is reset. -/
abbrev cond0_1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
theorem hcond0_1 : ∀ t : Fin cfg0.N, cond0_1 (grid0.coords t) ↔ t.val % 64 = 0 :=
  (by decide +kernel : ∀ t : Fin grid0.N, cond0_1 (grid0.coords t) ↔ t.val % 64 = 0)

/-- j = 7: the row block is finished and written out. -/
abbrev cond0_2 (i : grid0.Coords) : Prop := k0_cond3 i = 1#1
theorem hcond0_2 : ∀ t : Fin cfg0.N, cond0_2 (grid0.coords t) ↔ t.val % 8 = 7 :=
  (by decide +kernel : ∀ t : Fin grid0.N, cond0_2 (grid0.coords t) ↔ t.val % 8 = 7)

/-- i = 7 and j = 7: the column accumulator is finished. -/
abbrev cond0_3 (i : grid0.Coords) : Prop := (Scalar.cmpi .ne (Scalar.extui (Scalar.andi (Scalar.cmpi .eq (BitVec.ofNat 32 (i 1).val) 7#32) (Scalar.cmpi .eq (BitVec.ofNat 32 (i 2).val) 7#32))) 0#32) = 1#1
theorem hcond0_3 : ∀ t : Fin cfg0.N, cond0_3 (grid0.coords t) ↔ t.val % 64 = 63 :=
  (by decide +kernel : ∀ t : Fin grid0.N, cond0_3 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_3 : ∀ t : Fin cfg0.N, cfg0.idle 3 (grid0.coords t) = false := by decide +kernel
/-- Where j ≠ 7 the body stores nothing into the row output's buffer, and the block is not written back. -/
theorem idleAt0_2 : ∀ t : Fin cfg0.N, ¬cond0_2 (grid0.coords t) → cfg0.idle 2 (grid0.coords t) = true := by decide +kernel
theorem noFlush0_2 : ∀ t : Fin cfg0.N, ¬cond0_2 (grid0.coords t) → (cfg0.win 2).flush t = false := by decide +kernel
theorem liveAt0_2 : ∀ t : Fin cfg0.N, cond0_2 (grid0.coords t) → cfg0.idle 2 (grid0.coords t) = false := by decide +kernel

/-! ## The buffers -/

abbrev VO0_2 : View sig .tc .vmem S1x1x1024 .f32 := (Memref.whole cc0_stg2_0 : Memref sig .tc .vmem S1x1x1024 .f32).view
abbrev VO0_3 : View sig .tc .vmem S1x1x8192 .f32 := (Memref.whole cc0_stg3_0 : Memref sig .tc .vmem S1x1x8192 .f32).view
abbrev ms0_0 (t : Fin cfg0.N) : Memref sig .tc .vmem S1x1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x8192 .f32 := win0_3.stage (cfg0.slots t 3)
abbrev hs0_3 (t : Fin cfg0.N) : (ms0_3 t).IsWhole := hstage0_3 ((cfg0.slots t 3).cast nbuf0_3)
/-- The row-minimum scratch. -/
abbrev scM0_0 : Memref sig .tc .vmem S1024x1 .f32 := Memref.whole cc0_scratch0
abbrev VS0_0 : View sig .tc .vmem S1024x1 .f32 := scM0_0.view

/-- The region's invariant: the scratch at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Body

end
-- ==== Proof.BodyIdeal.RunB.lean ====
/-
  The kernel body at a point with 0 < j < 7: nothing is reset and nothing finished. The row scratch and the column accumulator are read at what the point before left; the scratch is stored whole, the accumulator on the j-th stretch of 1024 columns only; the row output's buffer is not touched.
-/
import proofs.«171865_j33663953666360_2_alg».proof.Proof.BodyIdeal.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case: from the staging buffers and the scratch at the stated contents the body runs to the
    continuation holding the inputs as they were and each buffer it stored into with its stores written, latest first. -/
noncomputable def kernelRun0_B (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : ¬cond0_2 i) (hc3 : ¬cond0_3 i)
    (x0 : Vec F S1x1024x3 .f32) (x1 : Vec F S1x1024x3 .f32) (xo6 : Vec F S1x1x8192 .f32) (xs0 : Vec F S1024x1 .f32) :
    Σ' (L6 : List (View.Piece (Elt F) S1x1x8192 .f32)), { LS0 : List (View.Piece (Elt F) S1024x1 .f32) //
      ∀ (xi5 : Vec F S1x1x1024 .f32) (E : Set ℕ) (K : PUnit → sProp 𝕄),
        iprop(owns (c : Thread nD τ) arg3 fullShare x0 ∗ owns (c : Thread nD τ) arg4 fullShare x1 ∗ owns (c : Thread nD τ) arg5 fullShare xi5 ∗ owns (c : Thread nD τ) arg6 fullShare xo6 ∗ owns (c : Thread nD τ) arg7 fullShare xs0
            ∗ (iprop(owns (c : Thread nD τ) arg3 fullShare x0 ∗ owns (c : Thread nD τ) arg4 fullShare x1 ∗ owns (c : Thread nD τ) arg5 fullShare xi5 ∗ (arg6.view.loc (c : Thread nD τ) ↦[arg6.view.set]{fullShare} arg6.view.writes (Elt F) (harg6.unread xo6) L6) ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg3 harg3 arg4 harg4 arg5 harg5 arg6 harg6 arg7 harg7) K } := by
  refine ⟨?_, ?_, fun xi5 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexact H3
    iexists _; iexact HS0

end Cert.KernelIdeal.Body

end
-- ==== Proof.BodyIdeal.RunA.lean ====
/-
  The kernel body at the first point of a batch (i = 0, j = 0): the row scratch and the whole column accumulator are first set to +inf, whatever they held; then the tile's row minima go into the scratch and its column minima into the first stretch of the accumulator. The row output's buffer is not touched.
-/
import proofs.«171865_j33663953666360_2_alg».proof.Proof.BodyIdeal.RunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case: from the staging buffers and the scratch at the stated contents the body runs to the
    continuation holding the inputs as they were and each buffer it stored into with its stores written, latest first. -/
noncomputable def kernelRun0_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : cond0_0 i) (hc1 : cond0_1 i) (hc2 : ¬cond0_2 i) (hc3 : ¬cond0_3 i)
    (x0 : Vec F S1x1024x3 .f32) (x1 : Vec F S1x1024x3 .f32) :
    Σ' (L6 : List (View.Piece (Elt F) S1x1x8192 .f32)), { LS0 : List (View.Piece (Elt F) S1024x1 .f32) //
      ∀ (xi5 : Vec F S1x1x1024 .f32) (E : Set ℕ) (K : PUnit → sProp 𝕄),
        iprop(owns (c : Thread nD τ) arg3 fullShare x0 ∗ owns (c : Thread nD τ) arg4 fullShare x1 ∗ owns (c : Thread nD τ) arg5 fullShare xi5 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare xi5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg3 harg3 arg4 harg4 arg5 harg5 arg6 harg6 arg7 harg7) K } := by
  refine ⟨?_, ?_, fun xi5 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg3.eq_unread hf0; obtain rfl := harg4.eq_unread hf1; obtain rfl := harg5.eq_unread hf2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Body

end
-- ==== Proof.BodyIdeal.RunD.lean ====
/-
  The kernel body at the first point of a later row block (j = 0, i > 0): the row scratch is reset to +inf; the column accumulator is read at what the point before left and updated on its first stretch. The row output's buffer is not touched.
-/
import proofs.«171865_j33663953666360_2_alg».proof.Proof.BodyIdeal.RunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case: from the staging buffers and the scratch at the stated contents the body runs to the
    continuation holding the inputs as they were and each buffer it stored into with its stores written, latest first. -/
noncomputable def kernelRun0_D (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : cond0_0 i) (hc1 : ¬cond0_1 i) (hc2 : ¬cond0_2 i) (hc3 : ¬cond0_3 i)
    (x0 : Vec F S1x1024x3 .f32) (x1 : Vec F S1x1024x3 .f32) (xo6 : Vec F S1x1x8192 .f32) :
    Σ' (L6 : List (View.Piece (Elt F) S1x1x8192 .f32)), { LS0 : List (View.Piece (Elt F) S1024x1 .f32) //
      ∀ (xi5 : Vec F S1x1x1024 .f32) (E : Set ℕ) (K : PUnit → sProp 𝕄),
        iprop(owns (c : Thread nD τ) arg3 fullShare x0 ∗ owns (c : Thread nD τ) arg4 fullShare x1 ∗ owns (c : Thread nD τ) arg5 fullShare xi5 ∗ owns (c : Thread nD τ) arg6 fullShare xo6 ∗ (∃ d, owns (c : Thread nD τ) arg7 fullShare d)
            ∗ (iprop(owns (c : Thread nD τ) arg3 fullShare x0 ∗ owns (c : Thread nD τ) arg4 fullShare x1 ∗ owns (c : Thread nD τ) arg5 fullShare xi5 ∗ (arg6.view.loc (c : Thread nD τ) ↦[arg6.view.set]{fullShare} arg6.view.writes (Elt F) (harg6.unread xo6) L6) ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg3 harg3 arg4 harg4 arg5 harg5 arg6 harg6 arg7 harg7) K } := by
  refine ⟨?_, ?_, fun xi5 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexact H3
    iexists _; iexact HS0

end Cert.KernelIdeal.Body

end
-- ==== Proof.BodyIdeal.RunC.lean ====
/-
  The kernel body at the last point of a row block that is not the batch's last (j = 7, i < 7): after the updates the roots of the finished row minima are stored, whole, into the row output's buffer, whatever it held.
-/
import proofs.«171865_j33663953666360_2_alg».proof.Proof.BodyIdeal.RunD

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case: from the staging buffers and the scratch at the stated contents the body runs to the
    continuation holding the inputs as they were and each buffer it stored into with its stores written, latest first. -/
noncomputable def kernelRun0_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : ¬cond0_3 i)
    (x0 : Vec F S1x1024x3 .f32) (x1 : Vec F S1x1024x3 .f32) (xo6 : Vec F S1x1x8192 .f32) (xs0 : Vec F S1024x1 .f32) :
    Σ' (L5 : List (View.Piece (Elt F) S1x1x1024 .f32)) (L6 : List (View.Piece (Elt F) S1x1x8192 .f32)), { LS0 : List (View.Piece (Elt F) S1024x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo6 ∗ owns (c : Thread nD τ) arg7 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L5) ∗ (arg6.view.loc (c : Thread nD τ) ↦[arg6.view.set]{fullShare} arg6.view.writes (Elt F) (harg6.unread xo6) L6) ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg3 harg3 arg4 harg4 arg5 harg5 arg6 harg6 arg7 harg7) K } := by
  refine ⟨?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg3.eq_unread hf0; obtain rfl := harg4.eq_unread hf1; obtain rfl := harg6.eq_unread hf3; obtain rfl := harg7.eq_unread hfs0
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexact H3
    iexists _; iexact HS0

end Cert.KernelIdeal.Body

end
-- ==== Proof.BodyIdeal.RunE.lean ====
/-
  The kernel body at the last point of a batch (i = 7, j = 7): after the updates the roots of the row minima go into the row output's buffer and the whole column accumulator is replaced by its roots.
-/
import proofs.«171865_j33663953666360_2_alg».proof.Proof.BodyIdeal.RunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run in this case: from the staging buffers and the scratch at the stated contents the body runs to the
    continuation holding the inputs as they were and each buffer it stored into with its stores written, latest first. -/
noncomputable def kernelRun0_E (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : cond0_3 i)
    (x0 : Vec F S1x1024x3 .f32) (x1 : Vec F S1x1024x3 .f32) (xo6 : Vec F S1x1x8192 .f32) (xs0 : Vec F S1024x1 .f32) :
    Σ' (L5 : List (View.Piece (Elt F) S1x1x1024 .f32)) (L6 : List (View.Piece (Elt F) S1x1x8192 .f32)), { LS0 : List (View.Piece (Elt F) S1024x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo6 ∗ owns (c : Thread nD τ) arg7 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg3 harg3 arg4 harg4 arg5 harg5 arg6 harg6 arg7 harg7) K } := by
  refine ⟨?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg3.eq_unread hf0; obtain rfl := harg4.eq_unread hf1; obtain rfl := harg6.eq_unread hf3; obtain rfl := harg7.eq_unread hfs0
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    iexists _; iexact HS0

end Cert.KernelIdeal.Body

end
-- ==== Proof.BodyIdeal.Frame.lean ====
/-
  The frame of the kernel's launch, with every output named.

  After the body at grid point t = 64 b + 8 i + j three buffers matter: the row-minimum scratch, the column-minimum
  accumulator (the column output's staging buffer, kept for all 64 points of a batch and written back after the last),
  and the row output's staging buffer (stored only at j = 7 and written back there). `outsAt0` names what the first two
  hold after each point, by recursion on the point: the body's stores of that point's case read back over what the point
  before left; `rowOut0` names the row block stored at a point with j = 7. With these as the proof data the body
  obligation holds at every point, the launch theorem runs the region and the host lines after it, and the argument
  arrays end unchanged.
-/
import proofs.«171865_j33663953666360_2_alg».proof.Proof.BodyIdeal.RunE

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (Dat)

/-- Case A: the stores into the scratch cover it. -/
theorem scover0_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : cond0_0 i) (hc1 : cond0_1 i) (hc2 : ¬cond0_2 i) (hc3 : ¬cond0_3 i)
    (x0 : Vec F S1x1024x3 .f32) (x1 : Vec F S1x1024x3 .f32) (y : S1024x1.Idx) :
    ∃ pc ∈ (kernelRun0_A c i arg3 harg3 arg4 harg4 arg5 harg5 arg6 harg6 arg7 harg7 hc0 hc1 hc2 hc3 x0 x1).2.1, y ∈ pc.1.set :=
  View.cover_of_tiledL (kernelRun0_A c i arg3 harg3 arg4 harg4 arg5 harg5 arg6 harg6 arg7 harg7 hc0 hc1 hc2 hc3 x0 x1).2.1 S1024x1.size (by sl_kernel_rfl) y

/-- Case A: what the scratch holds after the body. -/
def sout0_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : cond0_0 i) (hc1 : cond0_1 i) (hc2 : ¬cond0_2 i) (hc3 : ¬cond0_3 i)
    (x0 : Vec F S1x1024x3 .f32) (x1 : Vec F S1x1024x3 .f32) : Vec F S1024x1 .f32 :=
  VS0_0.read (Elt F) (VS0_0.writes (Elt F) VS0_0.junk (kernelRun0_A c i arg3 harg3 arg4 harg4 arg5 harg5 arg6 harg6 arg7 harg7 hc0 hc1 hc2 hc3 x0 x1).2.1)

/-- Case A: the stores into the column accumulator cover it. -/
theorem cover6_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : cond0_0 i) (hc1 : cond0_1 i) (hc2 : ¬cond0_2 i) (hc3 : ¬cond0_3 i)
    (x0 : Vec F S1x1024x3 .f32) (x1 : Vec F S1x1024x3 .f32) (y : S1x1x8192.Idx) :
    ∃ pc ∈ (kernelRun0_A c i arg3 harg3 arg4 harg4 arg5 harg5 arg6 harg6 arg7 harg7 hc0 hc1 hc2 hc3 x0 x1).1, y ∈ pc.1.set :=
  View.cover_of_tiledL (kernelRun0_A c i arg3 harg3 arg4 harg4 arg5 harg5 arg6 harg6 arg7 harg7 hc0 hc1 hc2 hc3 x0 x1).1 S1x1x8192.size (by sl_kernel_rfl) y

/-- Case A: what the column accumulator holds after the body. -/
def out6_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : cond0_0 i) (hc1 : cond0_1 i) (hc2 : ¬cond0_2 i) (hc3 : ¬cond0_3 i)
    (x0 : Vec F S1x1024x3 .f32) (x1 : Vec F S1x1024x3 .f32) : Vec F S1x1x8192 .f32 :=
  VO0_3.read (Elt F) (VO0_3.writes (Elt F) VO0_3.junk (kernelRun0_A c i arg3 harg3 arg4 harg4 arg5 harg5 arg6 harg6 arg7 harg7 hc0 hc1 hc2 hc3 x0 x1).1)

/-- Case B: the stores into the scratch cover it. -/
theorem scover0_B (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : ¬cond0_2 i) (hc3 : ¬cond0_3 i)
    (x0 : Vec F S1x1024x3 .f32) (x1 : Vec F S1x1024x3 .f32) (xo6 : Vec F S1x1x8192 .f32) (xs0 : Vec F S1024x1 .f32) (y : S1024x1.Idx) :
    ∃ pc ∈ (kernelRun0_B c i arg3 harg3 arg4 harg4 arg5 harg5 arg6 harg6 arg7 harg7 hc0 hc1 hc2 hc3 x0 x1 xo6 xs0).2.1, y ∈ pc.1.set :=
  View.cover_of_tiledL (kernelRun0_B c i arg3 harg3 arg4 harg4 arg5 harg5 arg6 harg6 arg7 harg7 hc0 hc1 hc2 hc3 x0 x1 xo6 xs0).2.1 S1024x1.size (by sl_kernel_rfl) y

/-- Case B: what the scratch holds after the body. -/
def sout0_B (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : ¬cond0_2 i) (hc3 : ¬cond0_3 i)
    (x0 : Vec F S1x1024x3 .f32) (x1 : Vec F S1x1024x3 .f32) (xo6 : Vec F S1x1x8192 .f32) (xs0 : Vec F S1024x1 .f32) : Vec F S1024x1 .f32 :=
  VS0_0.read (Elt F) (VS0_0.writes (Elt F) VS0_0.junk (kernelRun0_B c i arg3 harg3 arg4 harg4 arg5 harg5 arg6 harg6 arg7 harg7 hc0 hc1 hc2 hc3 x0 x1 xo6 xs0).2.1)

/-- Case B: what the column accumulator holds after the body: the one stretch stored, over what it held. -/
def out6_B (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : ¬cond0_2 i) (hc3 : ¬cond0_3 i)
    (x0 : Vec F S1x1024x3 .f32) (x1 : Vec F S1x1024x3 .f32) (xo6 : Vec F S1x1x8192 .f32) (xs0 : Vec F S1024x1 .f32) : Vec F S1x1x8192 .f32 :=
  arg6.view.read (Elt F) (arg6.view.writes (Elt F) (harg6.unread xo6) (kernelRun0_B c i arg3 harg3 arg4 harg4 arg5 harg5 arg6 harg6 arg7 harg7 hc0 hc1 hc2 hc3 x0 x1 xo6 xs0).1)

/-- Case C: the stores into the scratch cover it. -/
theorem scover0_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : ¬cond0_3 i)
    (x0 : Vec F S1x1024x3 .f32) (x1 : Vec F S1x1024x3 .f32) (xo6 : Vec F S1x1x8192 .f32) (xs0 : Vec F S1024x1 .f32) (y : S1024x1.Idx) :
    ∃ pc ∈ (kernelRun0_C c i arg3 harg3 arg4 harg4 arg5 harg5 arg6 harg6 arg7 harg7 hc0 hc1 hc2 hc3 x0 x1 xo6 xs0).2.2.1, y ∈ pc.1.set :=
  View.cover_of_tiledL (kernelRun0_C c i arg3 harg3 arg4 harg4 arg5 harg5 arg6 harg6 arg7 harg7 hc0 hc1 hc2 hc3 x0 x1 xo6 xs0).2.2.1 S1024x1.size (by sl_kernel_rfl) y

/-- Case C: what the scratch holds after the body. -/
def sout0_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : ¬cond0_3 i)
    (x0 : Vec F S1x1024x3 .f32) (x1 : Vec F S1x1024x3 .f32) (xo6 : Vec F S1x1x8192 .f32) (xs0 : Vec F S1024x1 .f32) : Vec F S1024x1 .f32 :=
  VS0_0.read (Elt F) (VS0_0.writes (Elt F) VS0_0.junk (kernelRun0_C c i arg3 harg3 arg4 harg4 arg5 harg5 arg6 harg6 arg7 harg7 hc0 hc1 hc2 hc3 x0 x1 xo6 xs0).2.2.1)

/-- Case C: what the column accumulator holds after the body: the one stretch stored, over what it held. -/
def out6_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : ¬cond0_3 i)
    (x0 : Vec F S1x1024x3 .f32) (x1 : Vec F S1x1024x3 .f32) (xo6 : Vec F S1x1x8192 .f32) (xs0 : Vec F S1024x1 .f32) : Vec F S1x1x8192 .f32 :=
  arg6.view.read (Elt F) (arg6.view.writes (Elt F) (harg6.unread xo6) (kernelRun0_C c i arg3 harg3 arg4 harg4 arg5 harg5 arg6 harg6 arg7 harg7 hc0 hc1 hc2 hc3 x0 x1 xo6 xs0).2.1)

/-- Case C: the store into the row output's buffer covers it. -/
theorem cover5_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : ¬cond0_3 i)
    (x0 : Vec F S1x1024x3 .f32) (x1 : Vec F S1x1024x3 .f32) (xo6 : Vec F S1x1x8192 .f32) (xs0 : Vec F S1024x1 .f32) (y : S1x1x1024.Idx) :
    ∃ pc ∈ (kernelRun0_C c i arg3 harg3 arg4 harg4 arg5 harg5 arg6 harg6 arg7 harg7 hc0 hc1 hc2 hc3 x0 x1 xo6 xs0).1, y ∈ pc.1.set :=
  View.cover_of_tiledL (kernelRun0_C c i arg3 harg3 arg4 harg4 arg5 harg5 arg6 harg6 arg7 harg7 hc0 hc1 hc2 hc3 x0 x1 xo6 xs0).1 S1x1x1024.size (by sl_kernel_rfl) y

/-- Case C: the row block stored. -/
def out5_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : ¬cond0_3 i)
    (x0 : Vec F S1x1024x3 .f32) (x1 : Vec F S1x1024x3 .f32) (xo6 : Vec F S1x1x8192 .f32) (xs0 : Vec F S1024x1 .f32) : Vec F S1x1x1024 .f32 :=
  VO0_2.read (Elt F) (VO0_2.writes (Elt F) VO0_2.junk (kernelRun0_C c i arg3 harg3 arg4 harg4 arg5 harg5 arg6 harg6 arg7 harg7 hc0 hc1 hc2 hc3 x0 x1 xo6 xs0).1)

/-- Case D: the stores into the scratch cover it. -/
theorem scover0_D (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : cond0_0 i) (hc1 : ¬cond0_1 i) (hc2 : ¬cond0_2 i) (hc3 : ¬cond0_3 i)
    (x0 : Vec F S1x1024x3 .f32) (x1 : Vec F S1x1024x3 .f32) (xo6 : Vec F S1x1x8192 .f32) (y : S1024x1.Idx) :
    ∃ pc ∈ (kernelRun0_D c i arg3 harg3 arg4 harg4 arg5 harg5 arg6 harg6 arg7 harg7 hc0 hc1 hc2 hc3 x0 x1 xo6).2.1, y ∈ pc.1.set :=
  View.cover_of_tiledL (kernelRun0_D c i arg3 harg3 arg4 harg4 arg5 harg5 arg6 harg6 arg7 harg7 hc0 hc1 hc2 hc3 x0 x1 xo6).2.1 S1024x1.size (by sl_kernel_rfl) y

/-- Case D: what the scratch holds after the body. -/
def sout0_D (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : cond0_0 i) (hc1 : ¬cond0_1 i) (hc2 : ¬cond0_2 i) (hc3 : ¬cond0_3 i)
    (x0 : Vec F S1x1024x3 .f32) (x1 : Vec F S1x1024x3 .f32) (xo6 : Vec F S1x1x8192 .f32) : Vec F S1024x1 .f32 :=
  VS0_0.read (Elt F) (VS0_0.writes (Elt F) VS0_0.junk (kernelRun0_D c i arg3 harg3 arg4 harg4 arg5 harg5 arg6 harg6 arg7 harg7 hc0 hc1 hc2 hc3 x0 x1 xo6).2.1)

/-- Case D: what the column accumulator holds after the body: the one stretch stored, over what it held. -/
def out6_D (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : cond0_0 i) (hc1 : ¬cond0_1 i) (hc2 : ¬cond0_2 i) (hc3 : ¬cond0_3 i)
    (x0 : Vec F S1x1024x3 .f32) (x1 : Vec F S1x1024x3 .f32) (xo6 : Vec F S1x1x8192 .f32) : Vec F S1x1x8192 .f32 :=
  arg6.view.read (Elt F) (arg6.view.writes (Elt F) (harg6.unread xo6) (kernelRun0_D c i arg3 harg3 arg4 harg4 arg5 harg5 arg6 harg6 arg7 harg7 hc0 hc1 hc2 hc3 x0 x1 xo6).1)

/-- Case E: the stores into the scratch cover it. -/
theorem scover0_E (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : cond0_3 i)
    (x0 : Vec F S1x1024x3 .f32) (x1 : Vec F S1x1024x3 .f32) (xo6 : Vec F S1x1x8192 .f32) (xs0 : Vec F S1024x1 .f32) (y : S1024x1.Idx) :
    ∃ pc ∈ (kernelRun0_E c i arg3 harg3 arg4 harg4 arg5 harg5 arg6 harg6 arg7 harg7 hc0 hc1 hc2 hc3 x0 x1 xo6 xs0).2.2.1, y ∈ pc.1.set :=
  View.cover_of_tiledL (kernelRun0_E c i arg3 harg3 arg4 harg4 arg5 harg5 arg6 harg6 arg7 harg7 hc0 hc1 hc2 hc3 x0 x1 xo6 xs0).2.2.1 S1024x1.size (by sl_kernel_rfl) y

/-- Case E: what the scratch holds after the body. -/
def sout0_E (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : cond0_3 i)
    (x0 : Vec F S1x1024x3 .f32) (x1 : Vec F S1x1024x3 .f32) (xo6 : Vec F S1x1x8192 .f32) (xs0 : Vec F S1024x1 .f32) : Vec F S1024x1 .f32 :=
  VS0_0.read (Elt F) (VS0_0.writes (Elt F) VS0_0.junk (kernelRun0_E c i arg3 harg3 arg4 harg4 arg5 harg5 arg6 harg6 arg7 harg7 hc0 hc1 hc2 hc3 x0 x1 xo6 xs0).2.2.1)

/-- Case E: the stores into the column accumulator cover it. -/
theorem cover6_E (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : cond0_3 i)
    (x0 : Vec F S1x1024x3 .f32) (x1 : Vec F S1x1024x3 .f32) (xo6 : Vec F S1x1x8192 .f32) (xs0 : Vec F S1024x1 .f32) (y : S1x1x8192.Idx) :
    ∃ pc ∈ (kernelRun0_E c i arg3 harg3 arg4 harg4 arg5 harg5 arg6 harg6 arg7 harg7 hc0 hc1 hc2 hc3 x0 x1 xo6 xs0).2.1, y ∈ pc.1.set :=
  View.cover_of_tiledL (kernelRun0_E c i arg3 harg3 arg4 harg4 arg5 harg5 arg6 harg6 arg7 harg7 hc0 hc1 hc2 hc3 x0 x1 xo6 xs0).2.1 S1x1x8192.size (by sl_kernel_rfl) y

/-- Case E: what the column accumulator holds after the body. -/
def out6_E (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : cond0_3 i)
    (x0 : Vec F S1x1024x3 .f32) (x1 : Vec F S1x1024x3 .f32) (xo6 : Vec F S1x1x8192 .f32) (xs0 : Vec F S1024x1 .f32) : Vec F S1x1x8192 .f32 :=
  VO0_3.read (Elt F) (VO0_3.writes (Elt F) VO0_3.junk (kernelRun0_E c i arg3 harg3 arg4 harg4 arg5 harg5 arg6 harg6 arg7 harg7 hc0 hc1 hc2 hc3 x0 x1 xo6 xs0).2.1)

/-- Case E: the store into the row output's buffer covers it. -/
theorem cover5_E (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : cond0_3 i)
    (x0 : Vec F S1x1024x3 .f32) (x1 : Vec F S1x1024x3 .f32) (xo6 : Vec F S1x1x8192 .f32) (xs0 : Vec F S1024x1 .f32) (y : S1x1x1024.Idx) :
    ∃ pc ∈ (kernelRun0_E c i arg3 harg3 arg4 harg4 arg5 harg5 arg6 harg6 arg7 harg7 hc0 hc1 hc2 hc3 x0 x1 xo6 xs0).1, y ∈ pc.1.set :=
  View.cover_of_tiledL (kernelRun0_E c i arg3 harg3 arg4 harg4 arg5 harg5 arg6 harg6 arg7 harg7 hc0 hc1 hc2 hc3 x0 x1 xo6 xs0).1 S1x1x1024.size (by sl_kernel_rfl) y

/-- Case E: the row block stored. -/
def out5_E (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : cond0_3 i)
    (x0 : Vec F S1x1024x3 .f32) (x1 : Vec F S1x1024x3 .f32) (xo6 : Vec F S1x1x8192 .f32) (xs0 : Vec F S1024x1 .f32) : Vec F S1x1x1024 .f32 :=
  VO0_2.read (Elt F) (VO0_2.writes (Elt F) VO0_2.junk (kernelRun0_E c i arg3 harg3 arg4 harg4 arg5 harg5 arg6 harg6 arg7 harg7 hc0 hc1 hc2 hc3 x0 x1 xo6 xs0).1)

/-! ## What the column accumulator and the scratch hold after each point -/

/-- The column accumulator and the row scratch after the body at position `n`. -/
def outsAt0 (c : Dev nD) : (n : ℕ) → n < cfg0.N → Vec F S1x1x8192 .f32 × Vec F S1024x1 .f32
  | 0, hn => (out6_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩))
  | n + 1, hn =>
    if h0 : (n + 1) % 8 = 0 then
      if h1 : (n + 1) % 64 = 0 then
        if h2 : (n + 1) % 8 = 7 then False.elim (by have hN : n + 1 < 256 := lt_of_lt_of_eq hn (show cfg0.N = 256 from N_0); omega)
        else if h3 : (n + 1) % 64 = 63 then False.elim (by have hN : n + 1 < 256 := lt_of_lt_of_eq hn (show cfg0.N = 256 from N_0); omega)
        else (out6_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩))
      else
        if h2 : (n + 1) % 8 = 7 then False.elim (by have hN : n + 1 < 256 := lt_of_lt_of_eq hn (show cfg0.N = 256 from N_0); omega)
        else if h3 : (n + 1) % 64 = 63 then False.elim (by have hN : n + 1 < 256 := lt_of_lt_of_eq hn (show cfg0.N = 256 from N_0); omega)
        else (out6_D c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (outsAt0 c n (Nat.lt_of_succ_lt hn)).1, sout0_D c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (outsAt0 c n (Nat.lt_of_succ_lt hn)).1)
    else
      if h1 : (n + 1) % 64 = 0 then False.elim (by have hN : n + 1 < 256 := lt_of_lt_of_eq hn (show cfg0.N = 256 from N_0); omega)
      else
        if h2 : (n + 1) % 8 = 7 then
          if h3 : (n + 1) % 64 = 63 then (out6_E c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (outsAt0 c n (Nat.lt_of_succ_lt hn)).1 (outsAt0 c n (Nat.lt_of_succ_lt hn)).2, sout0_E c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (outsAt0 c n (Nat.lt_of_succ_lt hn)).1 (outsAt0 c n (Nat.lt_of_succ_lt hn)).2)
          else (out6_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)
        else
          if h3 : (n + 1) % 64 = 63 then False.elim (by have hN : n + 1 < 256 := lt_of_lt_of_eq hn (show cfg0.N = 256 from N_0); omega)
          else (out6_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)

/-- `outsAt0` at a point of case A. -/
theorem outsAt0_A (c : Dev nD) (t : Fin cfg0.N) (h0 : t.val % 8 = 0) (h1 : t.val % 64 = 0) (h2 : ¬t.val % 8 = 7) (h3 : ¬t.val % 64 = 63) :
    outsAt0 m c t.val t.isLt = (out6_A c (grid0.coords t) (ms0_0 t) (hs0_0 t) (ms0_1 t) (hs0_1 t) (ms0_2 t) (hs0_2 t) (ms0_3 t) (hs0_3 t) scM0_0 (Memref.isWhole_whole _) ((hcond0_0 t).mpr h0) ((hcond0_1 t).mpr h1) (fun h => h2 ((hcond0_2 t).mp h)) (fun h => h3 ((hcond0_3 t).mp h)) (iblk m c 0 t) (iblk m c 1 t), sout0_A c (grid0.coords t) (ms0_0 t) (hs0_0 t) (ms0_1 t) (hs0_1 t) (ms0_2 t) (hs0_2 t) (ms0_3 t) (hs0_3 t) scM0_0 (Memref.isWhole_whole _) ((hcond0_0 t).mpr h0) ((hcond0_1 t).mpr h1) (fun h => h2 ((hcond0_2 t).mp h)) (fun h => h3 ((hcond0_3 t).mp h)) (iblk m c 0 t) (iblk m c 1 t)) := by
  obtain ⟨n, hn⟩ := t
  cases n with
  | zero => exact rfl
  | succ n => exact (dif_pos h0).trans ((dif_pos h1).trans ((dif_neg h2).trans ((dif_neg h3).trans rfl)))

/-- `outsAt0` at a point of case B. -/
theorem outsAt0_B (c : Dev nD) (t : Fin cfg0.N) (h0 : ¬t.val % 8 = 0) (h1 : ¬t.val % 64 = 0) (h2 : ¬t.val % 8 = 7) (h3 : ¬t.val % 64 = 63) :
    outsAt0 m c t.val t.isLt = (out6_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans rfl)))

/-- `outsAt0` at a point of case C. -/
theorem outsAt0_C (c : Dev nD) (t : Fin cfg0.N) (h0 : ¬t.val % 8 = 0) (h1 : ¬t.val % 64 = 0) (h2 : t.val % 8 = 7) (h3 : ¬t.val % 64 = 63) :
    outsAt0 m c t.val t.isLt = (out6_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- `outsAt0` at a point of case D. -/
theorem outsAt0_D (c : Dev nD) (t : Fin cfg0.N) (h0 : t.val % 8 = 0) (h1 : ¬t.val % 64 = 0) (h2 : ¬t.val % 8 = 7) (h3 : ¬t.val % 64 = 63) :
    outsAt0 m c t.val t.isLt = (out6_D c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).1, sout0_D c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).1) := by
  obtain ⟨n, hn⟩ := t
  cases n with
  | zero => exact (by exfalso; (try dsimp only at h1); exact absurd (Nat.zero_mod _) h1)
  | succ n => exact (dif_pos h0).trans ((dif_neg h1).trans ((dif_neg h2).trans ((dif_neg h3).trans rfl)))

/-- `outsAt0` at a point of case E. -/
theorem outsAt0_E (c : Dev nD) (t : Fin cfg0.N) (h0 : ¬t.val % 8 = 0) (h1 : ¬t.val % 64 = 0) (h2 : t.val % 8 = 7) (h3 : t.val % 64 = 63) :
    outsAt0 m c t.val t.isLt = (out6_E c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2, sout0_E c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans ((dif_pos h3).trans rfl)))

/-- The row block stored at a point with j = 7: the roots of the finished row minima (elsewhere nothing is stored, and
    nothing is said). -/
def rowOut0 (c : Dev nD) (t : Fin cfg0.N) : Vec F S1x1x1024 .f32 :=
  if h2 : t.val % 8 = 7 then
    if h3 : t.val % 64 = 63 then
      out5_E c (grid0.coords t) (ms0_0 t) (hs0_0 t) (ms0_1 t) (hs0_1 t) (ms0_2 t) (hs0_2 t) (ms0_3 t) (hs0_3 t) scM0_0 (Memref.isWhole_whole _) (fun h => absurd ((hcond0_0 t).mp h) (by omega)) (fun h => absurd ((hcond0_1 t).mp h) (by omega)) ((hcond0_2 t).mpr h2) ((hcond0_3 t).mpr h3) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2
    else
      out5_C c (grid0.coords t) (ms0_0 t) (hs0_0 t) (ms0_1 t) (hs0_1 t) (ms0_2 t) (hs0_2 t) (ms0_3 t) (hs0_3 t) scM0_0 (Memref.isWhole_whole _) (fun h => absurd ((hcond0_0 t).mp h) (by omega)) (fun h => absurd ((hcond0_1 t).mp h) (by omega)) ((hcond0_2 t).mpr h2) (fun h => h3 ((hcond0_3 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2
  else Pipeline.Dat.unnamed (cfg := cfg0) 2 t

theorem rowOut0_E (c : Dev nD) (t : Fin cfg0.N) (h0 : ¬t.val % 8 = 0) (h1 : ¬t.val % 64 = 0) (h2 : t.val % 8 = 7) (h3 : t.val % 64 = 63) :
    rowOut0 m c t = out5_E c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2 := by
  unfold rowOut0; rw [dif_pos h2, dif_pos h3]
theorem rowOut0_C (c : Dev nD) (t : Fin cfg0.N) (h0 : ¬t.val % 8 = 0) (h1 : ¬t.val % 64 = 0) (h2 : t.val % 8 = 7) (h3 : ¬t.val % 64 = 63) :
    rowOut0 m c t = out5_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2 := by
  unfold rowOut0; rw [dif_pos h2, dif_neg h3]

/-! ## The region's invariant: the scratch at what the point before left -/

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rowOut0 m c t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = rowOut0 m c t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- Within a batch the column accumulator's buffer holds what the point before left: it is written back only after the
    batch's last point. -/
theorem before0_3_kept (c : Dev nD) (t : Fin cfg0.N) (h1 : ¬t.val % 64 = 0) (d) :
    (dats m 0 c).before 3 t d = (outsAt0 m c (t.val - 1) (Nat.lt_of_le_of_lt (Nat.sub_le _ _) t.isLt)).1 := by
  have hN : t.val < 256 := lt_of_lt_of_eq t.isLt (show cfg0.N = 256 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 16000000 in
/-- The body at any point: which case the point is in is decided by the point's number; the inputs' buffers hold their
    blocks; the scratch and, within a batch, the column accumulator hold what the point before left; so that case's run
    applies, and what it leaves is what `outsAt0` and `rowOut0` name. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 8 = 0
  · by_cases h1 : t.val % 64 = 0
    · by_cases h2 : t.val % 8 = 7
      · exfalso; omega
      · by_cases h3 : t.val % 64 = 63
        · exfalso; omega
        · rw [show (dats m 0 c).leavesExact 0 t = owns (c : Thread nD τ) (ms0_0 t) fullShare ((dats m 0 c).after 0 t) from by
            unfold Dat.leavesExact; rw [liveAt0_0 t], after0_0]
          rw [show (dats m 0 c).leavesExact 1 t = owns (c : Thread nD τ) (ms0_1 t) fullShare ((dats m 0 c).after 1 t) from by
            unfold Dat.leavesExact; rw [liveAt0_1 t], after0_1]
          rw [Dat.leavesExact_idle (dats m 0 c) 2 t (idleAt0_2 t (fun h => h2 ((hcond0_2 t).mp h))) (noFlush0_2 t (fun h => h2 ((hcond0_2 t).mp h)))]
          rw [show (dats m 0 c).leavesExact 3 t = owns (c : Thread nD τ) (ms0_3 t) fullShare ((dats m 0 c).after 3 t) from by
            unfold Dat.leavesExact; rw [liveAt0_3 t], after0_3]
          rw [outsAt0_A m c t h0 h1 h2 h3]
          unfold sout0_A out6_A; (try dsimp only)
          by_cases hz : t.val = 0
          · rw [PhiS_castSucc m c t, PhiS_zero m c _ _ hz, PhiA0_eq]
            iintro ⟨⟨HS0, Hg⟩, Ho, ⟨%d0, H0⟩, ⟨%d1, H1⟩, ⟨%d2, H2⟩, ⟨%d3, H3⟩⟩
            iapply ((kernelRun0_A c (grid0.coords t) _ _ _ _ _ _ _ _ _ _ ((hcond0_0 t).mpr h0) ((hcond0_1 t).mpr h1) (fun h => h2 ((hcond0_2 t).mp h)) (fun h => h3 ((hcond0_3 t).mp h)) (iblk m c 0 t) (iblk m c 1 t)).2.2 _ Set.univ _)
            isplitl [H0]; · iexact H0
            isplitl [H1]; · iexact H1
            isplitl [H2]; · iexact H2
            isplitl [H3]; · iexists _; iexact H3
            isplitl [HS0]; · iexact HS0
            iintro ⟨H0, H1, H2, ⟨%e3, H3⟩, ⟨%es0, HS0⟩⟩
            isplitl [HS0 Hg]
            · isplitl [HS0]
              · unfold owns; iexists _; isplitr
                swap; · iexact HS0
                ipureintro; exact View.read_writes_of_cover _ _ _ _ _ (scover0_A c _ _ _ _ _ _ _ _ _ _ _ _ _ _ _ _ _)
              iexact Hg
            isplitl [Ho]; · iexact Ho
            isplitl [H0]; · iexact H0
            isplitl [H1]; · iexact H1
            isplitl [H2]; · iexists _; iexact H2
            unfold owns; iexists _; isplitr
            swap; · iexact H3
            ipureintro; exact View.read_writes_of_cover _ _ _ _ _ (cover6_A c _ _ _ _ _ _ _ _ _ _ _ _ _ _ _ _ _)
          · rw [PhiS_castSucc m c t, PhiS_pos m c _ _ hz]
            iintro ⟨⟨HS0, Hg⟩, Ho, ⟨%d0, H0⟩, ⟨%d1, H1⟩, ⟨%d2, H2⟩, ⟨%d3, H3⟩⟩
            iapply ((kernelRun0_A c (grid0.coords t) _ _ _ _ _ _ _ _ _ _ ((hcond0_0 t).mpr h0) ((hcond0_1 t).mpr h1) (fun h => h2 ((hcond0_2 t).mp h)) (fun h => h3 ((hcond0_3 t).mp h)) (iblk m c 0 t) (iblk m c 1 t)).2.2 _ Set.univ _)
            isplitl [H0]; · iexact H0
            isplitl [H1]; · iexact H1
            isplitl [H2]; · iexact H2
            isplitl [H3]; · iexists _; iexact H3
            isplitl [HS0]; · iexists _; iexact HS0
            iintro ⟨H0, H1, H2, ⟨%e3, H3⟩, ⟨%es0, HS0⟩⟩
            isplitl [HS0 Hg]
            · isplitl [HS0]
              · unfold owns; iexists _; isplitr
                swap; · iexact HS0
                ipureintro; exact View.read_writes_of_cover _ _ _ _ _ (scover0_A c _ _ _ _ _ _ _ _ _ _ _ _ _ _ _ _ _)
              iexact Hg
            isplitl [Ho]; · iexact Ho
            isplitl [H0]; · iexact H0
            isplitl [H1]; · iexact H1
            isplitl [H2]; · iexists _; iexact H2
            unfold owns; iexists _; isplitr
            swap; · iexact H3
            ipureintro; exact View.read_writes_of_cover _ _ _ _ _ (cover6_A c _ _ _ _ _ _ _ _ _ _ _ _ _ _ _ _ _)
    · by_cases h2 : t.val % 8 = 7
      · exfalso; omega
      · by_cases h3 : t.val % 64 = 63
        · exfalso; omega
        · rw [show (dats m 0 c).leavesExact 0 t = owns (c : Thread nD τ) (ms0_0 t) fullShare ((dats m 0 c).after 0 t) from by
            unfold Dat.leavesExact; rw [liveAt0_0 t], after0_0]
          rw [show (dats m 0 c).leavesExact 1 t = owns (c : Thread nD τ) (ms0_1 t) fullShare ((dats m 0 c).after 1 t) from by
            unfold Dat.leavesExact; rw [liveAt0_1 t], after0_1]
          rw [Dat.leavesExact_idle (dats m 0 c) 2 t (idleAt0_2 t (fun h => h2 ((hcond0_2 t).mp h))) (noFlush0_2 t (fun h => h2 ((hcond0_2 t).mp h)))]
          rw [show (dats m 0 c).leavesExact 3 t = owns (c : Thread nD τ) (ms0_3 t) fullShare ((dats m 0 c).after 3 t) from by
            unfold Dat.leavesExact; rw [liveAt0_3 t], after0_3]
          rw [outsAt0_D m c t h0 h1 h2 h3]
          simp only [before0_3_kept m c t h1]
          unfold sout0_D out6_D; (try dsimp only)
          by_cases hz : t.val = 0
          · exfalso; omega
          · rw [PhiS_castSucc m c t, PhiS_pos m c _ _ hz]
            iintro ⟨⟨HS0, Hg⟩, Ho, ⟨%d0, H0⟩, ⟨%d1, H1⟩, ⟨%d2, H2⟩, ⟨%d3, H3⟩⟩
            iapply ((kernelRun0_D c (grid0.coords t) _ _ _ _ _ _ _ _ _ _ ((hcond0_0 t).mpr h0) (fun h => h1 ((hcond0_1 t).mp h)) (fun h => h2 ((hcond0_2 t).mp h)) (fun h => h3 ((hcond0_3 t).mp h)) (iblk m c 0 t) (iblk m c 1 t) _).2.2 _ Set.univ _)
            isplitl [H0]; · iexact H0
            isplitl [H1]; · iexact H1
            isplitl [H2]; · iexact H2
            isplitl [H3]; · iexact H3
            isplitl [HS0]; · iexists _; iexact HS0
            iintro ⟨H0, H1, H2, H3, ⟨%es0, HS0⟩⟩
            isplitl [HS0 Hg]
            · isplitl [HS0]
              · unfold owns; iexists _; isplitr
                swap; · iexact HS0
                ipureintro; exact View.read_writes_of_cover _ _ _ _ _ (scover0_D c _ _ _ _ _ _ _ _ _ _ _ _ _ _ _ _ _ _)
              iexact Hg
            isplitl [Ho]; · iexact Ho
            isplitl [H0]; · iexact H0
            isplitl [H1]; · iexact H1
            isplitl [H2]; · iexists _; iexact H2
            unfold owns; iexists _; isplitr
            swap; · iexact H3
            ipureintro; rfl
  · by_cases h1 : t.val % 64 = 0
    · exfalso; omega
    · by_cases h2 : t.val % 8 = 7
      · by_cases h3 : t.val % 64 = 63
        · rw [show (dats m 0 c).leavesExact 0 t = owns (c : Thread nD τ) (ms0_0 t) fullShare ((dats m 0 c).after 0 t) from by
            unfold Dat.leavesExact; rw [liveAt0_0 t], after0_0]
          rw [show (dats m 0 c).leavesExact 1 t = owns (c : Thread nD τ) (ms0_1 t) fullShare ((dats m 0 c).after 1 t) from by
            unfold Dat.leavesExact; rw [liveAt0_1 t], after0_1]
          rw [show (dats m 0 c).leavesExact 2 t = owns (c : Thread nD τ) (ms0_2 t) fullShare ((dats m 0 c).after 2 t) from by
            unfold Dat.leavesExact; rw [liveAt0_2 t ((hcond0_2 t).mpr h2)], after0_2]
          rw [show (dats m 0 c).leavesExact 3 t = owns (c : Thread nD τ) (ms0_3 t) fullShare ((dats m 0 c).after 3 t) from by
            unfold Dat.leavesExact; rw [liveAt0_3 t], after0_3]
          rw [outsAt0_E m c t h0 h1 h2 h3]
          rw [rowOut0_E m c t h0 h1 h2 h3]
          simp only [before0_3_kept m c t h1]
          unfold sout0_E out6_E out5_E; (try dsimp only)
          by_cases hz : t.val = 0
          · exfalso; omega
          · rw [PhiS_castSucc m c t, PhiS_pos m c _ _ hz]
            iintro ⟨⟨HS0, Hg⟩, Ho, ⟨%d0, H0⟩, ⟨%d1, H1⟩, ⟨%d2, H2⟩, ⟨%d3, H3⟩⟩
            iapply ((kernelRun0_E c (grid0.coords t) _ _ _ _ _ _ _ _ _ _ (fun h => h0 ((hcond0_0 t).mp h)) (fun h => h1 ((hcond0_1 t).mp h)) ((hcond0_2 t).mpr h2) ((hcond0_3 t).mpr h3) (iblk m c 0 t) (iblk m c 1 t) _ _).2.2.2 Set.univ _)
            isplitl [H0]; · iexact H0
            isplitl [H1]; · iexact H1
            isplitl [H2]; · iexists _; iexact H2
            isplitl [H3]; · iexact H3
            isplitl [HS0]; · iexact HS0
            iintro ⟨H0, H1, ⟨%e2, H2⟩, ⟨%e3, H3⟩, ⟨%es0, HS0⟩⟩
            isplitl [HS0 Hg]
            · isplitl [HS0]
              · unfold owns; iexists _; isplitr
                swap; · iexact HS0
                ipureintro; exact View.read_writes_of_cover _ _ _ _ _ (scover0_E c _ _ _ _ _ _ _ _ _ _ _ _ _ _ _ _ _ _ _)
              iexact Hg
            isplitl [Ho]; · iexact Ho
            isplitl [H0]; · iexact H0
            isplitl [H1]; · iexact H1
            isplitl [H2]
            · unfold owns; iexists _; isplitr
              swap; · iexact H2
              ipureintro; exact View.read_writes_of_cover _ _ _ _ _ (cover5_E c _ _ _ _ _ _ _ _ _ _ _ _ _ _ _ _ _ _ _)
            unfold owns; iexists _; isplitr
            swap; · iexact H3
            ipureintro; exact View.read_writes_of_cover _ _ _ _ _ (cover6_E c _ _ _ _ _ _ _ _ _ _ _ _ _ _ _ _ _ _ _)
        · rw [show (dats m 0 c).leavesExact 0 t = owns (c : Thread nD τ) (ms0_0 t) fullShare ((dats m 0 c).after 0 t) from by
            unfold Dat.leavesExact; rw [liveAt0_0 t], after0_0]
          rw [show (dats m 0 c).leavesExact 1 t = owns (c : Thread nD τ) (ms0_1 t) fullShare ((dats m 0 c).after 1 t) from by
            unfold Dat.leavesExact; rw [liveAt0_1 t], after0_1]
          rw [show (dats m 0 c).leavesExact 2 t = owns (c : Thread nD τ) (ms0_2 t) fullShare ((dats m 0 c).after 2 t) from by
            unfold Dat.leavesExact; rw [liveAt0_2 t ((hcond0_2 t).mpr h2)], after0_2]
          rw [show (dats m 0 c).leavesExact 3 t = owns (c : Thread nD τ) (ms0_3 t) fullShare ((dats m 0 c).after 3 t) from by
            unfold Dat.leavesExact; rw [liveAt0_3 t], after0_3]
          rw [outsAt0_C m c t h0 h1 h2 h3]
          rw [rowOut0_C m c t h0 h1 h2 h3]
          simp only [before0_3_kept m c t h1]
          unfold sout0_C out6_C out5_C; (try dsimp only)
          by_cases hz : t.val = 0
          · exfalso; omega
          · rw [PhiS_castSucc m c t, PhiS_pos m c _ _ hz]
            iintro ⟨⟨HS0, Hg⟩, Ho, ⟨%d0, H0⟩, ⟨%d1, H1⟩, ⟨%d2, H2⟩, ⟨%d3, H3⟩⟩
            iapply ((kernelRun0_C c (grid0.coords t) _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) _ _).2.2.2 Set.univ _)
            isplitl [H0]; · iexact H0
            isplitl [H1]; · iexact H1
            isplitl [H2]; · iexists _; iexact H2
            isplitl [H3]; · iexact H3
            isplitl [HS0]; · iexact HS0
            iintro ⟨H0, H1, ⟨%e2, H2⟩, H3, ⟨%es0, HS0⟩⟩
            isplitl [HS0 Hg]
            · isplitl [HS0]
              · unfold owns; iexists _; isplitr
                swap; · iexact HS0
                ipureintro; exact View.read_writes_of_cover _ _ _ _ _ (scover0_C c _ _ _ _ _ _ _ _ _ _ _ _ _ _ _ _ _ _ _)
              iexact Hg
            isplitl [Ho]; · iexact Ho
            isplitl [H0]; · iexact H0
            isplitl [H1]; · iexact H1
            isplitl [H2]
            · unfold owns; iexists _; isplitr
              swap; · iexact H2
              ipureintro; exact View.read_writes_of_cover _ _ _ _ _ (cover5_C c _ _ _ _ _ _ _ _ _ _ _ _ _ _ _ _ _ _ _)
            unfold owns; iexists _; isplitr
            swap; · iexact H3
            ipureintro; rfl
      · by_cases h3 : t.val % 64 = 63
        · exfalso; omega
        · rw [show (dats m 0 c).leavesExact 0 t = owns (c : Thread nD τ) (ms0_0 t) fullShare ((dats m 0 c).after 0 t) from by
            unfold Dat.leavesExact; rw [liveAt0_0 t], after0_0]
          rw [show (dats m 0 c).leavesExact 1 t = owns (c : Thread nD τ) (ms0_1 t) fullShare ((dats m 0 c).after 1 t) from by
            unfold Dat.leavesExact; rw [liveAt0_1 t], after0_1]
          rw [Dat.leavesExact_idle (dats m 0 c) 2 t (idleAt0_2 t (fun h => h2 ((hcond0_2 t).mp h))) (noFlush0_2 t (fun h => h2 ((hcond0_2 t).mp h)))]
          rw [show (dats m 0 c).leavesExact 3 t = owns (c : Thread nD τ) (ms0_3 t) fullShare ((dats m 0 c).after 3 t) from by
            unfold Dat.leavesExact; rw [liveAt0_3 t], after0_3]
          rw [outsAt0_B m c t h0 h1 h2 h3]
          simp only [before0_3_kept m c t h1]
          unfold sout0_B out6_B; (try dsimp only)
          by_cases hz : t.val = 0
          · exfalso; omega
          · rw [PhiS_castSucc m c t, PhiS_pos m c _ _ hz]
            iintro ⟨⟨HS0, Hg⟩, Ho, ⟨%d0, H0⟩, ⟨%d1, H1⟩, ⟨%d2, H2⟩, ⟨%d3, H3⟩⟩
            iapply ((kernelRun0_B c (grid0.coords t) _ _ _ _ _ _ _ _ _ _ (fun h => h0 ((hcond0_0 t).mp h)) (fun h => h1 ((hcond0_1 t).mp h)) (fun h => h2 ((hcond0_2 t).mp h)) (fun h => h3 ((hcond0_3 t).mp h)) (iblk m c 0 t) (iblk m c 1 t) _ _).2.2 _ Set.univ _)
            isplitl [H0]; · iexact H0
            isplitl [H1]; · iexact H1
            isplitl [H2]; · iexact H2
            isplitl [H3]; · iexact H3
            isplitl [HS0]; · iexact HS0
            iintro ⟨H0, H1, H2, H3, ⟨%es0, HS0⟩⟩
            isplitl [HS0 Hg]
            · isplitl [HS0]
              · unfold owns; iexists _; isplitr
                swap; · iexact HS0
                ipureintro; exact View.read_writes_of_cover _ _ _ _ _ (scover0_B c _ _ _ _ _ _ _ _ _ _ _ _ _ _ _ _ _ _ _)
              iexact Hg
            isplitl [Ho]; · iexact Ho
            isplitl [H0]; · iexact H0
            isplitl [H1]; · iexact H1
            isplitl [H2]; · iexists _; iexact H2
            unfold owns; iexists _; isplitr
            swap; · iexact H3
            ipureintro; rfl

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- Every weakly fair execution of the program terminates without a fault; at the end each array of the launch is what
    the write-backs of the proof data make it, and every other buffer is as the host lines after the launch leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.Spec.lean ====
/-
  The chamfer loss as one function of the two point clouds, on the extended reals.

  For clouds `x y : [4, 8192, 3]` the squared distance of point `n` of `x` to point `m` of `y` in batch `b` is
  `dist x y b n m = max (|x_n|² + |y_m|² - 2 ⟨x_n, y_m⟩) 0`; `nearRow` is the root of its infimum over `m`,
  `nearCol` the root of its infimum over `n`; the fine loss is half the sum of the two means.
-/
import Idealize.ShloMosaic.PureOps.Ideal
import Idealize.ShloMosaic.Lib.ValueIdx

noncomputable section

namespace Cert.Chamfer

open Idealize.ShloMosaic Idealize.ShloMosaic.ValueIdx

/-- A batch of four clouds of 8192 points in space. -/
abbrev Cloud : Shape := ⟨3, ![4, 8192, 3]⟩

/-- The float words the two programs share, read exactly. -/
abbrev zero : EReal := Ideal.ofBits .f32 0x00000000#32
abbrev two : EReal := Ideal.ofBits .f32 0x40000000#32
abbrev half : EReal := Ideal.ofBits .f32 0x3F000000#32
abbrev count : EReal := Ideal.ofBits .f32 0x47000000#32

/-- `|x_n|²`: the sum of the squares of the three coordinates, accumulated from zero. -/
def sq (x : Cloud.Idx → EReal) (b : Fin 4) (n : Fin 8192) : EReal :=
  zero + ∑ k : Fin 3, x (ix3 b n k) * x (ix3 b n k)

/-- `⟨x_n, y_m⟩`. -/
def dotp (x y : Cloud.Idx → EReal) (b : Fin 4) (n m : Fin 8192) : EReal :=
  ∑ k : Fin 3, x (ix3 b n k) * y (ix3 b m k)

/-- The clamped squared distance. -/
def dist (x y : Cloud.Idx → EReal) (b : Fin 4) (n m : Fin 8192) : EReal :=
  max (sq x b n + sq y b m - two * dotp x y b n m) zero

/-- Distance from point `n` of `x` to the nearest point of `y`. -/
def nearRow (x y : Cloud.Idx → EReal) (b : Fin 4) (n : Fin 8192) : EReal :=
  Ideal.sqrt (Finset.univ.inf fun m : Fin 8192 => dist x y b n m)

/-- Distance from point `m` of `y` to the nearest point of `x`. -/
def nearCol (x y : Cloud.Idx → EReal) (b : Fin 4) (m : Fin 8192) : EReal :=
  Ideal.sqrt (Finset.univ.inf fun n : Fin 8192 => dist x y b n m)

/-- Half the sum of the two mean nearest-point distances. -/
def lossFine (x y : Cloud.Idx → EReal) : EReal :=
  half * (Ideal.div (zero + ∑ b : Fin 4, ∑ n : Fin 8192, nearRow x y b n) count
        + Ideal.div (zero + ∑ b : Fin 4, ∑ m : Fin 8192, nearCol x y b m) count)

end Cert.Chamfer

end
-- ==== Proof.TileValue.lean ====
/-
  The kernel's tile arithmetic read at an index, on the extended reals.

  One grid point works on a block of 1024 points of each cloud. Its stored values are: the clamped squared
  distances of every pair of the two blocks, the running minimum of each row against the minima found so far,
  the running minimum of each column likewise, and at the last blocks the square roots of the minima. Each
  value is read here at explicit coordinates as a formula in the entries of the blocks: squares and products
  summed over the three space coordinates, an infimum over the 1024 points of the other block, a square root.
-/
import proofs.«171865_j33663953666360_2_alg».proof.Proof.Gen.KernelIdeal.Skeleton
import proofs.«171865_j33663953666360_2_alg».proof.Proof.Spec
import Idealize.ShloMosaic.Lib.ValueIdx
import Idealize.ShloMosaic.Lib.ValueLayout
import Idealize.ShloMosaic.PureOps.Ideal.Laws

noncomputable section

namespace Cert.KernelIdeal.TileValue

open Idealize.ShloMosaic Idealize.ShloMosaic.ValueIdx Cert.KernelIdeal Cert.KernelIdeal.Gen

/-- The word `0x7F800000` is the top of the extended reals: the value every running minimum starts from. -/
theorem top_eq : Ideal.ofBits .f32 0x7F800000#32 = (⊤ : EReal) := by
  simp [Ideal.ofBits, Ideal.ieee]

/-- The column minima are initialised to the top element everywhere. -/
theorem pay6_apply (j : S1x1x8192.Idx) : k0_pay6 (F := Ideal) j = ⊤ := by
  unfold k0_pay6
  show Ideal.ofBits .f32 0x7F800000#32 = ⊤
  exact top_eq

/-- Storing the row minima back through a cast to their own shape changes nothing. -/
theorem pay1_eq (s' : FVec Ideal S1024x1 .f32) : k0_pay1 (F := Ideal) s' = s' := by
  unfold k0_pay1
  exact shapeCast_self _ _

/-- The row minima are initialised to the top element everywhere. -/
theorem pay5_apply (j : S1024x1.Idx) : k0_pay5 (F := Ideal) j = ⊤ := by
  unfold k0_pay5
  show Ideal.ofBits .f32 0x7F800000#32 = ⊤
  exact top_eq

/-- At the last block the column minima are replaced by their square roots, entry by entry. -/
theorem pay4_apply (w : Vec Ideal S1x1x8192 .f32) (j : S1x1x8192.Idx) :
    k0_pay4 (F := Ideal) w j = Ideal.sqrt (w j) := by
  unfold k0_pay4
  show Ideal.sqrt (w (Shape.reshapeEquiv _ (Shape.reshapeEquiv _ j))) = _
  rw [Shape.reshapeEquiv_reshapeEquiv, Shape.reshapeEquiv_self]

/-- A column of minima cast from `[a]` to `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast over `b` columns reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A minimum taken along one axis, started from the top element, is the infimum over that axis's coordinates. -/
theorem minimumf_single_inf {s t : Shape} {a : Fin s.rank} (src : FVec Ideal s .f32)
    (h : s.Reduces [a] t) (hφ : FKind.Formats .f32)
    (hacc : (0x7F800000#32 : BitVec 32) = FKind.minimumf.neutral .f32 hφ) (j : t.Idx) :
    multiReduction .minimumf [a] t src 0x7F800000#32 h hφ hacc j
      = Finset.univ.inf fun k : Fin (s.size a) => src (h.lift j k) := by
  rw [multiReduction_minimumf_eq_fold]
  refine (h.fold_filter_drop_single _ _ src j).trans ?_
  show Finset.fold min (Ideal.ofBits .f32 0x7F800000#32) _ _ = _
  rw [top_eq]
  rfl

/-- Along the rows: the index over column `c` with row coordinate `r` inserted is `(r, c)`. -/
theorem lift_rows (h : S1024x1024.Reduces [0] S1024) (c r : Fin 1024) : h.lift (ix1 c) r = ix2 r c := by
  funext a
  match a with
  | ⟨0, _⟩ => exact Fin.ext rfl
  | ⟨1, _⟩ => exact Fin.ext rfl

/-- Along the columns: the index over row `r` with column coordinate `c` inserted is `(r, c)`. -/
theorem lift_cols (h : S1024x1024.Reduces [1] S1024) (r c : Fin 1024) : h.lift (ix1 r) c = ix2 r c := by
  funext a
  match a with
  | ⟨0, _⟩ => exact Fin.ext rfl
  | ⟨1, _⟩ => exact Fin.ext rfl

/-- At the last block the row minima are replaced by their square roots and laid out as one row. -/
theorem pay3_apply (s : Vec Ideal S1024x1 .f32) (r : Fin 1024) :
    k0_pay3 (F := Ideal) s (ix3 (0 : Fin 1) (0 : Fin 1) r) = Ideal.sqrt (s (ix2 r (0 : Fin 1))) := by
  unfold k0_pay3
  refine (shapeCast_ab_1ab_apply _ _ (0 : Fin 1) (0 : Fin 1) r).trans ?_
  refine (transpose_ix2_apply _ _ (0 : Fin 1) r).trans ?_
  rfl

/-- The column minima after a block: the minimum found so far against the infimum of the block's column. -/
theorem pay2_apply (T : FVec Ideal S1024x1024 .f32) (v : Vec Ideal S1x1x1024 .f32) (c : Fin 1024) :
    k0_pay2 (F := Ideal) T v (ix3 (0 : Fin 1) (0 : Fin 1) c)
      = min (v (ix3 (0 : Fin 1) (0 : Fin 1) c)) (Finset.univ.inf fun r : Fin 1024 => T (ix2 r c)) := by
  unfold k0_pay2
  refine (shapeCast_ab_1ab_apply _ _ (0 : Fin 1) (0 : Fin 1) c).trans ?_
  refine (minimumf_apply _ _ _).trans ?_
  refine congrArg₂ min ?_ ?_
  · exact shapeCast_1ab_ab_apply _ _ (0 : Fin 1) c
  · refine (shapeCast_a_1a_apply _ _ (0 : Fin 1) c).trans ?_
    refine (minimumf_single_inf T _ _ _ (ix1 c)).trans ?_
    exact congrArg (Finset.univ.inf) (funext fun r => congrArg T (lift_rows _ c r))

/-- The row minima after a block: the minimum found so far against the infimum of the block's row. -/
theorem pay8_apply (x0 x1 : Vec Ideal S1x1024x3 .f32) (s : Vec Ideal S1024x1 .f32) (r : Fin 1024) :
    k0_pay8 (F := Ideal) x0 x1 s (ix2 r (0 : Fin 1))
      = min (s (ix2 r (0 : Fin 1))) (Finset.univ.inf fun c : Fin 1024 => k0_pay7 (F := Ideal) x0 x1 (ix2 r c)) := by
  unfold k0_pay8
  refine (minimumf_apply _ _ _).trans ?_
  refine congrArg₂ min rfl ?_
  refine (shapeCast_a_a1_apply _ _ r (0 : Fin 1)).trans ?_
  refine (minimumf_single_inf (k0_pay7 (F := Ideal) x0 x1) _ _ _ (ix1 r)).trans ?_
  exact congrArg (Finset.univ.inf) (funext fun c => congrArg (k0_pay7 (F := Ideal) x0 x1) (lift_cols _ r c))

/-- The zero word added in front of a sum changes nothing. -/
theorem zero_add_eq (a : EReal) : Cert.Chamfer.zero + a = a := by
  show Ideal.ofBits .f32 0x00000000#32 + a = a
  rw [Ideal.ofBits_zero_f32, zero_add]

/-- Along the three space coordinates: the index over point `r` with coordinate `k` inserted is `(r, k)`. -/
theorem lift_lane (h : S1024x3.Reduces [1] S1024) (r : Fin 1024) (k : Fin 3) : h.lift (ix1 r) k = ix2 r k := by
  funext a
  match a with
  | ⟨0, _⟩ => exact Fin.ext rfl
  | ⟨1, _⟩ => exact Fin.ext rfl

/-- The sum along the three space coordinates of a `[1024, 3]` vector, at point `r`. -/
theorem lanesum_apply (y : FVec Ideal S1024x3 .f32) (h : S1024x3.Reduces [1] S1024) (hφ : FKind.Formats .f32)
    (hacc : (0x00000000#32 : BitVec 32) = FKind.add.neutral .f32 hφ) (r : Fin 1024) :
    multiReduction .add [1] S1024 y 0x00000000#32 h hφ hacc (ix1 r) = ∑ k : Fin 3, y (ix2 r k) :=
  (Ideal.multiReduction_add_single y _ h hφ hacc (ix1 r)).trans
    (Finset.sum_congr rfl fun k _ => congrArg y (lift_lane h r k))

/-- The squared length of point `r` of a block: the block viewed as `[1024, 3]`, squared entry by entry and summed
    along the space coordinates. -/
theorem sqsum_apply (x : Vec Ideal S1x1024x3 .f32) (hc : S1x1024x3.ShapeCasts S1024x3) (h : S1024x3.Reduces [1] S1024)
    (hφ : FKind.Formats .f32) (hacc : (0x00000000#32 : BitVec 32) = FKind.add.neutral .f32 hφ) (r : Fin 1024) :
    multiReduction (F := Ideal) .add [1] S1024 (mulf (shapeCast S1024x3 x hc) (shapeCast S1024x3 x hc)) 0x00000000#32 h hφ hacc (ix1 r)
      = Cert.Chamfer.zero + ∑ k : Fin 3, x (ix3 (0 : Fin 1) r k) * x (ix3 (0 : Fin 1) r k) := by
  rw [zero_add_eq]
  refine (lanesum_apply _ h hφ hacc r).trans (Finset.sum_congr rfl fun k _ => ?_)
  refine (mulf_apply _ _ _).trans ?_
  exact congrArg₂ (· * ·) (shapeCast_1ab_ab_apply x hc r k) (shapeCast_1ab_ab_apply x hc r k)

/-- The left operand's index of the product at `(r, c)`: on the point axis it reads `r`. -/
theorem lhsIdx_0 (j : S1024x1024.Idx) (q : dot_S1024x3_S1024x3_S1024x1024_1_1_0_0_n_n.contr.Idx) :
    (dot_S1024x3_S1024x3_S1024x1024_1_1_0_0_n_n.lhsIdx j q 0).val = (j 0).val := by
  unfold DotDims.lhsIdx
  rw [dif_neg (show ¬(0 : Fin S1024x3.rank) ∈ dot_S1024x3_S1024x3_S1024x1024_1_1_0_0_n_n.lhsBatch by decide),
    dif_pos (show (0 : Fin S1024x3.rank) ∈ dot_S1024x3_S1024x3_S1024x1024_1_1_0_0_n_n.lhsNonContracting by decide)]
  rfl

/-- … and on the space axis the contraction's coordinate. -/
theorem lhsIdx_1 (j : S1024x1024.Idx) (q : dot_S1024x3_S1024x3_S1024x1024_1_1_0_0_n_n.contr.Idx) :
    (dot_S1024x3_S1024x3_S1024x1024_1_1_0_0_n_n.lhsIdx j q 1).val = (q ⟨0, by decide⟩).val :=
  dot_S1024x3_S1024x3_S1024x1024_1_1_0_0_n_n.lhsIdx_val_of_single rfl j q

/-- The right operand's index of the product at `(r, c)`: on the point axis it reads `c`. -/
theorem rhsIdx_0 (j : S1024x1024.Idx) (q : dot_S1024x3_S1024x3_S1024x1024_1_1_0_0_n_n.contr.Idx) :
    (dot_S1024x3_S1024x3_S1024x1024_1_1_0_0_n_n.rhsIdx j q 0).val = (j 1).val := by
  unfold DotDims.rhsIdx
  rw [dif_neg (show ¬(0 : Fin S1024x3.rank) ∈ dot_S1024x3_S1024x3_S1024x1024_1_1_0_0_n_n.rhsBatch by decide),
    dif_pos (show (0 : Fin S1024x3.rank) ∈ dot_S1024x3_S1024x3_S1024x1024_1_1_0_0_n_n.rhsNonContracting by decide)]
  rfl

/-- … and on the space axis the contraction's coordinate. -/
theorem rhsIdx_1 (j : S1024x1024.Idx) (q : dot_S1024x3_S1024x3_S1024x1024_1_1_0_0_n_n.contr.Idx) :
    (dot_S1024x3_S1024x3_S1024x1024_1_1_0_0_n_n.rhsIdx j q 1).val = (q ⟨0, by decide⟩).val :=
  dot_S1024x3_S1024x3_S1024x1024_1_1_0_0_n_n.rhsIdx_val_of_single rfl j q

/-- The product of two `[1024, 3]` operands contracted on the space axis, accumulated from zero: at `(r, c)` the sum
    over the three coordinates of row `r` of the first against row `c` of the second. -/
theorem dot_apply (A B : FVec Ideal S1024x3 .bf16) (r c : Fin 1024) :
    matmul dot_S1024x3_S1024x3_S1024x1024_1_1_0_0_n_n none A B (constant (F := Ideal) S1024x1024 .f32 0x00000000#32) (ix2 r c)
      = ∑ k : Fin 3, A (ix2 r k) * B (ix2 c k) := by
  simp only [matmul]
  rw [Ideal.matmul_constant_zero_apply, ← Equiv.sum_comp (contrEquiv1 dot_S1024x3_S1024x3_S1024x1024_1_1_0_0_n_n 3 rfl rfl).symm]
  refine Finset.sum_congr rfl fun k _ => ?_
  have hk := contrEquiv1_symm_val dot_S1024x3_S1024x3_S1024x1024_1_1_0_0_n_n 3 rfl rfl k
  have el : dot_S1024x3_S1024x3_S1024x1024_1_1_0_0_n_n.lhsIdx (ix2 r c) ((contrEquiv1 dot_S1024x3_S1024x3_S1024x1024_1_1_0_0_n_n 3 rfl rfl).symm k) = ix2 r k :=
    funext fun a => Fin.ext (by
      match a with
      | ⟨0, _⟩ => exact lhsIdx_0 _ _
      | ⟨1, _⟩ => exact (lhsIdx_1 _ _).trans hk)
  have er : dot_S1024x3_S1024x3_S1024x1024_1_1_0_0_n_n.rhsIdx (ix2 r c) ((contrEquiv1 dot_S1024x3_S1024x3_S1024x1024_1_1_0_0_n_n 3 rfl rfl).symm k) = ix2 c k :=
    funext fun a => Fin.ext (by
      match a with
      | ⟨0, _⟩ => exact rhsIdx_0 _ _
      | ⟨1, _⟩ => exact (rhsIdx_1 _ _).trans hk)
  rw [el, er]

/-- The inner product of point `r` of one block with point `c` of the other: both blocks viewed as `[1024, 3]`
    (the change of float format is the identity on the extended reals) and contracted on the space axis. -/
theorem inner_apply (x y : Vec Ideal S1x1024x3 .f32) (hc : S1x1024x3.ShapeCasts S1024x3)
    (hb : FTy.bits .bf16 < FTy.bits .f32) (r c : Fin 1024) :
    matmul (F := Ideal) dot_S1024x3_S1024x3_S1024x1024_1_1_0_0_n_n none (truncf .bf16 (shapeCast S1024x3 x hc) hb) (truncf .bf16 (shapeCast S1024x3 y hc) hb)
        (constant (F := Ideal) S1024x1024 .f32 0x00000000#32) (ix2 r c)
      = ∑ k : Fin 3, x (ix3 (0 : Fin 1) r k) * y (ix3 (0 : Fin 1) c k) := by
  refine (dot_apply _ _ r c).trans (Finset.sum_congr rfl fun k _ => ?_)
  exact congrArg₂ (· * ·) ((truncf_apply _ hb _).trans (shapeCast_1ab_ab_apply x hc r k))
    ((truncf_apply _ hb _).trans (shapeCast_1ab_ab_apply y hc c k))

/-- The clamped squared distance of point `r` of the first block to point `c` of the second: the two squared lengths,
    minus twice the inner product, and never below zero. -/
theorem pay7_apply (x0 x1 : Vec Ideal S1x1024x3 .f32) (r c : Fin 1024) :
    k0_pay7 (F := Ideal) x0 x1 (ix2 r c)
      = max ((Cert.Chamfer.zero + ∑ k : Fin 3, x0 (ix3 (0 : Fin 1) r k) * x0 (ix3 (0 : Fin 1) r k))
            + (Cert.Chamfer.zero + ∑ k : Fin 3, x1 (ix3 (0 : Fin 1) c k) * x1 (ix3 (0 : Fin 1) c k))
            - Cert.Chamfer.two * ∑ k : Fin 3, x0 (ix3 (0 : Fin 1) r k) * x1 (ix3 (0 : Fin 1) c k))
          Cert.Chamfer.zero := by
  unfold k0_pay7
  refine (maximumf_apply _ _ _).trans (congrArg₂ max ?_ rfl)
  refine (subf_apply _ _ _).trans (congrArg₂ (· - ·) ?_ ?_)
  · refine (addf_apply _ _ _).trans (congrArg₂ (· + ·) ?_ ?_)
    · refine (broadcastTo_a1_ab_apply _ _ r c).trans ?_
      refine (shapeCast_a_a1_apply _ _ r (0 : Fin 1)).trans ?_
      exact sqsum_apply x0 _ _ _ _ r
    · refine (broadcastTo_1b_ab_apply _ _ r c).trans ?_
      refine (shapeCast_a_1a_apply _ _ (0 : Fin 1) c).trans ?_
      exact sqsum_apply x1 _ _ _ _ c
  · refine (mulf_apply _ _ _).trans (congrArg₂ (· * ·) rfl ?_)
    exact inner_apply x0 x1 _ _ r c

end Cert.KernelIdeal.TileValue

end
-- ==== Proof.PieceValue.lean ====
/-
  What the kernel body's stores leave in its three buffers, read at an index on the extended reals.

  At a grid point the body holds a block of 1024 points of each cloud; `T` below is the table of clamped squared
  distances of every pair of the two blocks. The row scratch ends holding, for each point of the first block, the
  minimum of what it held (the top element where the body first resets it) and the infimum of that point's row of `T`.
  The column accumulator is changed only on the stretch of 1024 columns the point works on: there it ends at the minimum
  of what it held (the top element after a reset) and the infimum of the column of `T`; at the last point of a batch
  every entry is replaced by its square root. The row block written out is the square roots of the row scratch.
-/
import proofs.«171865_j33663953666360_2_alg».proof.Proof.BodyIdeal.Frame
import proofs.«171865_j33663953666360_2_alg».proof.Proof.TileValue
import Idealize.ShloMosaic.Lib.WritesUnit

set_option maxRecDepth 16384

noncomputable section

namespace Cert.KernelIdeal.PieceValue

open Cert.KernelIdeal Cert.KernelIdeal.Gen Cert.KernelIdeal.Body Cert.KernelIdeal.TileValue
open Idealize.ShloMosaic Idealize.ShloMosaic.ValueIdx Idealize.ShloMosaic.Tactic

/-- The zero offsets of a rank-2 buffer, however spelt. -/
theorem hz2 : (![0, 0] : Fin 2 → Nat) = fun _ => 0 := funext fun a => by fin_cases a <;> rfl

/-- The zero offsets of a rank-3 buffer, however spelt. -/
theorem hz3 : (![0, 0, 0] : Fin 3 → Nat) = fun _ => 0 := funext fun a => by fin_cases a <;> rfl

/-- Case B: the row scratch after the body, as one function of the blocks and of what it held. -/
theorem sout0_B_eq (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : ¬cond0_2 i) (hc3 : ¬cond0_3 i) (x0 x1 : Vec Ideal S1x1024x3 .f32) (xo6 : Vec Ideal S1x1x8192 .f32) (xs0 : Vec Ideal S1024x1 .f32) :
    sout0_B (F := Ideal) c i arg3 harg3 arg4 harg4 arg5 harg5 arg6 harg6 arg7 harg7 hc0 hc1 hc2 hc3 x0 x1 xo6 xs0 = k0_pay8 (F := Ideal) x0 x1 xs0 := by
  unfold sout0_B
  rw [View.read_writes_junk_eq_canon]
  unfold kernelRun0_B
  dsimp only
  sl_unfold_words
  rw [View.canon_unit_zero (S := S1024x1) hz2]
  simp only [View.readAt_eq_ld, harg3.read_unread, harg4.read_unread, harg7.read_unread,
    View.ld_unit_zero (S := S1x1024x3) hz3, View.ld_unit_zero (S := S1024x1) hz2]
  exact pay1_eq _

/-- Case B: the row scratch after the body at row `r`. -/
theorem sout0_B_apply (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : ¬cond0_2 i) (hc3 : ¬cond0_3 i) (x0 x1 : Vec Ideal S1x1024x3 .f32) (xo6 : Vec Ideal S1x1x8192 .f32) (xs0 : Vec Ideal S1024x1 .f32) (r : Fin 1024) :
    sout0_B (F := Ideal) c i arg3 harg3 arg4 harg4 arg5 harg5 arg6 harg6 arg7 harg7 hc0 hc1 hc2 hc3 x0 x1 xo6 xs0 (ix2 r (0 : Fin 1))
      = min (xs0 (ix2 r (0 : Fin 1))) (Finset.univ.inf fun c' : Fin 1024 => k0_pay7 (F := Ideal) x0 x1 (ix2 r c')) := by
  rw [sout0_B_eq]
  exact pay8_apply x0 x1 xs0 r

/-- Case C: the row scratch after the body, as one function of the blocks and of what it held. -/
theorem sout0_C_eq (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : ¬cond0_3 i) (x0 x1 : Vec Ideal S1x1024x3 .f32) (xo6 : Vec Ideal S1x1x8192 .f32) (xs0 : Vec Ideal S1024x1 .f32) :
    sout0_C (F := Ideal) c i arg3 harg3 arg4 harg4 arg5 harg5 arg6 harg6 arg7 harg7 hc0 hc1 hc2 hc3 x0 x1 xo6 xs0 = k0_pay8 (F := Ideal) x0 x1 xs0 := by
  unfold sout0_C
  rw [View.read_writes_junk_eq_canon]
  unfold kernelRun0_C
  dsimp only
  sl_unfold_words
  rw [View.canon_unit_zero (S := S1024x1) hz2]
  simp only [View.readAt_eq_ld, harg3.read_unread, harg4.read_unread, harg7.read_unread,
    View.ld_unit_zero (S := S1x1024x3) hz3, View.ld_unit_zero (S := S1024x1) hz2]
  exact pay1_eq _

/-- Case C: the row scratch after the body at row `r`. -/
theorem sout0_C_apply (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : ¬cond0_3 i) (x0 x1 : Vec Ideal S1x1024x3 .f32) (xo6 : Vec Ideal S1x1x8192 .f32) (xs0 : Vec Ideal S1024x1 .f32) (r : Fin 1024) :
    sout0_C (F := Ideal) c i arg3 harg3 arg4 harg4 arg5 harg5 arg6 harg6 arg7 harg7 hc0 hc1 hc2 hc3 x0 x1 xo6 xs0 (ix2 r (0 : Fin 1))
      = min (xs0 (ix2 r (0 : Fin 1))) (Finset.univ.inf fun c' : Fin 1024 => k0_pay7 (F := Ideal) x0 x1 (ix2 r c')) := by
  rw [sout0_C_eq]
  exact pay8_apply x0 x1 xs0 r

/-- Case E: the row scratch after the body, as one function of the blocks and of what it held. -/
theorem sout0_E_eq (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : cond0_3 i) (x0 x1 : Vec Ideal S1x1024x3 .f32) (xo6 : Vec Ideal S1x1x8192 .f32) (xs0 : Vec Ideal S1024x1 .f32) :
    sout0_E (F := Ideal) c i arg3 harg3 arg4 harg4 arg5 harg5 arg6 harg6 arg7 harg7 hc0 hc1 hc2 hc3 x0 x1 xo6 xs0 = k0_pay8 (F := Ideal) x0 x1 xs0 := by
  unfold sout0_E
  rw [View.read_writes_junk_eq_canon]
  unfold kernelRun0_E
  dsimp only
  sl_unfold_words
  rw [View.canon_unit_zero (S := S1024x1) hz2]
  simp only [View.readAt_eq_ld, harg3.read_unread, harg4.read_unread, harg7.read_unread,
    View.ld_unit_zero (S := S1x1024x3) hz3, View.ld_unit_zero (S := S1024x1) hz2]
  exact pay1_eq _

/-- Case E: the row scratch after the body at row `r`. -/
theorem sout0_E_apply (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : cond0_3 i) (x0 x1 : Vec Ideal S1x1024x3 .f32) (xo6 : Vec Ideal S1x1x8192 .f32) (xs0 : Vec Ideal S1024x1 .f32) (r : Fin 1024) :
    sout0_E (F := Ideal) c i arg3 harg3 arg4 harg4 arg5 harg5 arg6 harg6 arg7 harg7 hc0 hc1 hc2 hc3 x0 x1 xo6 xs0 (ix2 r (0 : Fin 1))
      = min (xs0 (ix2 r (0 : Fin 1))) (Finset.univ.inf fun c' : Fin 1024 => k0_pay7 (F := Ideal) x0 x1 (ix2 r c')) := by
  rw [sout0_E_eq]
  exact pay8_apply x0 x1 xs0 r

/-- Case A: the row scratch after the body, as one function of the blocks (the scratch is first reset). -/
theorem sout0_A_eq (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : cond0_0 i) (hc1 : cond0_1 i) (hc2 : ¬cond0_2 i) (hc3 : ¬cond0_3 i) (x0 x1 : Vec Ideal S1x1024x3 .f32) :
    sout0_A (F := Ideal) c i arg3 harg3 arg4 harg4 arg5 harg5 arg6 harg6 arg7 harg7 hc0 hc1 hc2 hc3 x0 x1 = k0_pay8 (F := Ideal) x0 x1 (k0_pay5 (F := Ideal)) := by
  unfold sout0_A
  rw [View.read_writes_junk_eq_canon]
  unfold kernelRun0_A
  dsimp only
  sl_unfold_words
  rw [View.canon_cons_unit_zero (S := S1024x1) hz2, View.readCov_unit_zero (S := S1024x1) _ hz2]
  simp only [View.readAt_eq_ld, harg3.read_unread, harg4.read_unread,
    View.ld_unit_zero (S := S1x1024x3) hz3]
  exact pay1_eq _

/-- Case A: the row scratch after the body at row `r`. -/
theorem sout0_A_apply (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : cond0_0 i) (hc1 : cond0_1 i) (hc2 : ¬cond0_2 i) (hc3 : ¬cond0_3 i) (x0 x1 : Vec Ideal S1x1024x3 .f32) (r : Fin 1024) :
    sout0_A (F := Ideal) c i arg3 harg3 arg4 harg4 arg5 harg5 arg6 harg6 arg7 harg7 hc0 hc1 hc2 hc3 x0 x1 (ix2 r (0 : Fin 1))
      = Finset.univ.inf fun c' : Fin 1024 => k0_pay7 (F := Ideal) x0 x1 (ix2 r c') := by
  rw [sout0_A_eq, pay8_apply, pay5_apply]
  exact min_top_left _

/-- Case D: the row scratch after the body, as one function of the blocks (the scratch is first reset). -/
theorem sout0_D_eq (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : cond0_0 i) (hc1 : ¬cond0_1 i) (hc2 : ¬cond0_2 i) (hc3 : ¬cond0_3 i) (x0 x1 : Vec Ideal S1x1024x3 .f32) (xo6 : Vec Ideal S1x1x8192 .f32) :
    sout0_D (F := Ideal) c i arg3 harg3 arg4 harg4 arg5 harg5 arg6 harg6 arg7 harg7 hc0 hc1 hc2 hc3 x0 x1 xo6 = k0_pay8 (F := Ideal) x0 x1 (k0_pay5 (F := Ideal)) := by
  unfold sout0_D
  rw [View.read_writes_junk_eq_canon]
  unfold kernelRun0_D
  dsimp only
  sl_unfold_words
  rw [View.canon_cons_unit_zero (S := S1024x1) hz2, View.readCov_unit_zero (S := S1024x1) _ hz2]
  simp only [View.readAt_eq_ld, harg3.read_unread, harg4.read_unread,
    View.ld_unit_zero (S := S1x1024x3) hz3]
  exact pay1_eq _

/-- Case D: the row scratch after the body at row `r`. -/
theorem sout0_D_apply (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : cond0_0 i) (hc1 : ¬cond0_1 i) (hc2 : ¬cond0_2 i) (hc3 : ¬cond0_3 i) (x0 x1 : Vec Ideal S1x1024x3 .f32) (xo6 : Vec Ideal S1x1x8192 .f32) (r : Fin 1024) :
    sout0_D (F := Ideal) c i arg3 harg3 arg4 harg4 arg5 harg5 arg6 harg6 arg7 harg7 hc0 hc1 hc2 hc3 x0 x1 xo6 (ix2 r (0 : Fin 1))
      = Finset.univ.inf fun c' : Fin 1024 => k0_pay7 (F := Ideal) x0 x1 (ix2 r c') := by
  rw [sout0_D_eq, pay8_apply, pay5_apply]
  exact min_top_left _

/-- The stretch's offsets in closed form: columns `[1024 j, 1024 j + 1024)` at the point's third coordinate `j`. -/
theorem off_eq (i : grid0.Coords) : k0_off1 i = ![0, 0, (i 2).val * 1024] := by
  rw [k0_off1_eq i, Nat.mul_comm]

/-- A buffer of 8192 columns after a store of one stretch of 1024 columns at offset `1024 j`, read at column `mm`:
    inside the stretch the stored value at the column's position in it, elsewhere what the earlier stores left. -/
theorem read_stretch {sig : RefSig} {κ : Kind} {sp : Space} {Val : EltTy → Type}
    (v : View sig κ sp S1x1x8192 .f32) (f : v.ty.Contents Val) {off : Fin 3 → ℕ}
    (inb : ∀ a, off a + S1x1x1024.size a ≤ S1x1x8192.size a) (w : S1x1x1024.Idx → Val .f32)
    (L : List (View.Piece Val S1x1x8192 .f32)) (jj : ℕ) (heq : off = ![0, 0, jj * 1024]) (mm : Fin 8192) :
    v.read Val (v.writes Val f ((⟨Rect.unit off S1x1x1024.size inb, w⟩ : View.Piece Val S1x1x8192 .f32) :: L))
        (ix3 (0 : Fin 1) (0 : Fin 1) mm)
      = if h : jj * 1024 ≤ mm.val ∧ mm.val < jj * 1024 + 1024 then
          w (ix3 (0 : Fin 1) (0 : Fin 1) (⟨mm.val - jj * 1024, by omega⟩ : Fin 1024))
        else v.read Val (v.writes Val f L) (ix3 (0 : Fin 1) (0 : Fin 1) mm) := by
  by_cases h : jj * 1024 ≤ mm.val ∧ mm.val < jj * 1024 + 1024
  · rw [dif_pos h]
    refine View.read_writes_cons_unit_of_mem v f inb w L (ix3 (0 : Fin 1) (0 : Fin 1) mm)
      (ix3 (0 : Fin 1) (0 : Fin 1) (⟨mm.val - jj * 1024, by omega⟩ : Fin 1024)) heq fun a => ?_
    match a with
    | ⟨0, _⟩ => rfl
    | ⟨1, _⟩ => rfl
    | ⟨2, _⟩ =>
      show mm.val = jj * 1024 + (mm.val - jj * 1024)
      omega
  · rw [dif_neg h]
    refine View.read_writes_cons_unit_of_not_mem v f inb w L (ix3 (0 : Fin 1) (0 : Fin 1) mm) heq (2 : Fin 3) ?_
    show mm.val < jj * 1024 ∨ jj * 1024 + 1024 ≤ mm.val
    omega

/-- What the body stores on the stretch, at a column `mm` of it: the minimum of what the buffer held there and the
    infimum of the column of the distance table. -/
theorem stretch_val (T : FVec Ideal S1024x1024 .f32) (X : Vec Ideal S1x1x8192 .f32) {off : Fin 3 → ℕ}
    (inb : ∀ a, off a + S1x1x1024.size a ≤ S1x1x8192.size a) (jj : ℕ) (heq : off = ![0, 0, jj * 1024])
    (mm : Fin 8192) (h : jj * 1024 ≤ mm.val ∧ mm.val < jj * 1024 + 1024) :
    k0_pay2 (F := Ideal) T (View.ld X (Rect.unit off S1x1x1024.size inb))
        (ix3 (0 : Fin 1) (0 : Fin 1) (⟨mm.val - jj * 1024, by omega⟩ : Fin 1024))
      = min (X (ix3 (0 : Fin 1) (0 : Fin 1) mm))
          (Finset.univ.inf fun r : Fin 1024 => T (ix2 r (⟨mm.val - jj * 1024, by omega⟩ : Fin 1024))) := by
  subst heq
  refine (pay2_apply T _ _).trans (congrArg₂ min ?_ rfl)
  show X ((Rect.unit (s := S1x1x8192) ![0, 0, jj * 1024] S1x1x1024.size inb).idx _) = X _
  refine congrArg X (funext fun a => Fin.ext ?_)
  match a with
  | ⟨0, _⟩ => rfl
  | ⟨1, _⟩ => rfl
  | ⟨2, _⟩ =>
    show jj * 1024 + 1 * (mm.val - jj * 1024) = mm.val
    omega

/-- The two together: a buffer after the body's store on the stretch, over contents that read `X` there. -/
theorem stretch_apply {sig : RefSig} {κ : Kind} {sp : Space} (v : View sig κ sp S1x1x8192 .f32)
    (f : v.ty.Contents (Elt Ideal)) (T : FVec Ideal S1024x1024 .f32) (X : Vec Ideal S1x1x8192 .f32) {off : Fin 3 → ℕ}
    (inb : ∀ a, off a + S1x1x1024.size a ≤ S1x1x8192.size a) (L : List (View.Piece (Elt Ideal) S1x1x8192 .f32))
    (jj : ℕ) (heq : off = ![0, 0, jj * 1024]) (mm : Fin 8192) :
    v.read (Elt Ideal) (v.writes (Elt Ideal) f
        ((⟨Rect.unit off S1x1x1024.size inb, k0_pay2 (F := Ideal) T (View.ld X (Rect.unit off S1x1x1024.size inb))⟩ :
          View.Piece (Elt Ideal) S1x1x8192 .f32) :: L)) (ix3 (0 : Fin 1) (0 : Fin 1) mm)
      = if h : jj * 1024 ≤ mm.val ∧ mm.val < jj * 1024 + 1024 then
          min (X (ix3 (0 : Fin 1) (0 : Fin 1) mm))
            (Finset.univ.inf fun r : Fin 1024 => T (ix2 r (⟨mm.val - jj * 1024, by omega⟩ : Fin 1024)))
        else v.read (Elt Ideal) (v.writes (Elt Ideal) f L) (ix3 (0 : Fin 1) (0 : Fin 1) mm) := by
  refine (read_stretch v f inb _ L jj heq mm).trans ?_
  by_cases h : jj * 1024 ≤ mm.val ∧ mm.val < jj * 1024 + 1024
  · rw [dif_pos h, dif_pos h]
    exact stretch_val T X inb jj heq mm h
  · rw [dif_neg h, dif_neg h]

/-- Case B: the column accumulator after the body at column `mm`. -/
theorem out6_B_apply (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : ¬cond0_2 i) (hc3 : ¬cond0_3 i) (x0 x1 : Vec Ideal S1x1024x3 .f32) (xo6 : Vec Ideal S1x1x8192 .f32) (xs0 : Vec Ideal S1024x1 .f32) (mm : Fin 8192) :
    out6_B (F := Ideal) c i arg3 harg3 arg4 harg4 arg5 harg5 arg6 harg6 arg7 harg7 hc0 hc1 hc2 hc3 x0 x1 xo6 xs0 (ix3 (0 : Fin 1) (0 : Fin 1) mm)
      = if h : (i 2).val * 1024 ≤ mm.val ∧ mm.val < (i 2).val * 1024 + 1024 then
          min (xo6 (ix3 (0 : Fin 1) (0 : Fin 1) mm)) (Finset.univ.inf fun r : Fin 1024 =>
            k0_pay7 (F := Ideal) x0 x1 (ix2 r (⟨mm.val - (i 2).val * 1024, by omega⟩ : Fin 1024)))
        else xo6 (ix3 (0 : Fin 1) (0 : Fin 1) mm) := by
  unfold out6_B
  unfold kernelRun0_B
  dsimp only
  sl_unfold_run_names
  simp only [View.readAt_eq_ld, harg3.read_unread, harg4.read_unread, harg6.read_unread,
    View.ld_unit_zero (S := S1x1024x3) hz3]
  refine (stretch_apply arg6.view _ (k0_pay7 (F := Ideal) x0 x1) xo6 _ [] (i 2).val (off_eq i) mm).trans ?_
  rw [View.writes_nil, harg6.read_unread]

/-- Case C: the column accumulator after the body at column `mm`. -/
theorem out6_C_apply (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : ¬cond0_3 i) (x0 x1 : Vec Ideal S1x1024x3 .f32) (xo6 : Vec Ideal S1x1x8192 .f32) (xs0 : Vec Ideal S1024x1 .f32) (mm : Fin 8192) :
    out6_C (F := Ideal) c i arg3 harg3 arg4 harg4 arg5 harg5 arg6 harg6 arg7 harg7 hc0 hc1 hc2 hc3 x0 x1 xo6 xs0 (ix3 (0 : Fin 1) (0 : Fin 1) mm)
      = if h : (i 2).val * 1024 ≤ mm.val ∧ mm.val < (i 2).val * 1024 + 1024 then
          min (xo6 (ix3 (0 : Fin 1) (0 : Fin 1) mm)) (Finset.univ.inf fun r : Fin 1024 =>
            k0_pay7 (F := Ideal) x0 x1 (ix2 r (⟨mm.val - (i 2).val * 1024, by omega⟩ : Fin 1024)))
        else xo6 (ix3 (0 : Fin 1) (0 : Fin 1) mm) := by
  unfold out6_C
  unfold kernelRun0_C
  dsimp only
  sl_unfold_run_names
  simp only [View.readAt_eq_ld, harg3.read_unread, harg4.read_unread, harg6.read_unread,
    View.ld_unit_zero (S := S1x1024x3) hz3]
  refine (stretch_apply arg6.view _ (k0_pay7 (F := Ideal) x0 x1) xo6 _ [] (i 2).val (off_eq i) mm).trans ?_
  rw [View.writes_nil, harg6.read_unread]

/-- Case D: the column accumulator after the body at column `mm`. -/
theorem out6_D_apply (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : cond0_0 i) (hc1 : ¬cond0_1 i) (hc2 : ¬cond0_2 i) (hc3 : ¬cond0_3 i) (x0 x1 : Vec Ideal S1x1024x3 .f32) (xo6 : Vec Ideal S1x1x8192 .f32) (mm : Fin 8192) :
    out6_D (F := Ideal) c i arg3 harg3 arg4 harg4 arg5 harg5 arg6 harg6 arg7 harg7 hc0 hc1 hc2 hc3 x0 x1 xo6 (ix3 (0 : Fin 1) (0 : Fin 1) mm)
      = if h : (i 2).val * 1024 ≤ mm.val ∧ mm.val < (i 2).val * 1024 + 1024 then
          min (xo6 (ix3 (0 : Fin 1) (0 : Fin 1) mm)) (Finset.univ.inf fun r : Fin 1024 =>
            k0_pay7 (F := Ideal) x0 x1 (ix2 r (⟨mm.val - (i 2).val * 1024, by omega⟩ : Fin 1024)))
        else xo6 (ix3 (0 : Fin 1) (0 : Fin 1) mm) := by
  unfold out6_D
  unfold kernelRun0_D
  dsimp only
  sl_unfold_run_names
  simp only [View.readAt_eq_ld, harg3.read_unread, harg4.read_unread, harg6.read_unread,
    View.ld_unit_zero (S := S1x1024x3) hz3]
  refine (stretch_apply arg6.view _ (k0_pay7 (F := Ideal) x0 x1) xo6 _ [] (i 2).val (off_eq i) mm).trans ?_
  rw [View.writes_nil, harg6.read_unread]

/-- Case A: the column accumulator is first reset to the top element everywhere, then the stretch is stored. -/
theorem out6_A_apply (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : cond0_0 i) (hc1 : cond0_1 i) (hc2 : ¬cond0_2 i) (hc3 : ¬cond0_3 i) (x0 x1 : Vec Ideal S1x1024x3 .f32) (mm : Fin 8192) :
    out6_A (F := Ideal) c i arg3 harg3 arg4 harg4 arg5 harg5 arg6 harg6 arg7 harg7 hc0 hc1 hc2 hc3 x0 x1 (ix3 (0 : Fin 1) (0 : Fin 1) mm)
      = if h : (i 2).val * 1024 ≤ mm.val ∧ mm.val < (i 2).val * 1024 + 1024 then
          min ((⊤ : EReal)) (Finset.univ.inf fun r : Fin 1024 =>
            k0_pay7 (F := Ideal) x0 x1 (ix2 r (⟨mm.val - (i 2).val * 1024, by omega⟩ : Fin 1024)))
        else (⊤ : EReal) := by
  unfold out6_A
  unfold kernelRun0_A
  dsimp only
  sl_unfold_run_names
  simp only [View.readAt_eq_ld, harg3.read_unread, harg4.read_unread, View.ld_unit_zero (S := S1x1024x3) hz3]
  rw [View.read_writes_junk_eq_canon arg6.view, View.canon_unit_zero (S := S1x1x8192) hz3]
  refine (stretch_apply VO0_3 _ (k0_pay7 (F := Ideal) x0 x1) (k0_pay6 (F := Ideal)) _ _ (i 2).val (off_eq i) mm).trans ?_
  rw [View.read_writes_junk_eq_canon, View.canon_unit_zero (S := S1x1x8192) hz3]
  simp only [pay6_apply]

/-- Case E: the stretch is stored, then every entry of the accumulator is replaced by its square root. -/
theorem out6_E_apply (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : cond0_3 i) (x0 x1 : Vec Ideal S1x1024x3 .f32) (xo6 : Vec Ideal S1x1x8192 .f32) (xs0 : Vec Ideal S1024x1 .f32) (mm : Fin 8192) :
    out6_E (F := Ideal) c i arg3 harg3 arg4 harg4 arg5 harg5 arg6 harg6 arg7 harg7 hc0 hc1 hc2 hc3 x0 x1 xo6 xs0 (ix3 (0 : Fin 1) (0 : Fin 1) mm)
      = Ideal.sqrt (if h : (i 2).val * 1024 ≤ mm.val ∧ mm.val < (i 2).val * 1024 + 1024 then
          min (xo6 (ix3 (0 : Fin 1) (0 : Fin 1) mm)) (Finset.univ.inf fun r : Fin 1024 =>
            k0_pay7 (F := Ideal) x0 x1 (ix2 r (⟨mm.val - (i 2).val * 1024, by omega⟩ : Fin 1024)))
        else xo6 (ix3 (0 : Fin 1) (0 : Fin 1) mm)) := by
  unfold out6_E
  unfold kernelRun0_E
  dsimp only
  sl_unfold_run_names
  simp only [View.readAt_eq_ld, harg3.read_unread, harg4.read_unread, harg6.read_unread,
    View.ld_unit_zero (S := S1x1024x3) hz3, View.ld_unit_zero (S := S1x1x8192) hz3]
  rw [View.read_writes_junk_eq_canon, View.canon_cons_unit_zero (S := S1x1x8192) hz3, pay4_apply]
  refine congrArg Ideal.sqrt ?_
  refine (stretch_apply arg6.view _ (k0_pay7 (F := Ideal) x0 x1) xo6 _ [] (i 2).val (off_eq i) mm).trans ?_
  rw [View.writes_nil, harg6.read_unread]

/-- Case C: the row block written out is the square roots of the row scratch just stored. -/
theorem out5_C_apply (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : ¬cond0_3 i) (x0 x1 : Vec Ideal S1x1024x3 .f32) (xo6 : Vec Ideal S1x1x8192 .f32) (xs0 : Vec Ideal S1024x1 .f32) (r : Fin 1024) :
    out5_C (F := Ideal) c i arg3 harg3 arg4 harg4 arg5 harg5 arg6 harg6 arg7 harg7 hc0 hc1 hc2 hc3 x0 x1 xo6 xs0 (ix3 (0 : Fin 1) (0 : Fin 1) r)
      = Ideal.sqrt (sout0_C (F := Ideal) c i arg3 harg3 arg4 harg4 arg5 harg5 arg6 harg6 arg7 harg7 hc0 hc1 hc2 hc3 x0 x1 xo6 xs0 (ix2 r (0 : Fin 1))) := by
  rw [sout0_C_eq]
  unfold out5_C
  rw [View.read_writes_junk_eq_canon]
  unfold kernelRun0_C
  dsimp only
  sl_unfold_words
  rw [View.canon_unit_zero (S := S1x1x1024) hz3, View.readCov_unit_zero (S := S1024x1) _ hz2]
  simp only [View.readAt_eq_ld, harg3.read_unread, harg4.read_unread, harg7.read_unread,
    View.ld_unit_zero (S := S1x1024x3) hz3, View.ld_unit_zero (S := S1024x1) hz2]
  rw [pay1_eq, pay3_apply]

/-- Case E: the row block written out is the square roots of the row scratch just stored. -/
theorem out5_E_apply (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1024x1 .f32) (harg7 : arg7.IsWhole) (hc0 : ¬cond0_0 i) (hc1 : ¬cond0_1 i) (hc2 : cond0_2 i) (hc3 : cond0_3 i) (x0 x1 : Vec Ideal S1x1024x3 .f32) (xo6 : Vec Ideal S1x1x8192 .f32) (xs0 : Vec Ideal S1024x1 .f32) (r : Fin 1024) :
    out5_E (F := Ideal) c i arg3 harg3 arg4 harg4 arg5 harg5 arg6 harg6 arg7 harg7 hc0 hc1 hc2 hc3 x0 x1 xo6 xs0 (ix3 (0 : Fin 1) (0 : Fin 1) r)
      = Ideal.sqrt (sout0_E (F := Ideal) c i arg3 harg3 arg4 harg4 arg5 harg5 arg6 harg6 arg7 harg7 hc0 hc1 hc2 hc3 x0 x1 xo6 xs0 (ix2 r (0 : Fin 1))) := by
  rw [sout0_E_eq]
  unfold out5_E
  rw [View.read_writes_junk_eq_canon]
  unfold kernelRun0_E
  dsimp only
  sl_unfold_words
  rw [View.canon_unit_zero (S := S1x1x1024) hz3, View.readCov_unit_zero (S := S1024x1) _ hz2]
  simp only [View.readAt_eq_ld, harg3.read_unread, harg4.read_unread, harg7.read_unread,
    View.ld_unit_zero (S := S1x1024x3) hz3, View.ld_unit_zero (S := S1024x1) hz2]
  rw [pay1_eq, pay3_apply]

end Cert.KernelIdeal.PieceValue

end
-- ==== Proof.BlockRead.lean ====
/-
  Where the windows' blocks sit in their arrays.

  Grid point t = 64 b + 8 i + j works on batch b, on the i-th block of 1024 points of the first cloud and on the j-th
  block of 1024 points of the second. The row output's block at that point is entries 1024 i … 1024 i + 1023 of batch b
  and is written back when j = 7; the column output's block is the whole row of batch b and is written back at the
  batch's last point. The blocks written back cover both output arrays.
-/
import proofs.«171865_j33663953666360_2_alg».proof.Proof.BodyIdeal.Frame
import Idealize.ShloMosaic.Lib.Pipeline.Value
import Idealize.ShloMosaic.Lib.ValueIdx

set_option maxRecDepth 16384

noncomputable section

namespace Cert.KernelIdeal.BlockRead

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

variable {F : FTy → Type} [FloatOps F]
variable (m : (ℓ : Loc nD τ sig) → Buf (Elt F) ℓ)

/-! ## The grid's points

Point `t` of the 4 × 8 × 8 grid is batch `t / 64`, row block `t / 8 % 8` of the first cloud and column block `t % 8` of
the second. -/

theorem lt256 (t : Fin cfg0.N) : t.val < 256 := lt_of_lt_of_eq t.isLt (show cfg0.N = 256 from N_0)
theorem batch_lt (t : Fin cfg0.N) : t.val / 64 < 4 := by have := lt256 t; omega
theorem row_lt (t : Fin cfg0.N) (r : Fin 1024) : t.val / 8 % 8 * 1024 + r.val < 8192 := by have := r.isLt; omega
theorem col_lt (t : Fin cfg0.N) (r : Fin 1024) : t.val % 8 * 1024 + r.val < 8192 := by have := r.isLt; omega

/-- The first cloud's window is at block (batch, row block, 0). -/
theorem idx_facts0 : ∀ t : Fin cfg0.N, win0_0.index t (0 : Fin 3) = t.val / 64 ∧ win0_0.index t (1 : Fin 3) = t.val / 8 % 8
    ∧ win0_0.index t (2 : Fin 3) = 0 :=
  (by decide +kernel : ∀ t : Fin grid0.N, _)
/-- The second cloud's window is at block (batch, column block, 0). -/
theorem idx_facts1 : ∀ t : Fin cfg0.N, win0_1.index t (0 : Fin 3) = t.val / 64 ∧ win0_1.index t (1 : Fin 3) = t.val % 8
    ∧ win0_1.index t (2 : Fin 3) = 0 :=
  (by decide +kernel : ∀ t : Fin grid0.N, _)
/-- The row output's window is at block (batch, 0, row block). -/
theorem idx_facts2 : ∀ t : Fin cfg0.N, win0_2.index t (0 : Fin 3) = t.val / 64 ∧ win0_2.index t (1 : Fin 3) = 0
    ∧ win0_2.index t (2 : Fin 3) = t.val / 8 % 8 :=
  (by decide +kernel : ∀ t : Fin grid0.N, _)
/-- The column output's window is at block (batch, 0, 0). -/
theorem idx_facts3 : ∀ t : Fin cfg0.N, win0_3.index t (0 : Fin 3) = t.val / 64 ∧ win0_3.index t (1 : Fin 3) = 0
    ∧ win0_3.index t (2 : Fin 3) = 0 :=
  (by decide +kernel : ∀ t : Fin grid0.N, _)
/-- The last grid coordinate is the column block. -/
theorem coord2 : ∀ t : Fin cfg0.N, ((grid0.coords t) (2 : Fin 3)).val = t.val % 8 :=
  (by decide +kernel : ∀ t : Fin grid0.N, _)

/-! ## The input blocks -/

/-- Row `r` of the first cloud's block at point `t` is point `1024 (t / 8 % 8) + r` of batch `t / 64`. -/
theorem iblk0_apply (c : Dev nD) (t : Fin cfg0.N) (r : Fin 1024) (k : Fin 3) :
    (iblk m c 0 t : S1x1024x3.Idx → Elt F .f32) (ix3 (0 : Fin 1) r k)
      = (V m c main_arg1 : S4x8192x3.Idx → Elt F .f32)
          (ix3 (⟨t.val / 64, batch_lt t⟩ : Fin 4) (⟨t.val / 8 % 8 * 1024 + r.val, row_lt t r⟩ : Fin 8192) k) := by
  obtain ⟨e0, e1, e2⟩ := idx_facts0 t
  unfold iblk
  rw [View.read_apply]
  show V m c main_arg1 _ = V m c main_arg1 _
  congr 1
  funext a
  apply Fin.ext
  match a with
  | ⟨0, _⟩ => show win0_0.index t (0 : Fin 3) * 1 + 1 * 0 = t.val / 64; omega
  | ⟨1, _⟩ => show win0_0.index t (1 : Fin 3) * 1024 + 1 * r.val = t.val / 8 % 8 * 1024 + r.val; omega
  | ⟨2, _⟩ => show win0_0.index t (2 : Fin 3) * 3 + 1 * k.val = k.val; omega

/-- Row `r` of the second cloud's block at point `t` is point `1024 (t % 8) + r` of batch `t / 64`. -/
theorem iblk1_apply (c : Dev nD) (t : Fin cfg0.N) (r : Fin 1024) (k : Fin 3) :
    (iblk m c 1 t : S1x1024x3.Idx → Elt F .f32) (ix3 (0 : Fin 1) r k)
      = (V m c main_arg2 : S4x8192x3.Idx → Elt F .f32)
          (ix3 (⟨t.val / 64, batch_lt t⟩ : Fin 4) (⟨t.val % 8 * 1024 + r.val, col_lt t r⟩ : Fin 8192) k) := by
  obtain ⟨e0, e1, e2⟩ := idx_facts1 t
  unfold iblk
  rw [View.read_apply]
  show V m c main_arg2 _ = V m c main_arg2 _
  congr 1
  funext a
  apply Fin.ext
  match a with
  | ⟨0, _⟩ => show win0_1.index t (0 : Fin 3) * 1 + 1 * 0 = t.val / 64; omega
  | ⟨1, _⟩ => show win0_1.index t (1 : Fin 3) * 1024 + 1 * r.val = t.val % 8 * 1024 + r.val; omega
  | ⟨2, _⟩ => show win0_1.index t (2 : Fin 3) * 3 + 1 * k.val = k.val; omega

/-! ## The output blocks -/

/-- The row output's block at point `t`, read off any contents of its array: entries `1024 (t / 8 % 8) + r` of batch `t / 64`. -/
theorem blk2_read (t : Fin cfg0.N) (G : (⟨S4x1x8192, .f32⟩ : BufTy).Contents (Elt F)) (r : Fin 1024) :
    (((cfg0.win 2).blk t).view.read (Elt F) G : S1x1x1024.Idx → Elt F .f32) (ix3 (0 : Fin 1) (0 : Fin 1) r)
      = G (ix3 (⟨t.val / 64, batch_lt t⟩ : Fin 4) (0 : Fin 1) (⟨t.val / 8 % 8 * 1024 + r.val, row_lt t r⟩ : Fin 8192)) := by
  obtain ⟨e0, e1, e2⟩ := idx_facts2 t
  rw [View.read_apply]
  show G _ = G _
  congr 1
  funext a
  apply Fin.ext
  match a with
  | ⟨0, _⟩ => show win0_2.index t (0 : Fin 3) * 1 + 1 * 0 = t.val / 64; omega
  | ⟨1, _⟩ => show win0_2.index t (1 : Fin 3) * 1 + 1 * 0 = 0; omega
  | ⟨2, _⟩ => show win0_2.index t (2 : Fin 3) * 1024 + 1 * r.val = t.val / 8 % 8 * 1024 + r.val; omega

/-- The column output's block at point `t`, read off any contents of its array: the whole row of batch `t / 64`. -/
theorem blk3_read (t : Fin cfg0.N) (G : (⟨S4x1x8192, .f32⟩ : BufTy).Contents (Elt F)) (mm : Fin 8192) :
    (((cfg0.win 3).blk t).view.read (Elt F) G : S1x1x8192.Idx → Elt F .f32) (ix3 (0 : Fin 1) (0 : Fin 1) mm)
      = G (ix3 (⟨t.val / 64, batch_lt t⟩ : Fin 4) (0 : Fin 1) mm) := by
  obtain ⟨e0, e1, e2⟩ := idx_facts3 t
  rw [View.read_apply]
  show G _ = G _
  congr 1
  funext a
  apply Fin.ext
  match a with
  | ⟨0, _⟩ => show win0_3.index t (0 : Fin 3) * 1 + 1 * 0 = t.val / 64; omega
  | ⟨1, _⟩ => show win0_3.index t (1 : Fin 3) * 1 + 1 * 0 = 0; omega
  | ⟨2, _⟩ => show win0_3.index t (2 : Fin 3) * 8192 + 1 * mm.val = mm.val; omega

/-! ## The blocks written back cover the output arrays -/

/-- An index of the row output's array is in point `t`'s block iff each coordinate is in the block's range on its axis. -/
theorem mem_blk2 (t : Fin cfg0.N) (i : S4x1x8192.Idx) :
    i ∈ ((cfg0.win 2).blk t).view.set ↔ ∀ a : Fin 3, win0_2.index t a * S1x1x1024.size a ≤ (i a).val
      ∧ (i a).val < win0_2.index t a * S1x1x1024.size a + S1x1x1024.size a := by
  show i ∈ ((View.whole main_v0_0).slice (win0_2.rect t)).set ↔ _
  rw [View.set_slice_whole, Rect.mem_set_unit]
  exact Iff.rfl

/-- The same for the column output's array. -/
theorem mem_blk3 (t : Fin cfg0.N) (i : S4x1x8192.Idx) :
    i ∈ ((cfg0.win 3).blk t).view.set ↔ ∀ a : Fin 3, win0_3.index t a * S1x1x8192.size a ≤ (i a).val
      ∧ (i a).val < win0_3.index t a * S1x1x8192.size a + S1x1x8192.size a := by
  show i ∈ ((View.whole main_v0_1).slice (win0_3.rect t)).set ↔ _
  rw [View.set_slice_whole, Rect.mem_set_unit]
  exact Iff.rfl

/-- Every entry `(b, 0, n)` of the row output lies in the block written back at the point `64 b + 8 (n / 1024) + 7`. -/
theorem cover2 (i : S4x1x8192.Idx) : ∃ t : Fin cfg0.N, (cfg0.win 2).flush t = true ∧ i ∈ ((cfg0.win 2).blk t).view.set := by
  have h0 : (i 0).val < 4 := (i 0).isLt
  have h1 : (i 1).val < 1 := (i 1).isLt
  have h2 : (i 2).val < 8192 := (i 2).isLt
  have hN : cfg0.N = 256 := N_0
  let t : Fin cfg0.N := ⟨64 * (i 0).val + 8 * ((i 2).val / 1024) + 7, by rw [hN]; omega⟩
  have ht : t.val = 64 * (i 0).val + 8 * ((i 2).val / 1024) + 7 := rfl
  obtain ⟨e0, e1, e2⟩ := idx_facts2 t
  refine ⟨t, (flush0_2 t).mpr (by rw [ht]; omega), ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 1024 ≤ (i 2).val ∧ (i 2).val < win0_2.index t (2 : Fin 3) * 1024 + 1024; omega

/-- Every entry `(b, 0, m)` of the column output lies in the block written back at the point `64 b + 63`. -/
theorem cover3 (i : S4x1x8192.Idx) : ∃ t : Fin cfg0.N, (cfg0.win 3).flush t = true ∧ i ∈ ((cfg0.win 3).blk t).view.set := by
  have h0 : (i 0).val < 4 := (i 0).isLt
  have h1 : (i 1).val < 1 := (i 1).isLt
  have h2 : (i 2).val < 8192 := (i 2).isLt
  have hN : cfg0.N = 256 := N_0
  let t : Fin cfg0.N := ⟨64 * (i 0).val + 63, by rw [hN]; omega⟩
  have ht : t.val = 64 * (i 0).val + 63 := rfl
  obtain ⟨e0, e1, e2⟩ := idx_facts3 t
  refine ⟨t, (flush0_3 t).mpr (by rw [ht]; omega), ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 8192 ≤ (i 2).val ∧ (i 2).val < win0_3.index t (2 : Fin 3) * 8192 + 8192; omega

end Cert.KernelIdeal.BlockRead

end
-- ==== Proof.BlockInf.lean ====
/-
  The infimum of a function over the first `k` of 8192 indices, and how it grows block by block.

  Over no index it is the top element; over all of them it is the infimum of the function; and taking in one more
  block of 1024 indices takes the minimum of what was found so far with the infimum over that block. A running
  minimum kept block by block therefore ends at the infimum over every index.
-/
import Mathlib.Data.EReal.Basic
import Mathlib.Data.Finset.Lattice.Fold
import Mathlib.Data.Fintype.Basic

noncomputable section

namespace Cert.Chamfer

/-- The infimum of `f` over the indices below `k`. -/
def below (f : Fin 8192 → EReal) (k : ℕ) : EReal :=
  (Finset.univ.filter fun m : Fin 8192 => m.val < k).inf f

/-- Over no index the infimum is the top element. -/
theorem below_zero (f : Fin 8192 → EReal) : below f 0 = ⊤ := by
  unfold below
  rw [Finset.filter_false_of_mem (fun m _ => Nat.not_lt_zero m.val)]
  exact Finset.inf_empty

/-- Over every index it is the infimum of the function. -/
theorem below_full (f : Fin 8192 → EReal) : below f 8192 = Finset.univ.inf f := by
  unfold below
  rw [Finset.filter_true_of_mem (fun m _ => m.isLt)]

/-- The infimum over the indices of block `j` is the infimum over the block's own 1024 coordinates. -/
theorem inf_block (f : Fin 8192 → EReal) (j : Fin 8) :
    (Finset.univ.filter fun m : Fin 8192 => j.val * 1024 ≤ m.val ∧ m.val < (j.val + 1) * 1024).inf f
      = Finset.univ.inf fun c : Fin 1024 =>
          f ⟨j.val * 1024 + c.val, by have := j.isLt; have := c.isLt; omega⟩ := by
  refine le_antisymm ?_ ?_
  · refine Finset.le_inf fun c _ => Finset.inf_le ?_
    refine Finset.mem_filter.2 ⟨Finset.mem_univ _, ?_⟩
    have := c.isLt
    show j.val * 1024 ≤ j.val * 1024 + c.val ∧ j.val * 1024 + c.val < (j.val + 1) * 1024
    omega
  · refine Finset.le_inf fun m hm => ?_
    have hm' := (Finset.mem_filter.1 hm).2
    have hc : m.val - j.val * 1024 < 1024 := by omega
    refine (Finset.inf_le (Finset.mem_univ (⟨m.val - j.val * 1024, hc⟩ : Fin 1024))).trans (le_of_eq ?_)
    refine congrArg f (Fin.ext ?_)
    show j.val * 1024 + (m.val - j.val * 1024) = m.val
    omega

/-- Taking in block `j`: the minimum of the infimum so far with the infimum over the block. -/
theorem below_block (f : Fin 8192 → EReal) (j : Fin 8) :
    below f ((j.val + 1) * 1024)
      = min (below f (j.val * 1024))
          (Finset.univ.inf fun c : Fin 1024 =>
            f ⟨j.val * 1024 + c.val, by have := j.isLt; have := c.isLt; omega⟩) := by
  unfold below
  have hsplit : (Finset.univ.filter fun m : Fin 8192 => m.val < (j.val + 1) * 1024)
      = (Finset.univ.filter fun m : Fin 8192 => m.val < j.val * 1024)
        ∪ (Finset.univ.filter fun m : Fin 8192 => j.val * 1024 ≤ m.val ∧ m.val < (j.val + 1) * 1024) := by
    ext m
    simp only [Finset.mem_union, Finset.mem_filter, Finset.mem_univ, true_and]
    omega
  rw [hsplit, Finset.inf_union, inf_block]

end Cert.Chamfer

end
-- ==== Proof.Accumulate.lean ====
/-
  The running minima, in closed form.

  At the grid point t = 64 b + 8 i + j the body sees the i-th block of 1024 points of the first cloud and the j-th block
  of the second, and its tile is the clamped squared distance between them. After the point the row scratch holds, for
  each point of the i-th block, the infimum of its distances to the first (j+1)·1024 points of the second cloud; the
  column accumulator holds, for each point mm of the second cloud, the infimum of the distances to it from the first
  (i+1)·1024 points of the first cloud if mm lies in one of the blocks 0 … j, from the first i·1024 otherwise — and,
  after the batch's last point, the root of that. Both by induction on the point: one step is the law
  `below f ((k+1)·1024) = min (below f (k·1024)) (infimum over block k)`. Hence the two output arrays after the launch.
-/
import proofs.«171865_j33663953666360_2_alg».proof.Proof.PieceValue
import proofs.«171865_j33663953666360_2_alg».proof.Proof.BlockRead
import proofs.«171865_j33663953666360_2_alg».proof.Proof.BlockInf

set_option maxRecDepth 16384

noncomputable section

namespace Cert.KernelIdeal.Accum

open Cert.KernelIdeal Cert.KernelIdeal.Gen Cert.KernelIdeal.Body Cert.KernelIdeal.TileValue Cert.KernelIdeal.PieceValue
  Cert.KernelIdeal.BlockRead
open Idealize.ShloMosaic Idealize.ShloMosaic.TcCoe Idealize.ShloMosaic.ValueIdx Idealize.SL.Sem
open Cert.Chamfer (Cloud below below_zero below_full below_block nearRow nearCol)

variable (m : (ℓ : Loc nD τ sig) → Buf (Elt Ideal) ℓ) (c : Dev nD)

/-- The two clouds as the launch finds them. -/
abbrev X : Cloud.Idx → EReal := V m c main_arg1
abbrev Y : Cloud.Idx → EReal := V m c main_arg2

theorem pt_lt (t : Fin cfg0.N) : t.val < 256 := lt_of_lt_of_eq t.isLt N_0

/-- The batch, the row of the first cloud and the row of the second that a point's tile entry (r, c') speaks of. -/
def bOf (n : ℕ) : Fin 4 := ⟨n / 64 % 4, Nat.mod_lt _ (by norm_num)⟩
def rowIx (n : ℕ) (r : Fin 1024) : Fin 8192 := ⟨(n / 8 % 8) * 1024 + r.val, by have := r.isLt; omega⟩
def colIx (n : ℕ) (c' : Fin 1024) : Fin 8192 := ⟨(n % 8) * 1024 + c'.val, by have := c'.isLt; omega⟩

/-- The tile of a point is the distance table between its two blocks. -/
theorem tile_eq (t : Fin cfg0.N) (r c' : Fin 1024) :
    k0_pay7 (F := Ideal) (iblk m c 0 t) (iblk m c 1 t) (ix2 r c')
      = Cert.Chamfer.dist (X m c) (Y m c) (bOf t.val) (rowIx t.val r) (colIx t.val c') := by
  have hN := pt_lt t
  rw [pay7_apply]
  simp only [iblk0_apply, iblk1_apply]
  unfold Cert.Chamfer.dist Cert.Chamfer.sq Cert.Chamfer.dotp
  have hb : (⟨t.val / 64, by omega⟩ : Fin 4) = bOf t.val := Fin.ext (by unfold bOf; simp only; omega)
  simp only [hb]
  rfl

/-! ## The row scratch -/

/-- The distances from one point of the first cloud. -/
abbrev rowF (n : ℕ) (r : Fin 1024) : Fin 8192 → EReal := fun mm => Cert.Chamfer.dist (X m c) (Y m c) (bOf n) (rowIx n r) mm

theorem tile_row_inf (t : Fin cfg0.N) (r : Fin 1024) :
    (Finset.univ.inf fun c' : Fin 1024 => k0_pay7 (F := Ideal) (iblk m c 0 t) (iblk m c 1 t) (ix2 r c'))
      = Finset.univ.inf fun c' : Fin 1024 => rowF m c t.val r ⟨t.val % 8 * 1024 + c'.val, by have := c'.isLt; omega⟩ := by
  refine Finset.inf_congr rfl fun c' _ => ?_
  rw [tile_eq]; rfl

theorem row_step (t : Fin cfg0.N) (r : Fin 1024) :
    below (rowF m c t.val r) ((t.val % 8 + 1) * 1024)
      = min (below (rowF m c t.val r) (t.val % 8 * 1024))
          (Finset.univ.inf fun c' : Fin 1024 => rowF m c t.val r ⟨t.val % 8 * 1024 + c'.val, by have := c'.isLt; omega⟩) :=
  below_block (rowF m c t.val r) ⟨t.val % 8, Nat.mod_lt _ (by norm_num)⟩

theorem row_inv : ∀ (n : ℕ) (t : Fin cfg0.N), t.val = n → ∀ r : Fin 1024,
    (outsAt0 m c t.val t.isLt).2 (ix2 r (0 : Fin 1)) = below (rowF m c t.val r) ((t.val % 8 + 1) * 1024) := by
  intro n
  induction n with
  | zero =>
    intro t ht r
    rw [outsAt0_A m c t (by omega) (by omega) (by omega) (by omega)]
    dsimp only
    rw [sout0_A_apply, tile_row_inf, row_step]
    have : below (rowF m c t.val r) (t.val % 8 * 1024) = ⊤ := by
      have hj : t.val % 8 = 0 := by omega
      rw [hj, zero_mul, below_zero]
    rw [this, min_top_left]
  | succ n ih =>
    intro t ht r
    have hN := pt_lt t
    by_cases h0 : t.val % 8 = 0
    · -- the scratch was reset: only this tile counts
      have hstart : (outsAt0 m c t.val t.isLt).2 (ix2 r (0 : Fin 1))
          = Finset.univ.inf fun c' : Fin 1024 => k0_pay7 (F := Ideal) (iblk m c 0 t) (iblk m c 1 t) (ix2 r c') := by
        by_cases h1 : t.val % 64 = 0
        · rw [outsAt0_A m c t h0 h1 (by omega) (by omega)]
          dsimp only
          rw [sout0_A_apply]
        · rw [outsAt0_D m c t h0 h1 (by omega) (by omega)]
          dsimp only
          rw [sout0_D_apply]
      rw [hstart, tile_row_inf, row_step]
      have : below (rowF m c t.val r) (t.val % 8 * 1024) = ⊤ := by rw [h0, zero_mul, below_zero]
      rw [this, min_top_left]
    · -- the scratch carries what the point before left
      have hlt : t.val - 1 < cfg0.N := Nat.lt_of_le_of_lt (Nat.sub_le _ _) t.isLt
      have hprev : (outsAt0 m c t.val t.isLt).2 (ix2 r (0 : Fin 1))
          = min ((outsAt0 m c (t.val - 1) hlt).2 (ix2 r (0 : Fin 1)))
              (Finset.univ.inf fun c' : Fin 1024 => k0_pay7 (F := Ideal) (iblk m c 0 t) (iblk m c 1 t) (ix2 r c')) := by
        have h1 : ¬ t.val % 64 = 0 := by omega
        by_cases h2 : t.val % 8 = 7
        · by_cases h3 : t.val % 64 = 63
          · rw [outsAt0_E m c t h0 h1 h2 h3]
            dsimp only
            rw [sout0_E_apply]
          · rw [outsAt0_C m c t h0 h1 h2 h3]
            dsimp only
            rw [sout0_C_apply]
        · have h3 : ¬ t.val % 64 = 63 := by omega
          rw [outsAt0_B m c t h0 h1 h2 h3]
          dsimp only
          rw [sout0_B_apply]
      have e : (outsAt0 m c (t.val - 1) hlt).2 (ix2 r (0 : Fin 1))
          = below (rowF m c (t.val - 1) r) (((t.val - 1) % 8 + 1) * 1024) :=
        ih ⟨t.val - 1, hlt⟩ (by show t.val - 1 = n; omega) r
      have hsame : rowF m c (t.val - 1) r = rowF m c t.val r := by
        funext mm
        have hb : bOf (t.val - 1) = bOf t.val := Fin.ext (by unfold bOf; simp only; omega)
        have hr : rowIx (t.val - 1) r = rowIx t.val r := Fin.ext (by unfold rowIx; simp only; omega)
        simp only [rowF, hb, hr]
      have hk : ((t.val - 1) % 8 + 1) * 1024 = t.val % 8 * 1024 := by omega
      rw [hprev, e, hsame, hk, tile_row_inf]
      exact (row_step m c t r).symm

/-! ## The column accumulator -/

/-- The distances to one point of the second cloud. -/
abbrev colF (n : ℕ) (mm : Fin 8192) : Fin 8192 → EReal := fun nn => Cert.Chamfer.dist (X m c) (Y m c) (bOf n) nn mm

/-- How many points of the first cloud have been compared with point `mm` of the second after point `n`. -/
def seen (n : ℕ) (mm : Fin 8192) : ℕ :=
  if mm.val < (n % 8 + 1) * 1024 then (n / 8 % 8 + 1) * 1024 else (n / 8 % 8) * 1024

theorem tile_col_inf (t : Fin cfg0.N) (mm : Fin 8192) (h : t.val % 8 * 1024 ≤ mm.val ∧ mm.val < t.val % 8 * 1024 + 1024) :
    (Finset.univ.inf fun r : Fin 1024 => k0_pay7 (F := Ideal) (iblk m c 0 t) (iblk m c 1 t) (ix2 r ⟨mm.val - t.val % 8 * 1024, by omega⟩))
      = Finset.univ.inf fun r : Fin 1024 => colF m c t.val mm ⟨t.val / 8 % 8 * 1024 + r.val, by have := r.isLt; omega⟩ := by
  refine Finset.inf_congr rfl fun r _ => ?_
  rw [tile_eq]
  have : colIx t.val ⟨mm.val - t.val % 8 * 1024, by omega⟩ = mm := Fin.ext (by unfold colIx; simp only; omega)
  rw [this]; rfl

theorem seen_in (n : ℕ) (mm : Fin 8192) (h : n % 8 * 1024 ≤ mm.val ∧ mm.val < n % 8 * 1024 + 1024) :
    seen n mm = (n / 8 % 8 + 1) * 1024 := by
  unfold seen; rw [if_pos (by omega)]

/-- Within a batch, what had been seen before a point is what is seen after it, less the point's own block of rows on
    the point's own stretch of columns. -/
theorem seen_prev (n : ℕ) (mm : Fin 8192) (h1 : ¬ n % 64 = 0) :
    seen (n - 1) mm = if n % 8 * 1024 ≤ mm.val ∧ mm.val < n % 8 * 1024 + 1024 then n / 8 % 8 * 1024 else seen n mm := by
  have := mm.isLt
  unfold seen
  split_ifs <;> omega

theorem seen_first (n : ℕ) (mm : Fin 8192) (h1 : n % 64 = 0) :
    (if n % 8 * 1024 ≤ mm.val ∧ mm.val < n % 8 * 1024 + 1024 then n / 8 % 8 * 1024 else seen n mm) = 0 := by
  have := mm.isLt
  unfold seen
  split_ifs <;> omega

/-- One update of the accumulator: on the point's stretch of columns the minimum with the tile's column infimum, which
    takes in the point's block of rows; elsewhere nothing. -/
theorem col_step' (t : Fin cfg0.N) (mm : Fin 8192) (prev : EReal) (jj : ℕ) (hjj : jj = t.val % 8)
    (hprev : prev = below (colF m c t.val mm)
      (if t.val % 8 * 1024 ≤ mm.val ∧ mm.val < t.val % 8 * 1024 + 1024 then t.val / 8 % 8 * 1024 else seen t.val mm)) :
    (if h : jj * 1024 ≤ mm.val ∧ mm.val < jj * 1024 + 1024 then
        min prev (Finset.univ.inf fun r : Fin 1024 =>
          k0_pay7 (F := Ideal) (iblk m c 0 t) (iblk m c 1 t) (ix2 r ⟨mm.val - jj * 1024, by omega⟩))
      else prev) = below (colF m c t.val mm) (seen t.val mm) := by
  subst hjj
  by_cases h : t.val % 8 * 1024 ≤ mm.val ∧ mm.val < t.val % 8 * 1024 + 1024
  · rw [dif_pos h, tile_col_inf m c t mm h, hprev, if_pos h, seen_in t.val mm h]
    exact (below_block (colF m c t.val mm) ⟨t.val / 8 % 8, Nat.mod_lt _ (by norm_num)⟩).symm
  · rw [dif_neg h, hprev, if_neg h]

theorem col_step (t : Fin cfg0.N) (mm : Fin 8192) (prev : EReal)
    (hprev : prev = below (colF m c t.val mm)
      (if t.val % 8 * 1024 ≤ mm.val ∧ mm.val < t.val % 8 * 1024 + 1024 then t.val / 8 % 8 * 1024 else seen t.val mm)) :
    (if h : ((grid0.coords t) 2).val * 1024 ≤ mm.val ∧ mm.val < ((grid0.coords t) 2).val * 1024 + 1024 then
        min prev (Finset.univ.inf fun r : Fin 1024 =>
          k0_pay7 (F := Ideal) (iblk m c 0 t) (iblk m c 1 t) (ix2 r ⟨mm.val - ((grid0.coords t) 2).val * 1024, by omega⟩))
      else prev) = below (colF m c t.val mm) (seen t.val mm) :=
  col_step' m c t mm prev _ (coord2 t) hprev

theorem col_inv : ∀ (n : ℕ) (t : Fin cfg0.N), t.val = n → ∀ mm : Fin 8192,
    (outsAt0 m c t.val t.isLt).1 (ix3 (0 : Fin 1) (0 : Fin 1) mm)
      = if t.val % 64 = 63 then Ideal.sqrt (below (colF m c t.val mm) (seen t.val mm)) else below (colF m c t.val mm) (seen t.val mm) := by
  intro n
  induction n with
  | zero =>
    intro t ht mm
    rw [outsAt0_A m c t (by omega) (by omega) (by omega) (by omega)]
    dsimp only
    rw [out6_A_apply, if_neg (by omega)]
    exact col_step m c t mm ⊤ (by rw [seen_first t.val mm (by omega), below_zero])
  | succ n ih =>
    intro t ht mm
    have hN := pt_lt t
    by_cases h1 : t.val % 64 = 0
    · rw [outsAt0_A m c t (by omega) h1 (by omega) (by omega)]
      dsimp only
      rw [out6_A_apply, if_neg (by omega)]
      exact col_step m c t mm ⊤ (by rw [seen_first t.val mm h1, below_zero])
    · -- the accumulator carries what the point before left
      have hlt : t.val - 1 < cfg0.N := Nat.lt_of_le_of_lt (Nat.sub_le _ _) t.isLt
      have hsame : colF m c (t.val - 1) mm = colF m c t.val mm := by
        funext nn
        have hb : bOf (t.val - 1) = bOf t.val := Fin.ext (by unfold bOf; simp only; omega)
        simp only [colF, hb]
      have e : (outsAt0 m c (t.val - 1) hlt).1 (ix3 (0 : Fin 1) (0 : Fin 1) mm)
          = if (t.val - 1) % 64 = 63 then Ideal.sqrt (below (colF m c (t.val - 1) mm) (seen (t.val - 1) mm))
            else below (colF m c (t.val - 1) mm) (seen (t.val - 1) mm) :=
        ih ⟨t.val - 1, hlt⟩ (by show t.val - 1 = n; omega) mm
      have hprev : (outsAt0 m c (t.val - 1) hlt).1 (ix3 (0 : Fin 1) (0 : Fin 1) mm)
          = below (colF m c t.val mm)
              (if t.val % 8 * 1024 ≤ mm.val ∧ mm.val < t.val % 8 * 1024 + 1024 then t.val / 8 % 8 * 1024 else seen t.val mm) := by
        rw [e, if_neg (by omega), hsame, seen_prev t.val mm h1]
      by_cases h0 : t.val % 8 = 0
      · rw [outsAt0_D m c t h0 h1 (by omega) (by omega)]
        dsimp only
        rw [out6_D_apply, if_neg (by omega)]
        exact col_step m c t mm _ hprev
      · by_cases h2 : t.val % 8 = 7
        · by_cases h3 : t.val % 64 = 63
          · rw [outsAt0_E m c t h0 h1 h2 h3]
            dsimp only
            rw [out6_E_apply, if_pos h3]
            exact congrArg Ideal.sqrt (col_step m c t mm _ hprev)
          · rw [outsAt0_C m c t h0 h1 h2 h3]
            dsimp only
            rw [out6_C_apply, if_neg h3]
            exact col_step m c t mm _ hprev
        · have h3 : ¬ t.val % 64 = 63 := by omega
          rw [outsAt0_B m c t h0 h1 h2 h3]
          dsimp only
          rw [out6_B_apply, if_neg h3]
          exact col_step m c t mm _ hprev

/-! ## The two output arrays after the launch -/

/-- The row output: for every point of the first cloud its distance to the nearest point of the second. -/
def Grow : (⟨S4x1x8192, .f32⟩ : BufTy).Contents (Elt Ideal) :=
  fun idx => nearRow (X m c) (Y m c) ⟨(idx 0).val, (idx 0).isLt⟩ ⟨(idx 2).val, (idx 2).isLt⟩

/-- The column output: for every point of the second cloud its distance to the nearest point of the first. -/
def Gcol : (⟨S4x1x8192, .f32⟩ : BufTy).Contents (Elt Ideal) :=
  fun idx => nearCol (X m c) (Y m c) ⟨(idx 0).val, (idx 0).isLt⟩ ⟨(idx 2).val, (idx 2).isLt⟩

theorem eq_ix3_unit {a : Nat} (y : (⟨3, ![1, 1, a]⟩ : Shape).Idx) : y = ix3 (0 : Fin 1) (0 : Fin 1) (y 2) := by
  funext d
  match d with
  | ⟨0, _⟩ => exact Fin.ext (by have : (y 0).val < 1 := (y 0).isLt; show (y 0).val = 0; omega)
  | ⟨1, _⟩ => exact Fin.ext (by have : (y 1).val < 1 := (y 1).isLt; show (y 1).val = 0; omega)
  | ⟨2, _⟩ => rfl

/-- The block of roots stored at a point with j = 7, entry by entry. -/
theorem rowOut_apply (t : Fin cfg0.N) (h2 : t.val % 8 = 7) (r : Fin 1024) :
    rowOut0 m c t (ix3 (0 : Fin 1) (0 : Fin 1) r) = Ideal.sqrt ((outsAt0 m c t.val t.isLt).2 (ix2 r (0 : Fin 1))) := by
  have hN := pt_lt t
  have h0 : ¬ t.val % 8 = 0 := by omega
  have h1 : ¬ t.val % 64 = 0 := by omega
  by_cases h3 : t.val % 64 = 63
  · rw [rowOut0_E m c t h0 h1 h2 h3, out5_E_apply, outsAt0_E m c t h0 h1 h2 h3]
  · rw [rowOut0_C m c t h0 h1 h2 h3, out5_C_apply, outsAt0_C m c t h0 h1 h2 h3]

/-- What a point with j = 7 writes back to the row output is its block of `Grow`. -/
theorem flushed2_eq (t : Fin cfg0.N) (hf : (cfg0.win 2).flush t = true) :
    (dats m 0 c).flushed 2 t = ((cfg0.win 2).blk t).view.read (Elt Ideal) (Grow m c) := by
  have hN := pt_lt t
  have h2 : t.val % 8 = 7 := (flush0_2 t).mp hf
  show ((cfg0.win 2).cut (grid0.coords t) ((dats m 0 c).after 2 t) : S1x1x1024.Idx → EReal) = _
  rw [after0_2]
  funext y
  obtain ⟨r, rfl⟩ : ∃ r : Fin 1024, y = ix3 (0 : Fin 1) (0 : Fin 1) r := ⟨y 2, eq_ix3_unit y⟩
  rw [blk2_read]
  show rowOut0 m c t (ix3 (0 : Fin 1) (0 : Fin 1) r) = _
  rw [rowOut_apply m c t h2 r, row_inv m c t.val t rfl r, h2]
  have hb : (⟨t.val / 64, batch_lt t⟩ : Fin 4) = bOf t.val := Fin.ext (by unfold bOf; simp only; omega)
  show Ideal.sqrt (below (rowF m c t.val r) 8192) = nearRow (X m c) (Y m c) ⟨t.val / 64, _⟩ ⟨t.val / 8 % 8 * 1024 + r.val, _⟩
  rw [below_full]
  unfold nearRow
  simp only [hb]
  rfl

/-- What a batch's last point writes back to the column output is its block of `Gcol`. -/
theorem flushed3_eq (t : Fin cfg0.N) (hf : (cfg0.win 3).flush t = true) :
    (dats m 0 c).flushed 3 t = ((cfg0.win 3).blk t).view.read (Elt Ideal) (Gcol m c) := by
  have hN := pt_lt t
  have h3 : t.val % 64 = 63 := (flush0_3 t).mp hf
  show ((cfg0.win 3).cut (grid0.coords t) ((dats m 0 c).after 3 t) : S1x1x8192.Idx → EReal) = _
  rw [after0_3]
  funext y
  obtain ⟨mm, rfl⟩ : ∃ mm : Fin 8192, y = ix3 (0 : Fin 1) (0 : Fin 1) mm := ⟨y 2, eq_ix3_unit y⟩
  rw [blk3_read]
  show (outsAt0 m c t.val t.isLt).1 (ix3 (0 : Fin 1) (0 : Fin 1) mm) = _
  rw [col_inv m c t.val t rfl mm, if_pos h3]
  have hs : seen t.val mm = 8192 := by
    have := mm.isLt
    unfold seen; split_ifs <;> omega
  rw [hs, below_full]
  have hb : (⟨t.val / 64, batch_lt t⟩ : Fin 4) = bOf t.val := Fin.ext (by unfold bOf; simp only; omega)
  show _ = nearCol (X m c) (Y m c) ⟨t.val / 64, _⟩ ⟨mm.val, _⟩
  unfold nearCol
  simp only [hb]

theorem final2 : (dats m 0 c).arrAt 2 cfg0.N = Grow m c :=
  (dats m 0 c).arrAt_eq_of_cover 2 (Grow m c) (fun t hf => flushed2_eq m c t hf) cover2

theorem final3 : (dats m 0 c).arrAt 3 cfg0.N = Gcol m c :=
  (dats m 0 c).arrAt_eq_of_cover 3 (Gcol m c) (fun t hf => flushed3_eq m c t hf) cover3

theorem final_row (b : Fin 4) (n : Fin 8192) :
    ((dats m 0 c).arrAt 2 cfg0.N : (⟨S4x1x8192, .f32⟩ : BufTy).Contents (Elt Ideal)) (ix3 b (0 : Fin 1) n)
      = nearRow (m ((c.tc : Thread nD τ).loc main_arg1)) (m ((c.tc : Thread nD τ).loc main_arg2)) b n := by
  rw [final2]; rfl

theorem final_col (b : Fin 4) (mm : Fin 8192) :
    ((dats m 0 c).arrAt 3 cfg0.N : (⟨S4x1x8192, .f32⟩ : BufTy).Contents (Elt Ideal)) (ix3 b (0 : Fin 1) mm)
      = nearCol (m ((c.tc : Thread nD τ).loc main_arg1)) (m ((c.tc : Thread nD τ).loc main_arg2)) b mm := by
  rw [final3]; rfl

end Cert.KernelIdeal.Accum

end
-- ==== Proof.TailValue.lean ====
/-
  The host operations after the kernel's call, read at the ideal values.

  From the kernel's two outputs, the rows of nearest-point distances, the host sums each whole row block from zero,
  divides by the count, adds and halves: the fine loss. The coarse loss is computed by the host with the same
  operations the reference uses.
-/
import proofs.«171865_j33663953666360_2_alg».proof.Proof.Gen.KernelIdeal
import proofs.«171865_j33663953666360_2_alg».proof.Proof.Gen.ReferenceIdeal.Read
import proofs.«171865_j33663953666360_2_alg».proof.Proof.Spec
import Idealize.ShloMosaic.Lib.ValueIdx
import Idealize.ShloMosaic.PureOps.Ideal.Laws

noncomputable section

namespace Cert.KernelIdeal.TailValue

open Cert.KernelIdeal Cert.KernelIdeal.Gen Idealize.ShloMosaic Idealize.ShloMosaic.TcCoe Idealize.SL.Sem Idealize.ShloMosaic.StableHlo Idealize.ShloMosaic.ValueIdx

/-! ## The fine loss from the two rows of nearest-point distances -/

/-- An index of a `[4, 1, 8192]` block is its first and last coordinates. -/
def idxEquiv (n0 n2 : Nat) : (⟨3, ![n0, 1, n2]⟩ : Shape).Idx ≃ Fin n0 × Fin n2 where
  toFun i := (i 0, i 2)
  invFun p := ix3 p.1 (0 : Fin 1) p.2
  left_inv i := funext fun a => Fin.ext (by
    match a with
    | ⟨0, _⟩ => rfl
    | ⟨1, _⟩ => exact (Nat.lt_one_iff.1 (i 1).isLt).symm
    | ⟨2, _⟩ => rfl)
  right_inv _ := rfl

/-- A sum over such a block is the double sum over the first and last coordinates. -/
theorem sum_idx3_mid {M : Type*} [AddCommMonoid M] {n0 n2 : Nat} (f : (⟨3, ![n0, 1, n2]⟩ : Shape).Idx → M) :
    ∑ i, f i = ∑ a : Fin n0, ∑ c : Fin n2, f (ix3 a (0 : Fin 1) c) := by
  rw [← Equiv.sum_comp (idxEquiv n0 n2).symm f, Fintype.sum_prod_type]
  rfl

/-- The sum of a whole `[4, 1, 8192]` block from zero, as the host takes it, is zero plus the double sum. -/
theorem total_sum (R : (⟨S4x1x8192, .f32⟩ : BufTy).Contents (Elt Ideal)) (i : S_.Idx) :
    Host.reduceAdd (F := Ideal) R (constant (F := Ideal) S_ .f32 0x00000000#32) reducesTo_S4x1x8192_S_d0_1_2 h_S_ i
      = Cert.Chamfer.zero + ∑ b : Fin 4, ∑ n : Fin 8192, R (ix3 b (0 : Fin 1) n) := by
  simp only [Host.reduceAdd, Ideal.hostReduceAdd_def]
  rw [Ideal.hostReduceAdd_total reducesTo_S4x1x8192_S_d0_1_2 (fun b => b.elim0) R _ i, sum_idx3_mid]
  rfl

/-- With the two outputs the rows of nearest-point distances, the host's tail is the fine loss. -/
theorem fine_tail (R C : (⟨S4x1x8192, .f32⟩ : BufTy).Contents (Elt Ideal)) (x y : Cert.Chamfer.Cloud.Idx → EReal)
    (hR : ∀ (b : Fin 4) (n : Fin 8192), R (ix3 b (0 : Fin 1) n) = Cert.Chamfer.nearRow x y b n)
    (hC : ∀ (b : Fin 4) (m : Fin 8192), C (ix3 b (0 : Fin 1) m) = Cert.Chamfer.nearCol x y b m) :
    mulf (constant (F := Ideal) S_ .f32 0x3F000000#32)
      (addf (Host.divf (Host.reduceAdd (F := Ideal) R (constant (F := Ideal) S_ .f32 0x00000000#32) reducesTo_S4x1x8192_S_d0_1_2 h_S_) (constant (F := Ideal) S_ .f32 0x47000000#32))
        (Host.divf (Host.reduceAdd (F := Ideal) C (constant (F := Ideal) S_ .f32 0x00000000#32) reducesTo_S4x1x8192_S_d0_1_2 h_S_) (constant (F := Ideal) S_ .f32 0x47000000#32)))
      = fun _ => Cert.Chamfer.lossFine x y := by
  funext i
  show Cert.Chamfer.half * (Ideal.div (Host.reduceAdd (F := Ideal) R (constant (F := Ideal) S_ .f32 0x00000000#32) reducesTo_S4x1x8192_S_d0_1_2 h_S_ i) Cert.Chamfer.count
      + Ideal.div (Host.reduceAdd (F := Ideal) C (constant (F := Ideal) S_ .f32 0x00000000#32) reducesTo_S4x1x8192_S_d0_1_2 h_S_ i) Cert.Chamfer.count) = _
  rw [total_sum, total_sum]
  simp only [hR, hC]
  rfl

/-! ## The coarse loss -/

/-- The host computes the coarse loss with the reference's own operations. -/
theorem coarse_tail (p q : (⟨S4x1024x3, .f32⟩ : BufTy).Contents (Elt Ideal)) :
    Host.divf (Host.reduceAdd (F := Ideal) (Host.sqrt (Host.reduceAdd (F := Ideal) (mulf (subf p q) (subf p q)) (constant (F := Ideal) S_ .f32 0x00000000#32) reducesTo_S4x1024x3_S4x1024_d2 h_S_)) (constant (F := Ideal) S_ .f32 0x00000000#32) reducesTo_S4x1024_S_d0_1 h_S_) (constant (F := Ideal) S_ .f32 0x45800000#32)
      = Cert.ReferenceIdeal.Read.val_main_v30 (F := Ideal) p q := rfl

end Cert.KernelIdeal.TailValue

end
-- ==== Proof.TailRead.lean ====
/-
  The host lines after the launch, read off the frame run at the ideal values.

  The fine result is the host tail of the two output arrays as the write-backs leave them; the coarse result is computed
  from the two coarse clouds as launched, which no window stages and no host line writes.
-/
import proofs.«171865_j33663953666360_2_alg».proof.Proof.BodyIdeal.Frame
import proofs.«171865_j33663953666360_2_alg».proof.Proof.TailValue

set_option maxRecDepth 16384

noncomputable section

namespace Cert.KernelIdeal.TailRead

open Cert.KernelIdeal Cert.KernelIdeal.Gen
open Idealize.ShloMosaic Idealize.ShloMosaic.TcCoe Idealize.ShloMosaic.Tactic
open Idealize.SL Idealize.SL.Sem
open Idealize.ShloMosaic.StableHlo
open Idealize.ShloMosaic.Pipeline (Dat Cfg Window)
open Idealize.ShloMosaic.ValueIdx

variable (m : (ℓ : Loc nD τ sig) → Buf (Elt Ideal) ℓ)

/-- The fine result after the host lines that follow the launch: with the two output arrays the rows of nearest-point
    distances, it is the fine loss. -/
theorem tail_fine (c : Dev nD) (x y : Cert.Chamfer.Cloud.Idx → EReal)
    (hR : ∀ (b : Fin 4) (n : Fin 8192),
      ((Body.dats m 0 c).arrAt 2 cfg0.N : (⟨S4x1x8192, .f32⟩ : BufTy).Contents (Elt Ideal)) (ix3 b (0 : Fin 1) n) = Cert.Chamfer.nearRow x y b n)
    (hC : ∀ (b : Fin 4) (mm : Fin 8192),
      ((Body.dats m 0 c).arrAt 3 cfg0.N : (⟨S4x1x8192, .f32⟩ : BufTy).Contents (Elt Ideal)) (ix3 b (0 : Fin 1) mm) = Cert.Chamfer.nearCol x y b mm) :
    Pipeline.afterTail₀ cfgs (Body.dats m) 0 (V0 m) [hostOps1] c main_v6 = fun _ => Cert.Chamfer.lossFine x y := by
  unfold Pipeline.afterTail₀
  show StableHlo.after hostOps1 _ (Proc.devRef .tc main_v6) = _
  after_results
  have e2 : Pipeline.withArrays (cfgs 0).spec c (V0 m c) (fun w => (Body.dats m 0 c).arrAt w (cfgs 0).N) (Proc.devRef .tc main_v0_0)
      = (Body.dats m 0 c).arrAt 2 cfg0.N := Pipeline.withArrays_arr spec0 launch0.win.arr_inj c _ _ 2
  have e3 : Pipeline.withArrays (cfgs 0).spec c (V0 m c) (fun w => (Body.dats m 0 c).arrAt w (cfgs 0).N) (Proc.devRef .tc main_v0_1)
      = (Body.dats m 0 c).arrAt 3 cfg0.N := Pipeline.withArrays_arr spec0 launch0.win.arr_inj c _ _ 3
  rw [e2, e3]
  exact TailValue.fine_tail _ _ x y hR hC

/-- The coarse result after the host lines that follow the launch is the reference's coarse loss of the two launched
    coarse clouds. -/
theorem tail_coarse (c : Dev nD) :
    Pipeline.afterTail₀ cfgs (Body.dats m) 0 (V0 m) [hostOps1] c main_v12
      = Cert.ReferenceIdeal.Read.val_main_v30 (F := Ideal) (m ((c.tc : Thread nD τ).loc main_arg0)) (m ((c.tc : Thread nD τ).loc main_arg3)) := by
  unfold Pipeline.afterTail₀
  show StableHlo.after hostOps1 _ (Proc.devRef .tc main_v12) = _
  after_results
  rw [Pipeline.withArrays_of_ne _ c (V0 m c) _ main_arg0 (by exact (by decide : ∀ w, Pipeline.arrRef spec0 w ≠ main_arg0)),
    Pipeline.withArrays_of_ne _ c (V0 m c) _ main_arg3 (by exact (by decide : ∀ w, Pipeline.arrRef spec0 w ≠ main_arg3))]
  exact TailValue.coarse_tail _ _

end Cert.KernelIdeal.TailRead

end
-- ==== Proof.KernelRun.lean ====
/-
  The kernel's run, read: both results as functions of the argument arrays.

  The launch leaves in the row output, at (b, 0, n), the distance from point n of the first cloud to the nearest point of
  the second, and in the column output, at (b, 0, mm), the distance from point mm of the second cloud to the nearest
  point of the first; the host lines after it sum the two arrays, divide by the number of points and halve the sum of
  the two means: the fine loss. The coarse term never enters the launch: it is the same chain of host operations in
  both programs.
-/
import proofs.«171865_j33663953666360_2_alg».proof.Proof.Accumulate
import proofs.«171865_j33663953666360_2_alg».proof.Proof.TailRead

noncomputable section

namespace Cert.KernelIdeal.KernelRun

open Cert.KernelIdeal Cert.KernelIdeal.Gen Cert.KernelIdeal.Body Cert.Chamfer
open Idealize.ShloMosaic Idealize.ShloMosaic.TcCoe Idealize.ShloMosaic.ValueIdx Idealize.SL.Sem

variable (m : (ℓ : Loc nD τ sig) → Buf (Elt Ideal) ℓ) (ρ : Dev nD → PrngReg)

/-- Every weakly fair execution of the idealized kernel terminates with the coarse result at the reference's coarse term
    of the first and last argument, the fine result at the chamfer loss of the two middle ones, and the arguments
    unchanged. -/
theorem run : θ_run defs (onTc (τ := τ) (main (F := Ideal))) ⟨m, fun _ => 0, ρ⟩ (fun r => ∀ c : Dev nD,
      r.2.mem ((c.tc : Thread nD τ).loc main_v12)
          = Cert.ReferenceIdeal.Read.val_main_v30 (F := Ideal) (m ((c.tc : Thread nD τ).loc main_arg0)) (m ((c.tc : Thread nD τ).loc main_arg3))
      ∧ r.2.mem ((c.tc : Thread nD τ).loc main_v6)
          = (fun _ => lossFine (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v12 (Pipeline.mem_restRefs_of main_v12 (by decide) (by decide))).trans (TailRead.tail_coarse m c),
     ((h c).2 main_v6 (Pipeline.mem_restRefs_of main_v6 (by decide) (by decide))).trans
        (TailRead.tail_fine m c _ _ (Accum.final_row m c) (Accum.final_col m c)),
     (((h c).2 main_arg0 (Pipeline.mem_restRefs_of main_arg0 (by decide) (by decide))).trans (W_main_arg0 m (dats m) c)),
     ((h c).1 0).trans (((dats m 0 c).arrAt_in 0 rfl _).trans ((A_eq m c 0).trans (V_main_arg1 m c))),
     ((h c).1 1).trans (((dats m 0 c).arrAt_in 1 rfl _).trans ((A_eq m c 1).trans (V_main_arg2 m c))),
     (((h c).2 main_arg3 (Pipeline.mem_restRefs_of main_arg3 (by decide) (by decide))).trans (W_main_arg3 m (dats m) c))⟩)
    (run_main m ρ)

end Cert.KernelIdeal.KernelRun

end
-- ==== Proof.RefValue.lean ====
/-
  The reference program read as the chamfer loss of the specification.

  Stage by stage: the clamped squared distance of a point of the first cloud to a point of the second, its minimum over
  the second cloud's points and over the first cloud's points, the roots of the two minima, and half the sum of their
  means.
-/
import proofs.«171865_j33663953666360_2_alg».proof.Proof.Gen.ReferenceIdeal.Read
import proofs.«171865_j33663953666360_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx
open Cert.ReferenceIdeal.Read

/-! ## The clamped squared distance -/

/-- `|x_n|²`: the first cloud's squared norm as the reference accumulates it. -/
theorem sq_x (x : (⟨S4x8192x3, .f32⟩ : BufTy).Contents (Elt Ideal)) (b : Fin 4) (n : Fin 8192) :
    val_main_v1 (F := Ideal) x (ix2 b n) = Cert.Chamfer.sq x b n := by
  rw [val_main_v1_apply]
  unfold Cert.Chamfer.sq
  refine congrArg₂ (· + ·) rfl (Finset.sum_congr rfl fun k _ => ?_)
  rw [val_main_v0_apply]
  have e : idx_main_v1 (ix2 b n) k = ix3 b n k :=
    funext fun a => Fin.ext (by match a with | ⟨0, _⟩ => rfl | ⟨1, _⟩ => rfl | ⟨2, _⟩ => rfl)
  rw [e]; rfl

/-- `|y_m|²`. -/
theorem sq_y (y : (⟨S4x8192x3, .f32⟩ : BufTy).Contents (Elt Ideal)) (b : Fin 4) (m : Fin 8192) :
    val_main_v4 (F := Ideal) y (ix2 b m) = Cert.Chamfer.sq y b m := by
  rw [val_main_v4_apply]
  unfold Cert.Chamfer.sq
  refine congrArg₂ (· + ·) rfl (Finset.sum_congr rfl fun k _ => ?_)
  rw [val_main_v3_apply]
  have e : idx_main_v4 (ix2 b m) k = ix3 b m k :=
    funext fun a => Fin.ext (by match a with | ⟨0, _⟩ => rfl | ⟨1, _⟩ => rfl | ⟨2, _⟩ => rfl)
  rw [e]; rfl

/-- `⟨x_n, y_m⟩`. -/
theorem dot_xy (x y : (⟨S4x8192x3, .f32⟩ : BufTy).Contents (Elt Ideal)) (b : Fin 4) (n m : Fin 8192) :
    val_main_v6 (F := Ideal) x y (ix3 b n m) = Cert.Chamfer.dotp x y b n m := by
  rw [val_main_v6_apply]
  unfold Cert.Chamfer.dotp
  refine Finset.sum_congr rfl fun k _ => ?_
  have el : lidx_main_v6 (ix3 b n m) k = ix3 b n k :=
    funext fun a => Fin.ext (by match a with | ⟨0, _⟩ => rfl | ⟨1, _⟩ => rfl | ⟨2, _⟩ => rfl)
  have er : ridx_main_v6 (ix3 b n m) k = ix3 b m k :=
    funext fun a => Fin.ext (by match a with | ⟨0, _⟩ => rfl | ⟨1, _⟩ => rfl | ⟨2, _⟩ => rfl)
  rw [el, er]

/-- The reference's clamped squared distance of point `n` of `x` to point `m` of `y` is the specification's. -/
theorem dist_eq (x y : (⟨S4x8192x3, .f32⟩ : BufTy).Contents (Elt Ideal)) (b : Fin 4) (n m : Fin 8192) :
    val_main_v14 (F := Ideal) x y (ix3 b n m) = Cert.Chamfer.dist x y b n m := by
  rw [val_main_v14_apply, val_main_v12_apply, val_main_v9_apply, val_main_v11_apply, val_main_v7_apply,
    val_main_v2_apply, val_main_v8_apply, val_main_v5_apply, val_main_v10_apply, val_main_v13_apply,
    val_main_cst_1_apply, val_main_cst_2_apply]
  have e1 : idx_main_v2 (idx_main_v7 (ix3 b n m)) = ix2 b n :=
    funext fun a => Fin.ext (by match a with | ⟨0, _⟩ => rfl | ⟨1, _⟩ => rfl)
  have e2 : idx_main_v5 (idx_main_v8 (ix3 b n m)) = ix2 b m :=
    funext fun a => Fin.ext (by match a with | ⟨0, _⟩ => rfl | ⟨1, _⟩ => rfl)
  rw [e1, e2, sq_x, sq_y, dot_xy]
  rfl

/-! ## The two minima -/

/-- The word the minima start from is the top of the extended reals. -/
theorem top_bits : Ideal.ofBits .f32 0x7F800000#32 = (⊤ : EReal) := by
  simp [Ideal.ofBits, Ideal.ieee]

/-- A fold of `min` from that word over a whole finite range is the infimum over it. -/
theorem fold_min_eq_inf {n : Nat} (f : Fin n → EReal) :
    (Finset.univ : Finset (Fin n)).fold min (Ideal.ofBits .f32 0x7F800000#32) f = Finset.univ.inf f := by
  rw [top_bits]; rfl

/-- The index `(b, n)` with `k` put back on the last axis is `(b, n, k)`. -/
theorem lift_d2 (h : S4x8192x8192.Reduces [2] S4x8192) (b : Fin 4) (n : Fin 8192) (k : Fin (S4x8192x8192.size 2)) :
    h.lift (ix2 b n) k = ix3 b n (⟨k.val, k.isLt⟩ : Fin 8192) := by
  funext c; apply Fin.ext
  match c with
  | ⟨0, _⟩ => rfl
  | ⟨1, _⟩ => rfl
  | ⟨2, _⟩ => rfl

/-- The index `(b, m)` with `k` put back on the middle axis is `(b, k, m)`. -/
theorem lift_d1 (h : S4x8192x8192.Reduces [1] S4x8192) (b : Fin 4) (m : Fin 8192) (k : Fin (S4x8192x8192.size 1)) :
    h.lift (ix2 b m) k = ix3 b (⟨k.val, k.isLt⟩ : Fin 8192) m := by
  funext c; apply Fin.ext
  match c with
  | ⟨0, _⟩ => rfl
  | ⟨1, _⟩ => rfl
  | ⟨2, _⟩ => rfl

/-- The minimum over the second cloud's points, at `(b, n)`. -/
theorem rowmin_eq (x y : (⟨S4x8192x3, .f32⟩ : BufTy).Contents (Elt Ideal)) (b : Fin 4) (n : Fin 8192) :
    val_main_v15 (F := Ideal) x y (ix2 b n) = Finset.univ.inf fun m : Fin 8192 => Cert.Chamfer.dist x y b n m := by
  have h : S4x8192x8192.Reduces [2] S4x8192 := by decide
  unfold val_main_v15
  rw [Host.reduce_eq_fold_single FloatOps.minimumf _ _ reducesTo_S4x8192x8192_S4x8192_d2 h h_S_]
  have hf : (val_main_v14 (F := Ideal) x y ∘ h.lift (ix2 b n)) = fun m : Fin 8192 => Cert.Chamfer.dist x y b n m :=
    funext fun k => (congrArg (val_main_v14 (F := Ideal) x y) (lift_d2 h b n k)).trans (dist_eq x y b n ⟨k.val, k.isLt⟩)
  rw [hf]
  exact fold_min_eq_inf _

/-- The minimum over the first cloud's points, at `(b, m)`. -/
theorem colmin_eq (x y : (⟨S4x8192x3, .f32⟩ : BufTy).Contents (Elt Ideal)) (b : Fin 4) (m : Fin 8192) :
    val_main_v17 (F := Ideal) x y (ix2 b m) = Finset.univ.inf fun n : Fin 8192 => Cert.Chamfer.dist x y b n m := by
  have h : S4x8192x8192.Reduces [1] S4x8192 := by decide
  unfold val_main_v17
  rw [Host.reduce_eq_fold_single FloatOps.minimumf _ _ reducesTo_S4x8192x8192_S4x8192_d1 h h_S_]
  have hf : (val_main_v14 (F := Ideal) x y ∘ h.lift (ix2 b m)) = fun n : Fin 8192 => Cert.Chamfer.dist x y b n m :=
    funext fun k => (congrArg (val_main_v14 (F := Ideal) x y) (lift_d1 h b m k)).trans (dist_eq x y b ⟨k.val, k.isLt⟩ m)
  rw [hf]
  exact fold_min_eq_inf _

/-- Distance from point `n` of `x` to the nearest point of `y`. -/
theorem row_eq (x y : (⟨S4x8192x3, .f32⟩ : BufTy).Contents (Elt Ideal)) (b : Fin 4) (n : Fin 8192) :
    val_main_v16 (F := Ideal) x y (ix2 b n) = Cert.Chamfer.nearRow x y b n := by
  rw [val_main_v16_apply, rowmin_eq]; rfl

/-- Distance from point `m` of `y` to the nearest point of `x`. -/
theorem col_eq (x y : (⟨S4x8192x3, .f32⟩ : BufTy).Contents (Elt Ideal)) (b : Fin 4) (m : Fin 8192) :
    val_main_v18 (F := Ideal) x y (ix2 b m) = Cert.Chamfer.nearCol x y b m := by
  rw [val_main_v18_apply, colmin_eq]; rfl

/-! ## The loss -/

/-- The reference's result is the fine loss of the two clouds. -/
theorem fine_eq (x y : (⟨S4x8192x3, .f32⟩ : BufTy).Contents (Elt Ideal)) :
    val_main_v24 (F := Ideal) x y = fun _ => Cert.Chamfer.lossFine x y := by
  funext i
  rw [val_main_v24_apply, val_main_v23_apply, val_main_v20_apply, val_main_v22_apply, val_main_v19_apply,
    val_main_v21_apply, val_main_cst_9_apply, val_main_cst_5_apply, val_main_cst_6_apply, val_main_cst_7_apply,
    val_main_cst_8_apply, sum_idx2, sum_idx2]
  simp only [row_eq, col_eq]
  rfl

end Cert.ReferenceIdeal.RefValue

end
-- ==== Proof.lean ====
/-
  The certificate of the fused chamfer kernel against its plain reference.

  Both programs compute, from two batches of point clouds, half the sum of the two mean nearest-point distances, and from
  two smaller batches a mean point distance. The reference takes the infimum of each row and each column of the whole
  8192 × 8192 distance table; the kernel walks the table tile by tile, keeping a running row minimum for the current
  block of rows and a running column minimum for every column of the batch. An infimum over a range is the minimum of
  the infima over its blocks, in any order, so the two agree on the extended reals — no finiteness is used. The kernel
  rewrites nothing, so its idealization is its own text read exactly.
-/
import proofs.«171865_j33663953666360_2_alg».proof.Defs
import proofs.«171865_j33663953666360_2_alg».proof.Proof.Gen.Kernel
import proofs.«171865_j33663953666360_2_alg».proof.Proof.Gen.KernelIdeal
import proofs.«171865_j33663953666360_2_alg».proof.Proof.Gen.ReferenceIdeal
import proofs.«171865_j33663953666360_2_alg».proof.Proof.Gen.Pre_finite_inputs
import proofs.«171865_j33663953666360_2_alg».proof.Proof.BodyBits.Frame
import proofs.«171865_j33663953666360_2_alg».proof.Proof.KernelRun
import proofs.«171865_j33663953666360_2_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel (hKernel := Cert.Kernel.Gen.facts) (hPre_finite_inputs := Cert.Pre_finite_inputs.Gen.facts) :=
  fun m ρ _ => Cert.Kernel.Body.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Body.frame m ρ

/-- The reference is host operations only: its run, with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- From memories agreeing on the arguments both idealized programs end at the same two numbers: the coarse term is the
    same chain of operations, the fine one the chamfer loss on both sides. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, _, Cert.KernelIdeal.KernelRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.2.2]; rfl
  · rw [(hagree c).2.1, (hagree c).2.2.1, Cert.ReferenceIdeal.Read.val_main_v24_eq]
    exact Cert.ReferenceIdeal.RefValue.fine_eq _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
